-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v203)) (v1 : (c : Dev Cert.KernelIdeal.nD) → Buf (Elt Ideal) ((c.tc : Thread Cert.KernelIdeal.nD Cert.KernelIdeal.τ).loc Cert.KernelIdeal.main_v219)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v203) = v0 c
          ∧ r.2.mem ((c.tc : Thread Cert.KernelIdeal.nD Cert.KernelIdeal.τ).loc Cert.KernelIdeal.main_v219) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_v301) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x600000 : Shape := ⟨2, ![4, 600000]⟩
abbrev S4x128x128 : Shape := ⟨3, ![4, 128, 128]⟩
abbrev S4x128 : Shape := ⟨2, ![4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_arg9 : FVec F S4x128 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  main_v38

def fn_part1 {F : FTy → Type} [FloatOps F] (main_arg6 : FVec F S4x128 .f32) (main_arg7 : FVec F S4x128x128 .f32) (main_arg8 : FVec F S4x128x128 .f32) (main_arg9 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg7
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128x128 .f32 := Host.absf main_arg8
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg9 main_v33

def fn {F : FTy → Type} [FloatOps F] (main_arg0 : FVec F S100000x128 .f32) (main_arg1 : FVec F S100000x128 .f32) (main_arg2 : IVec S4x600000 32) (main_arg3 : IVec S4x600000 32) (main_arg4 : FVec F S4x128x128 .f32) (main_arg5 : FVec F S4x128x128 .f32) (main_arg6 : FVec F S4x128 .f32) (main_arg7 : FVec F S4x128x128 .f32) (main_arg8 : FVec F S4x128x128 .f32) (main_arg9 : FVec F S4x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S4x128x128 .f32 := Host.absf main_arg4
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_v13 main_v16
-- ==== Kernel.lean ====
abbrev S100000x128 : Shape := ⟨2, ![100000, 128]⟩
abbrev S4x600000 : Shape := ⟨2, ![4, 600000]⟩
abbrev S4x128x128 : Shape := ⟨3, ![4, 128, 128]⟩
abbrev S4x128 : Shape := ⟨2, ![4, 128]⟩
abbrev S_ : Shape := ⟨0, ![]⟩
abbrev S600000 : Shape := ⟨1, ![600000]⟩
abbrev S1x600000 : Shape := ⟨2, ![1, 600000]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4000x128 : Shape := ⟨2, ![4000, 128]⟩
abbrev S4000x1 : Shape := ⟨2, ![4000, 1]⟩

abbrev nBuf : Space → Nat
  | .hbm => 270
  | .vmem => 64
  | .smem => 0
  | _ => 0

abbrev hbmTy0_0 (i : Nat) : BufTy := match i % 128 with
  | 0 => ⟨S100000x128, .f32⟩
  | 1 => ⟨S100000x128, .f32⟩
  | 2 => ⟨S4x600000, .i32⟩
  | 3 => ⟨S4x600000, .i32⟩
  | 4 => ⟨S4x128x128, .f32⟩
  | 5 => ⟨S4x128x128, .f32⟩
  | 6 => ⟨S4x128, .f32⟩
  | 7 => ⟨S4x128x128, .f32⟩
  | 8 => ⟨S4x128x128, .f32⟩
  | 9 => ⟨S4x128, .f32⟩
  | 10 => ⟨S_, .f32⟩
  | 11 => ⟨S600000, .f32⟩
  | 12 => ⟨S1x600000, .i32⟩
  | 13 => ⟨S600000, .i32⟩
  | 14 => ⟨S_, .f32⟩
  | 15 => ⟨S100000, .f32⟩
  | 16 => ⟨S600000x1, .i32⟩
  | 17 => ⟨S100000, .f32⟩
  | 18 => ⟨S_, .f32⟩
  | 19 => ⟨S100000, .f32⟩
  | 20 => ⟨S100000, .f32⟩
  | 21 => ⟨S_, .f32⟩
  | 22 => ⟨S100000, .f32⟩
  | 23 => ⟨S100000, .f32⟩
  | 24 => ⟨S100000x1, .f32⟩
  | 25 => ⟨S_, .f32⟩
  | 26 => ⟨S600000, .f32⟩
  | 27 => ⟨S1x600000, .i32⟩
  | 28 => ⟨S600000, .i32⟩
  | 29 => ⟨S_, .f32⟩
  | 30 => ⟨S100000, .f32⟩
  | 31 => ⟨S600000x1, .i32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S100000x1, .f32⟩
  | 40 => ⟨S_, .f32⟩
  | 41 => ⟨S600000, .f32⟩
  | 42 => ⟨S1x600000, .i32⟩
  | 43 => ⟨S600000, .i32⟩
  | 44 => ⟨S_, .f32⟩
  | 45 => ⟨S100000, .f32⟩
  | 46 => ⟨S600000x1, .i32⟩
  | 47 => ⟨S100000, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .f32⟩
  | 54 => ⟨S100000x1, .f32⟩
  | 55 => ⟨S_, .f32⟩
  | 56 => ⟨S600000, .f32⟩
  | 57 => ⟨S1x600000, .i32⟩
  | 58 => ⟨S600000, .i32⟩
  | 59 => ⟨S_, .f32⟩
  | 60 => ⟨S100000, .f32⟩
  | 61 => ⟨S600000x1, .i32⟩
  | 62 => ⟨S100000, .f32⟩
  | 63 => ⟨S_, .f32⟩
  | 64 => ⟨S100000, .f32⟩
  | 65 => ⟨S100000, .f32⟩
  | 66 => ⟨S_, .f32⟩
  | 67 => ⟨S100000, .f32⟩
  | 68 => ⟨S100000, .f32⟩
  | 69 => ⟨S100000x1, .f32⟩
  | 70 => ⟨S1x600000, .i32⟩
  | 71 => ⟨S600000, .i32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S1x600000, .i32⟩
  | 82 => ⟨S600000, .i32⟩
  | 83 => ⟨S_, .f32⟩
  | 84 => ⟨S100000x128, .f32⟩
  | 85 => ⟨S600000x1, .i32⟩
  | 86 => ⟨S100000x128, .f32⟩
  | 87 => ⟨S1x600000, .i32⟩
  | 88 => ⟨S600000, .i32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000x128, .f32⟩
  | 98 => ⟨S1x600000, .i32⟩
  | 99 => ⟨S600000, .i32⟩
  | 100 => ⟨S_, .f32⟩
  | 101 => ⟨S100000x128, .f32⟩
  | 102 => ⟨S600000x1, .i32⟩
  | 103 => ⟨S100000x128, .f32⟩
  | 104 => ⟨S1x600000, .i32⟩
  | 105 => ⟨S600000, .i32⟩
  | 106 => ⟨S_, .i32⟩
  | 107 => ⟨S600000, .i32⟩
  | 108 => ⟨S600000, .i1⟩
  | 109 => ⟨S_, .i32⟩
  | 110 => ⟨S600000, .i32⟩
  | 111 => ⟨S600000, .i32⟩
  | 112 => ⟨S600000, .i32⟩
  | 113 => ⟨S600000x1, .i32⟩
  | 114 => ⟨S600000x128, .f32⟩
  | 115 => ⟨S1x600000, .i32⟩
  | 116 => ⟨S600000, .i32⟩
  | 117 => ⟨S_, .f32⟩
  | 118 => ⟨S100000x128, .f32⟩
  | 119 => ⟨S600000x1, .i32⟩
  | 120 => ⟨S100000x128, .f32⟩
  | 121 => ⟨S1x600000, .i32⟩
  | 122 => ⟨S600000, .i32⟩
  | 123 => ⟨S_, .i32⟩
  | 124 => ⟨S600000, .i32⟩
  | 125 => ⟨S600000, .i1⟩
  | 126 => ⟨S_, .i32⟩
  | 127 => ⟨S600000, .i32⟩
  | _ => ⟨S100000x128, .f32⟩

abbrev hbmTy0_1 (i : Nat) : BufTy := match i % 128 with
  | 0 => ⟨S600000, .i32⟩
  | 1 => ⟨S600000, .i32⟩
  | 2 => ⟨S600000x1, .i32⟩
  | 3 => ⟨S600000x128, .f32⟩
  | 4 => ⟨S1x600000, .i32⟩
  | 5 => ⟨S600000, .i32⟩
  | 6 => ⟨S_, .f32⟩
  | 7 => ⟨S100000x128, .f32⟩
  | 8 => ⟨S600000x1, .i32⟩
  | 9 => ⟨S100000x128, .f32⟩
  | 10 => ⟨S1x128x128, .f32⟩
  | 11 => ⟨S128x128, .f32⟩
  | 12 => ⟨S1x128x128, .f32⟩
  | 13 => ⟨S128x128, .f32⟩
  | 14 => ⟨S128x128, .f32⟩
  | 15 => ⟨S1x128, .f32⟩
  | 16 => ⟨S128, .f32⟩
  | 17 => ⟨S1x128, .f32⟩
  | 18 => ⟨S128, .f32⟩
  | 19 => ⟨S128, .f32⟩
  | 20 => ⟨S1x128x128, .f32⟩
  | 21 => ⟨S128x128, .f32⟩
  | 22 => ⟨S1x128x128, .f32⟩
  | 23 => ⟨S128x128, .f32⟩
  | 24 => ⟨S1x128, .f32⟩
  | 25 => ⟨S100000x128, .f32⟩
  | 26 => ⟨S1x128x128, .f32⟩
  | 27 => ⟨S128x128, .f32⟩
  | 28 => ⟨S1x128x128, .f32⟩
  | 29 => ⟨S128x128, .f32⟩
  | 30 => ⟨S128x128, .f32⟩
  | 31 => ⟨S1x128, .f32⟩
  | 32 => ⟨S128, .f32⟩
  | 33 => ⟨S1x128, .f32⟩
  | 34 => ⟨S128, .f32⟩
  | 35 => ⟨S128, .f32⟩
  | 36 => ⟨S1x128x128, .f32⟩
  | 37 => ⟨S128x128, .f32⟩
  | 38 => ⟨S1x128x128, .f32⟩
  | 39 => ⟨S128x128, .f32⟩
  | 40 => ⟨S1x128, .f32⟩
  | 41 => ⟨S100000x128, .f32⟩
  | 42 => ⟨S1x600000, .i32⟩
  | 43 => ⟨S600000, .i32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000x128, .f32⟩
  | 53 => ⟨S1x600000, .i32⟩
  | 54 => ⟨S600000, .i32⟩
  | 55 => ⟨S_, .f32⟩
  | 56 => ⟨S100000x128, .f32⟩
  | 57 => ⟨S600000x1, .i32⟩
  | 58 => ⟨S100000x128, .f32⟩
  | 59 => ⟨S1x600000, .i32⟩
  | 60 => ⟨S600000, .i32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S1x600000, .i32⟩
  | 71 => ⟨S600000, .i32⟩
  | 72 => ⟨S_, .f32⟩
  | 73 => ⟨S100000x128, .f32⟩
  | 74 => ⟨S600000x1, .i32⟩
  | 75 => ⟨S100000x128, .f32⟩
  | 76 => ⟨S1x600000, .i32⟩
  | 77 => ⟨S600000, .i32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S1x600000, .i32⟩
  | 88 => ⟨S600000, .i32⟩
  | 89 => ⟨S_, .f32⟩
  | 90 => ⟨S100000x128, .f32⟩
  | 91 => ⟨S600000x1, .i32⟩
  | 92 => ⟨S100000x128, .f32⟩
  | 93 => ⟨S1x600000, .i32⟩
  | 94 => ⟨S600000, .i32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x128, .f32⟩
  | 104 => ⟨S1x600000, .i32⟩
  | 105 => ⟨S600000, .i32⟩
  | 106 => ⟨S_, .f32⟩
  | 107 => ⟨S100000x128, .f32⟩
  | 108 => ⟨S600000x1, .i32⟩
  | 109 => ⟨S100000x128, .f32⟩
  | 110 => ⟨S1x128x128, .f32⟩
  | 111 => ⟨S128x128, .f32⟩
  | 112 => ⟨S1x128x128, .f32⟩
  | 113 => ⟨S128x128, .f32⟩
  | 114 => ⟨S128x128, .f32⟩
  | 115 => ⟨S1x128, .f32⟩
  | 116 => ⟨S128, .f32⟩
  | 117 => ⟨S1x128, .f32⟩
  | 118 => ⟨S128, .f32⟩
  | 119 => ⟨S128, .f32⟩
  | 120 => ⟨S1x128x128, .f32⟩
  | 121 => ⟨S128x128, .f32⟩
  | 122 => ⟨S1x128x128, .f32⟩
  | 123 => ⟨S128x128, .f32⟩
  | 124 => ⟨S1x128, .f32⟩
  | 125 => ⟨S100000x128, .f32⟩
  | 126 => ⟨S1x128x128, .f32⟩
  | 127 => ⟨S128x128, .f32⟩
  | _ => ⟨S100000x128, .f32⟩

abbrev hbmTy0_2 (i : Nat) : BufTy := match i % 128 with
  | 0 => ⟨S1x128x128, .f32⟩
  | 1 => ⟨S128x128, .f32⟩
  | 2 => ⟨S128x128, .f32⟩
  | 3 => ⟨S1x128, .f32⟩
  | 4 => ⟨S128, .f32⟩
  | 5 => ⟨S1x128, .f32⟩
  | 6 => ⟨S128, .f32⟩
  | 7 => ⟨S128, .f32⟩
  | 8 => ⟨S1x128x128, .f32⟩
  | 9 => ⟨S128x128, .f32⟩
  | 10 => ⟨S1x128x128, .f32⟩
  | 11 => ⟨S128x128, .f32⟩
  | 12 => ⟨S1x128, .f32⟩
  | 13 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S4000x128, .f32⟩
  | .local _ .vmem, ⟨7, _⟩ => ⟨S4000x128, .f32⟩
  | .local _ .vmem, ⟨8, _⟩ => ⟨S4000x1, .f32⟩
  | .local _ .vmem, ⟨9, _⟩ => ⟨S4000x1, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x1, .f32⟩
  | .local _ .vmem, ⟨21, _⟩ => ⟨S4000x1, .f32⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x1, .f32⟩
  | .local _ .vmem, ⟨37, _⟩ => ⟨S4000x1, .f32⟩
  | .local _ .vmem, ⟨38, _⟩ => ⟨S4000x128, .f32⟩
  | .local _ .vmem, ⟨39, _⟩ => ⟨S4000x128, .f32⟩
  | .local _ .vmem, ⟨40, _⟩ => ⟨S4000x1, .f32⟩
  | .local _ .vmem, ⟨41, _⟩ => ⟨S4000x1, .f32⟩
  | .local _ .vmem, ⟨42, _⟩ => ⟨S128x128, .f32⟩
  | .local _ .vmem, ⟨43, _⟩ => ⟨S128x128, .f32⟩
  | .local _ .vmem, ⟨44, _⟩ => ⟨S128x128, .f32⟩
  | .local _ .vmem, ⟨45, _⟩ => ⟨S1x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S4000x1, .f32⟩
  | .local _ .vmem, ⟨53, _⟩ => ⟨S4000x1, .f32⟩
  | .local _ .vmem, ⟨54, _⟩ => ⟨S4000x128, .f32⟩
  | .local _ .vmem, ⟨55, _⟩ => ⟨S4000x128, .f32⟩
  | .local _ .vmem, ⟨56, _⟩ => ⟨S4000x1, .f32⟩
  | .local _ .vmem, ⟨57, _⟩ => ⟨S4000x1, .f32⟩
  | .local _ .vmem, ⟨58, _⟩ => ⟨S128x128, .f32⟩
  | .local _ .vmem, ⟨59, _⟩ => ⟨S128x128, .f32⟩
  | .local _ .vmem, ⟨60, _⟩ => ⟨S128x128, .f32⟩
  | .local _ .vmem, ⟨61, _⟩ => ⟨S1x128, .f32⟩
  | .local _ .vmem, ⟨62, _⟩ => ⟨S4000x128, .f32⟩
  | .local _ .vmem, ⟨63, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c : Ref sig .tc := ⟨.hbm, 72, rfl⟩
abbrev main_v46 : Ref sig .tc := ⟨.hbm, 73, rfl⟩
abbrev main_v47 : Ref sig .tc := ⟨.hbm, 74, rfl⟩
abbrev main_c_15 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_16 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_17 : Ref sig .tc := ⟨.hbm, 89, rfl⟩
abbrev main_v60 : Ref sig .tc := ⟨.hbm, 90, rfl⟩
abbrev main_v61 : Ref sig .tc := ⟨.hbm, 91, rfl⟩
abbrev main_c_18 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_19 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_20 : Ref sig .tc := ⟨.hbm, 106, rfl⟩
abbrev main_v74 : Ref sig .tc := ⟨.hbm, 107, rfl⟩
abbrev main_v75 : Ref sig .tc := ⟨.hbm, 108, rfl⟩
abbrev main_c_21 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_22 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_23 : Ref sig .tc := ⟨.hbm, 123, rfl⟩
abbrev main_v88 : Ref sig .tc := ⟨.hbm, 124, rfl⟩
abbrev main_v89 : Ref sig .tc := ⟨.hbm, 125, rfl⟩
abbrev main_c_24 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_25 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_c_26 : Ref sig .tc := ⟨.hbm, 172, rfl⟩
abbrev main_v134 : Ref sig .tc := ⟨.hbm, 173, rfl⟩
abbrev main_v135 : Ref sig .tc := ⟨.hbm, 174, rfl⟩
abbrev main_c_27 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_28 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_c_29 : Ref sig .tc := ⟨.hbm, 189, rfl⟩
abbrev main_v148 : Ref sig .tc := ⟨.hbm, 190, rfl⟩
abbrev main_v149 : Ref sig .tc := ⟨.hbm, 191, rfl⟩
abbrev main_c_30 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_cst_31 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_c_32 : Ref sig .tc := ⟨.hbm, 206, rfl⟩
abbrev main_v162 : Ref sig .tc := ⟨.hbm, 207, rfl⟩
abbrev main_v163 : Ref sig .tc := ⟨.hbm, 208, rfl⟩
abbrev main_c_33 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_34 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_c_35 : Ref sig .tc := ⟨.hbm, 223, rfl⟩
abbrev main_v176 : Ref sig .tc := ⟨.hbm, 224, rfl⟩
abbrev main_v177 : Ref sig .tc := ⟨.hbm, 225, rfl⟩
abbrev main_c_36 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_cst_37 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg8_0 : Ref sig .tc := ⟨.vmem, 45, rfl⟩
abbrev cc2_stg9_0 : Ref sig .tc := ⟨.vmem, 46, rfl⟩
abbrev cc2_stg9_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg6_0 : Ref sig .tc := ⟨.vmem, 59, rfl⟩
abbrev cc3_stg7_0 : Ref sig .tc := ⟨.vmem, 60, rfl⟩
abbrev cc3_stg8_0 : Ref sig .tc := ⟨.vmem, 61, rfl⟩
abbrev cc3_stg9_0 : Ref sig .tc := ⟨.vmem, 62, rfl⟩
abbrev cc3_stg9_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem6_0 : DmaSem sig := 43
abbrev cc2_sem7_0 : DmaSem sig := 44
abbrev cc2_sem8_0 : DmaSem sig := 45
abbrev cc2_sem9_0 : DmaSem sig := 46
abbrev cc2_sem9_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem6_0 : DmaSem sig := 59
abbrev cc3_sem7_0 : DmaSem sig := 60
abbrev cc3_sem8_0 : DmaSem sig := 61
abbrev cc3_sem9_0 : DmaSem sig := 62
abbrev cc3_sem9_1 : DmaSem sig := 63

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bcast_S_S600000 : S_.BroadcastsInDim S600000 (![] : Fin 0 → Fin S600000.rank)
  slices_S4x600000_S1x600000_0_0 : S4x600000.Slices ![0, 0] S1x600000
  shapeCasts_S1x600000_S600000 : S1x600000.ShapeCasts S600000
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  slices_S4x600000_S1x600000_1_0 : S4x600000.Slices ![1, 0] S1x600000
  slices_S4x600000_S1x600000_2_0 : S4x600000.Slices ![2, 0] S1x600000
  slices_S4x600000_S1x600000_3_0 : S4x600000.Slices ![3, 0] S1x600000
  bcast_S_S100000x128 : S_.BroadcastsInDim S100000x128 (![] : Fin 0 → Fin S100000x128.rank)
  slices_S4x128x128_S1x128x128_1_0_0 : S4x128x128.Slices ![1, 0, 0] S1x128x128
  shapeCasts_S1x128x128_S128x128 : S1x128x128.ShapeCasts S128x128
  slices_S4x128x128_S1x128x128_2_0_0 : S4x128x128.Slices ![2, 0, 0] S1x128x128
  slices_S4x128_S1x128_1_0 : S4x128.Slices ![1, 0] S1x128
  shapeCasts_S1x128_S128 : S1x128.ShapeCasts S128
  slices_S4x128_S1x128_2_0 : S4x128.Slices ![2, 0] S1x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S4x128x128_S1x128x128_0_0_0 : S4x128x128.Slices ![0, 0, 0] S1x128x128
  slices_S4x128x128_S1x128x128_3_0_0 : S4x128x128.Slices ![3, 0, 0] S1x128x128
  slices_S4x128_S1x128_0_0 : S4x128.Slices ![0, 0] S1x128
  slices_S4x128_S1x128_3_0 : S4x128.Slices ![3, 0] S1x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S100000x1.size a
  hwx2_4 : ∀ i : grid2.Coords, EltTy.bits .f32 = 32 ∨ (Rect.block (s := S100000x1) S4000x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S100000x128.size a
  hwx2_9 : ∀ i : grid2.Coords, EltTy.bits .f32 = 32 ∨ (Rect.block (s := S100000x128) S4000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x1.size a ≤ S100000x1.size a
  hwx3_4 : ∀ i : grid3.Coords, EltTy.bits .f32 = 32 ∨ (Rect.block (s := S100000x1) S4000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x128.size a ≤ S100000x128.size a
  hwx3_9 : ∀ i : grid3.Coords, EltTy.bits .f32 = 32 ∨ (Rect.block (s := S100000x128) S4000x128.size (cc3_transform_9 i) (hinb3_9 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v71) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v85) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v104) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v111) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v113) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v114) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v115) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v99) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v43) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v120) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v127) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v129) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v130) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v131) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v115) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v159) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v173) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v192) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v199) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v201) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v202) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v203) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v131) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v145) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v187) S4000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v43) S4000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v208) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v215) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v217) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v218) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v219) S4000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x128 : Shape := ⟨2, ![100000, 128]⟩
abbrev S4x600000 : Shape := ⟨2, ![4, 600000]⟩
abbrev S4x128x128 : Shape := ⟨3, ![4, 128, 128]⟩
abbrev S4x128 : Shape := ⟨2, ![4, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 364
  | .vmem => 0
  | .smem => 0
  | _ => 0

abbrev hbmTy0_0 (i : Nat) : BufTy := match i % 128 with
  | 0 => ⟨S100000x128, .f32⟩
  | 1 => ⟨S100000x128, .f32⟩
  | 2 => ⟨S4x600000, .i32⟩
  | 3 => ⟨S4x600000, .i32⟩
  | 4 => ⟨S4x128x128, .f32⟩
  | 5 => ⟨S4x128x128, .f32⟩
  | 6 => ⟨S4x128, .f32⟩
  | 7 => ⟨S4x128x128, .f32⟩
  | 8 => ⟨S4x128x128, .f32⟩
  | 9 => ⟨S4x128, .f32⟩
  | 10 => ⟨S1x600000, .i32⟩
  | 11 => ⟨S600000, .i32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S1x600000, .i32⟩
  | 22 => ⟨S600000, .i32⟩
  | 23 => ⟨S_, .f32⟩
  | 24 => ⟨S100000x128, .f32⟩
  | 25 => ⟨S600000x1, .i32⟩
  | 26 => ⟨S100000x128, .f32⟩
  | 27 => ⟨S_, .f32⟩
  | 28 => ⟨S600000, .f32⟩
  | 29 => ⟨S1x600000, .i32⟩
  | 30 => ⟨S600000, .i32⟩
  | 31 => ⟨S_, .f32⟩
  | 32 => ⟨S100000, .f32⟩
  | 33 => ⟨S600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S1x128x128, .f32⟩
  | 42 => ⟨S128x128, .f32⟩
  | 43 => ⟨S100000x128, .f32⟩
  | 44 => ⟨S1x128x128, .f32⟩
  | 45 => ⟨S128x128, .f32⟩
  | 46 => ⟨S100000x128, .f32⟩
  | 47 => ⟨S100000x128, .f32⟩
  | 48 => ⟨S1x128, .f32⟩
  | 49 => ⟨S128, .f32⟩
  | 50 => ⟨S1x128, .f32⟩
  | 51 => ⟨S100000x128, .f32⟩
  | 52 => ⟨S100000x128, .f32⟩
  | 53 => ⟨S1x600000, .i32⟩
  | 54 => ⟨S600000, .i32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S1x600000, .i32⟩
  | 65 => ⟨S600000, .i32⟩
  | 66 => ⟨S_, .f32⟩
  | 67 => ⟨S100000x128, .f32⟩
  | 68 => ⟨S600000x1, .i32⟩
  | 69 => ⟨S100000x128, .f32⟩
  | 70 => ⟨S_, .f32⟩
  | 71 => ⟨S600000, .f32⟩
  | 72 => ⟨S1x600000, .i32⟩
  | 73 => ⟨S600000, .i32⟩
  | 74 => ⟨S_, .f32⟩
  | 75 => ⟨S100000, .f32⟩
  | 76 => ⟨S600000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S1x128x128, .f32⟩
  | 85 => ⟨S128x128, .f32⟩
  | 86 => ⟨S100000x128, .f32⟩
  | 87 => ⟨S1x128x128, .f32⟩
  | 88 => ⟨S128x128, .f32⟩
  | 89 => ⟨S100000x128, .f32⟩
  | 90 => ⟨S100000x128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S1x600000, .i32⟩
  | 97 => ⟨S600000, .i32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S1x600000, .i32⟩
  | 108 => ⟨S600000, .i32⟩
  | 109 => ⟨S_, .f32⟩
  | 110 => ⟨S100000x128, .f32⟩
  | 111 => ⟨S600000x1, .i32⟩
  | 112 => ⟨S100000x128, .f32⟩
  | 113 => ⟨S_, .f32⟩
  | 114 => ⟨S600000, .f32⟩
  | 115 => ⟨S1x600000, .i32⟩
  | 116 => ⟨S600000, .i32⟩
  | 117 => ⟨S_, .f32⟩
  | 118 => ⟨S100000, .f32⟩
  | 119 => ⟨S600000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S1x128x128, .f32⟩
  | _ => ⟨S100000x128, .f32⟩

abbrev hbmTy0_1 (i : Nat) : BufTy := match i % 128 with
  | 0 => ⟨S128x128, .f32⟩
  | 1 => ⟨S100000x128, .f32⟩
  | 2 => ⟨S1x128x128, .f32⟩
  | 3 => ⟨S128x128, .f32⟩
  | 4 => ⟨S100000x128, .f32⟩
  | 5 => ⟨S100000x128, .f32⟩
  | 6 => ⟨S1x128, .f32⟩
  | 7 => ⟨S128, .f32⟩
  | 8 => ⟨S1x128, .f32⟩
  | 9 => ⟨S100000x128, .f32⟩
  | 10 => ⟨S100000x128, .f32⟩
  | 11 => ⟨S100000x128, .f32⟩
  | 12 => ⟨S1x600000, .i32⟩
  | 13 => ⟨S600000, .i32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S1x600000, .i32⟩
  | 24 => ⟨S600000, .i32⟩
  | 25 => ⟨S_, .f32⟩
  | 26 => ⟨S100000x128, .f32⟩
  | 27 => ⟨S600000x1, .i32⟩
  | 28 => ⟨S100000x128, .f32⟩
  | 29 => ⟨S_, .f32⟩
  | 30 => ⟨S600000, .f32⟩
  | 31 => ⟨S1x600000, .i32⟩
  | 32 => ⟨S600000, .i32⟩
  | 33 => ⟨S_, .f32⟩
  | 34 => ⟨S100000, .f32⟩
  | 35 => ⟨S600000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x128, .f32⟩
  | 42 => ⟨S100000x128, .f32⟩
  | 43 => ⟨S1x128x128, .f32⟩
  | 44 => ⟨S128x128, .f32⟩
  | 45 => ⟨S100000x128, .f32⟩
  | 46 => ⟨S1x128x128, .f32⟩
  | 47 => ⟨S128x128, .f32⟩
  | 48 => ⟨S100000x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S1x600000, .i32⟩
  | 63 => ⟨S600000, .i32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S1x600000, .i32⟩
  | 74 => ⟨S600000, .i32⟩
  | 75 => ⟨S_, .f32⟩
  | 76 => ⟨S100000x128, .f32⟩
  | 77 => ⟨S600000x1, .i32⟩
  | 78 => ⟨S100000x128, .f32⟩
  | 79 => ⟨S_, .f32⟩
  | 80 => ⟨S600000, .f32⟩
  | 81 => ⟨S1x600000, .i32⟩
  | 82 => ⟨S600000, .i32⟩
  | 83 => ⟨S_, .f32⟩
  | 84 => ⟨S100000, .f32⟩
  | 85 => ⟨S600000x1, .i32⟩
  | 86 => ⟨S100000, .f32⟩
  | 87 => ⟨S_, .f32⟩
  | 88 => ⟨S100000, .f32⟩
  | 89 => ⟨S100000, .f32⟩
  | 90 => ⟨S100000x1, .f32⟩
  | 91 => ⟨S100000x128, .f32⟩
  | 92 => ⟨S100000x128, .f32⟩
  | 93 => ⟨S1x128x128, .f32⟩
  | 94 => ⟨S128x128, .f32⟩
  | 95 => ⟨S100000x128, .f32⟩
  | 96 => ⟨S1x128x128, .f32⟩
  | 97 => ⟨S128x128, .f32⟩
  | 98 => ⟨S100000x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S1x600000, .i32⟩
  | 106 => ⟨S600000, .i32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S1x600000, .i32⟩
  | 117 => ⟨S600000, .i32⟩
  | 118 => ⟨S_, .f32⟩
  | 119 => ⟨S100000x128, .f32⟩
  | 120 => ⟨S600000x1, .i32⟩
  | 121 => ⟨S100000x128, .f32⟩
  | 122 => ⟨S_, .f32⟩
  | 123 => ⟨S600000, .f32⟩
  | 124 => ⟨S1x600000, .i32⟩
  | 125 => ⟨S600000, .i32⟩
  | 126 => ⟨S_, .f32⟩
  | 127 => ⟨S100000, .f32⟩
  | _ => ⟨S100000x128, .f32⟩

abbrev hbmTy0_2 (i : Nat) : BufTy := match i % 128 with
  | 0 => ⟨S600000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x128, .f32⟩
  | 7 => ⟨S100000x128, .f32⟩
  | 8 => ⟨S1x128x128, .f32⟩
  | 9 => ⟨S128x128, .f32⟩
  | 10 => ⟨S100000x128, .f32⟩
  | 11 => ⟨S1x128x128, .f32⟩
  | 12 => ⟨S128x128, .f32⟩
  | 13 => ⟨S100000x128, .f32⟩
  | 14 => ⟨S100000x128, .f32⟩
  | 15 => ⟨S1x128, .f32⟩
  | 16 => ⟨S128, .f32⟩
  | 17 => ⟨S1x128, .f32⟩
  | 18 => ⟨S100000x128, .f32⟩
  | 19 => ⟨S100000x128, .f32⟩
  | 20 => ⟨S1x600000, .i32⟩
  | 21 => ⟨S600000, .i32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S1x600000, .i32⟩
  | 32 => ⟨S600000, .i32⟩
  | 33 => ⟨S_, .f32⟩
  | 34 => ⟨S100000x128, .f32⟩
  | 35 => ⟨S600000x1, .i32⟩
  | 36 => ⟨S100000x128, .f32⟩
  | 37 => ⟨S_, .f32⟩
  | 38 => ⟨S600000, .f32⟩
  | 39 => ⟨S1x600000, .i32⟩
  | 40 => ⟨S600000, .i32⟩
  | 41 => ⟨S_, .f32⟩
  | 42 => ⟨S100000, .f32⟩
  | 43 => ⟨S600000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S1x128x128, .f32⟩
  | 52 => ⟨S128x128, .f32⟩
  | 53 => ⟨S100000x128, .f32⟩
  | 54 => ⟨S1x128x128, .f32⟩
  | 55 => ⟨S128x128, .f32⟩
  | 56 => ⟨S100000x128, .f32⟩
  | 57 => ⟨S100000x128, .f32⟩
  | 58 => ⟨S1x128, .f32⟩
  | 59 => ⟨S128, .f32⟩
  | 60 => ⟨S1x128, .f32⟩
  | 61 => ⟨S100000x128, .f32⟩
  | 62 => ⟨S100000x128, .f32⟩
  | 63 => ⟨S100000x128, .f32⟩
  | 64 => ⟨S1x600000, .i32⟩
  | 65 => ⟨S600000, .i32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S600000x128, .f32⟩
  | 75 => ⟨S1x600000, .i32⟩
  | 76 => ⟨S600000, .i32⟩
  | 77 => ⟨S_, .f32⟩
  | 78 => ⟨S100000x128, .f32⟩
  | 79 => ⟨S600000x1, .i32⟩
  | 80 => ⟨S100000x128, .f32⟩
  | 81 => ⟨S_, .f32⟩
  | 82 => ⟨S600000, .f32⟩
  | 83 => ⟨S1x600000, .i32⟩
  | 84 => ⟨S600000, .i32⟩
  | 85 => ⟨S_, .f32⟩
  | 86 => ⟨S100000, .f32⟩
  | 87 => ⟨S600000x1, .i32⟩
  | 88 => ⟨S100000, .f32⟩
  | 89 => ⟨S_, .f32⟩
  | 90 => ⟨S100000, .f32⟩
  | 91 => ⟨S100000, .f32⟩
  | 92 => ⟨S100000x1, .f32⟩
  | 93 => ⟨S100000x128, .f32⟩
  | 94 => ⟨S100000x128, .f32⟩
  | 95 => ⟨S1x128x128, .f32⟩
  | 96 => ⟨S128x128, .f32⟩
  | 97 => ⟨S100000x128, .f32⟩
  | 98 => ⟨S1x128x128, .f32⟩
  | 99 => ⟨S128x128, .f32⟩
  | 100 => ⟨S100000x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_4 : Ref sig .tc := ⟨.hbm, 55, rfl⟩
abbrev main_v39 : Ref sig .tc := ⟨.hbm, 56, rfl⟩
abbrev main_v40 : Ref sig .tc := ⟨.hbm, 57, rfl⟩
abbrev main_c_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_10 : Ref sig .tc := ⟨.hbm, 98, rfl⟩
abbrev main_v76 : Ref sig .tc := ⟨.hbm, 99, rfl⟩
abbrev main_v77 : Ref sig .tc := ⟨.hbm, 100, rfl⟩
abbrev main_c_11 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_12 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_13 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_15 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_c_16 : Ref sig .tc := ⟨.hbm, 142, rfl⟩
abbrev main_v114 : Ref sig .tc := ⟨.hbm, 143, rfl⟩
abbrev main_v115 : Ref sig .tc := ⟨.hbm, 144, rfl⟩
abbrev main_c_17 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_18 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_19 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_20 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_21 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_call0_cst : Ref sig .tc := ⟨.hbm, 184, rfl⟩
abbrev main_call0_v0 : Ref sig .tc := ⟨.hbm, 185, rfl⟩
abbrev main_v150 : Ref sig .tc := ⟨.hbm, 186, rfl⟩
abbrev main_call1_cst : Ref sig .tc := ⟨.hbm, 187, rfl⟩
abbrev main_call1_v0 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_c_22 : Ref sig .tc := ⟨.hbm, 192, rfl⟩
abbrev main_v154 : Ref sig .tc := ⟨.hbm, 193, rfl⟩
abbrev main_v155 : Ref sig .tc := ⟨.hbm, 194, rfl⟩
abbrev main_c_23 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_cst_24 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_cst_25 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_26 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_cst_27 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_c_28 : Ref sig .tc := ⟨.hbm, 235, rfl⟩
abbrev main_v191 : Ref sig .tc := ⟨.hbm, 236, rfl⟩
abbrev main_v192 : Ref sig .tc := ⟨.hbm, 237, rfl⟩
abbrev main_c_29 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_cst_30 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_cst_31 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_cst_32 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_cst_33 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_c_34 : Ref sig .tc := ⟨.hbm, 278, rfl⟩
abbrev main_v228 : Ref sig .tc := ⟨.hbm, 279, rfl⟩
abbrev main_v229 : Ref sig .tc := ⟨.hbm, 280, rfl⟩
abbrev main_c_35 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_cst_36 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_cst_37 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_cst_38 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_cst_39 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_c_40 : Ref sig .tc := ⟨.hbm, 322, rfl⟩
abbrev main_v266 : Ref sig .tc := ⟨.hbm, 323, rfl⟩
abbrev main_v267 : Ref sig .tc := ⟨.hbm, 324, rfl⟩
abbrev main_c_41 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_cst_42 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_cst_43 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_cst_44 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_cst_45 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_v301 : Ref sig .tc := ⟨.hbm, 363, rfl⟩

abbrev nD : Nat := 1
abbrev τ : Topo := Topo.v7x

variable {F : FTy → Type} [FloatOps F]

class Facts₀ : Prop where
  slices_S4x600000_S1x600000_0_0 : S4x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x600000_S1x600000_1_0 : S4x600000.Slices ![1, 0] S1x600000
  slices_S4x128x128_S1x128x128_1_0_0 : S4x128x128.Slices ![1, 0, 0] S1x128x128
  slices_S4x128_S1x128_1_0 : S4x128.Slices ![1, 0] S1x128
  slices_S4x600000_S1x600000_2_0 : S4x600000.Slices ![2, 0] S1x600000
  slices_S4x128x128_S1x128x128_2_0_0 : S4x128x128.Slices ![2, 0, 0] S1x128x128
  slices_S4x128_S1x128_2_0 : S4x128.Slices ![2, 0] S1x128
  slices_S4x600000_S1x600000_3_0 : S4x600000.Slices ![3, 0] S1x600000
  slices_S4x128x128_S1x128x128_3_0_0 : S4x128x128.Slices ![3, 0, 0] S1x128x128
  slices_S4x128_S1x128_3_0 : S4x128.Slices ![3, 0] S1x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefOps.lean ====
/-
  The reference network as a straight line of 354 array operations, in two stages: the first 180 compute the first
  layer's two tables (each with the maximum with zero), the remaining 174 compute the second layer's two tables from
  them. Every fair execution ends with each buffer at the fold of the second stage over the fold of the first stage
  over the launch contents.
-/
import proofs.«155078_j57956288692353_2_alg».proof.ReferenceIdeal
import proofs.«155078_j57956288692353_2_alg».proof.Proof.Gen.ReferenceIdeal
import Idealize.ShloMosaic.Lib.StableHlo.Run

noncomputable section

namespace Cert.ReferenceIdeal.NetRun

open Cert.ReferenceIdeal Cert.ReferenceIdeal.Gen Idealize.ShloMosaic Idealize.ShloMosaic.TcCoe Idealize.SL.Sem Idealize.ShloMosaic.StableHlo

variable {F : FTy → Type} [FloatOps F]

/-- The first layer: the program's first 180 operations, in order (the two maxima with zero written out). -/
abbrev ops1 : List (HloOp τ sig (Elt F)) :=
  [ unary main_arg2 main_v0 ((extractStridedSlice S1x600000 ![0, 0] · slices_S4x600000_S1x600000_0_0) : (⟨S4x600000, .i32⟩ : BufTy).Contents (Elt F) → (⟨S1x600000, .i32⟩ : BufTy).Contents (Elt F)),
    reshape main_v0 main_v1 rfl shapeCasts_S1x600000_S600000,
    nullary main_c (constantI S_ 32 0#32),
    unary main_c main_v2 (broadcastInDim S600000 ![] bcast_S_S600000 : (⟨S_, .i32⟩ : BufTy).Contents (Elt F) → (⟨S600000, .i32⟩ : BufTy).Contents (Elt F)),
    binary main_v1 main_v2 main_v3 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v4 (broadcastInDim S600000 ![] bcast_S_S600000 : (⟨S_, .i32⟩ : BufTy).Contents (Elt F) → (⟨S600000, .i32⟩ : BufTy).Contents (Elt F)),
    binary main_v1 main_v4 main_v5 (addi : (⟨S600000, .i32⟩ : BufTy).Contents (Elt F) → (⟨S600000, .i32⟩ : BufTy).Contents (Elt F) → (⟨S600000, .i32⟩ : BufTy).Contents (Elt F)),
    ternary main_v3 main_v5 main_v1 main_v6 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v6 main_v7 (broadcastInDim S600000x1 ![0] bcast_S600000_S600000x1_0 : (⟨S600000, .i32⟩ : BufTy).Contents (Elt F) → (⟨S600000x1, .i32⟩ : BufTy).Contents (Elt F)),
    binary main_arg0 main_v7 main_v8 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg3 main_v9 ((extractStridedSlice S1x600000 ![0, 0] · slices_S4x600000_S1x600000_0_0) : (⟨S4x600000, .i32⟩ : BufTy).Contents (Elt F) → (⟨S1x600000, .i32⟩ : BufTy).Contents (Elt F)),
    reshape main_v9 main_v10 rfl shapeCasts_S1x600000_S600000,
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v10 main_v12 (broadcastInDim S600000x1 ![0] bcast_S600000_S600000x1_0 : (⟨S600000, .i32⟩ : BufTy).Contents (Elt F) → (⟨S600000x1, .i32⟩ : BufTy).Contents (Elt F)),
    ternary main_v11 main_v12 main_v8 main_v13 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_1 (constant S_ .f32 0x3F800000#32),
    unary main_cst_1 main_v14 (broadcastInDim S600000 ![] bcast_S_S600000 : (⟨S_, .f32⟩ : BufTy).Contents (Elt F) → (⟨S600000, .f32⟩ : BufTy).Contents (Elt F)),
    unary main_arg3 main_v15 ((extractStridedSlice S1x600000 ![0, 0] · slices_S4x600000_S1x600000_0_0) : (⟨S4x600000, .i32⟩ : BufTy).Contents (Elt F) → (⟨S1x600000, .i32⟩ : BufTy).Contents (Elt F)),
    reshape main_v15 main_v16 rfl shapeCasts_S1x600000_S600000,
    nullary main_cst_2 (constant S_ .f32 0x00000000#32),
    unary main_cst_2 main_v17 (broadcastInDim S100000 ![] bcast_S_S100000 : (⟨S_, .f32⟩ : BufTy).Contents (Elt F) → (⟨S100000, .f32⟩ : BufTy).Contents (Elt F)),
    unary main_v16 main_v18 (broadcastInDim S600000x1 ![0] bcast_S600000_S600000x1_0 : (⟨S600000, .i32⟩ : BufTy).Contents (Elt F) → (⟨S600000x1, .i32⟩ : BufTy).Contents (Elt F)),
    ternary main_v17 main_v18 main_v14 main_v19 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_3 (constant S_ .f32 0x3F800000#32),
    unary main_cst_3 main_v20 (broadcastInDim S100000 ![] bcast_S_S100000 : (⟨S_, .f32⟩ : BufTy).Contents (Elt F) → (⟨S100000, .f32⟩ : BufTy).Contents (Elt F)),
    binary main_v19 main_v20 main_v21 (maximumf : (⟨S100000, .f32⟩ : BufTy).Contents (Elt F) → (⟨S100000, .f32⟩ : BufTy).Contents (Elt F) → (⟨S100000, .f32⟩ : BufTy).Contents (Elt F)),
    unary main_v21 main_v22 (broadcastInDim S100000x1 ![0] bcast_S100000_S100000x1_0 : (⟨S100000, .f32⟩ : BufTy).Contents (Elt F) → (⟨S100000x1, .f32⟩ : BufTy).Contents (Elt F)),
    unary main_v22 main_v23 (broadcastInDim S100000x128 ![0, 1] bcast_S100000x1_S100000x128_0_1 : (⟨S100000x1, .f32⟩ : BufTy).Contents (Elt F) → (⟨S100000x128, .f32⟩ : BufTy).Contents (Elt F)),
    binary main_v13 main_v23 main_v24 (Host.divf : (⟨S100000x128, .f32⟩ : BufTy).Contents (Elt F) → (⟨S100000x128, .f32⟩ : BufTy).Contents (Elt F) → (⟨S100000x128, .f32⟩ : BufTy).Contents (Elt F)),
    unary main_arg4 main_v25 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v25 main_v26 rfl shapeCasts_S1x128x128_S128x128,
    binary main_arg1 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v28 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v28 main_v29 rfl shapeCasts_S1x128x128_S128x128,
    binary main_v24 main_v29 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v27 main_v30 main_v31 (addf : (⟨S100000x128, .f32⟩ : BufTy).Contents (Elt F) → (⟨S100000x128, .f32⟩ : BufTy).Contents (Elt F) → (⟨S100000x128, .f32⟩ : BufTy).Contents (Elt F)),
    unary main_arg6 main_v32 ((extractStridedSlice S1x128 ![0, 0] · slices_S4x128_S1x128_0_0) : (⟨S4x128, .f32⟩ : BufTy).Contents (Elt F) → (⟨S1x128, .f32⟩ : BufTy).Contents (Elt F)),
    reshape main_v32 main_v33 rfl shapeCasts_S1x128_S128,
    unary main_v33 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v31 main_v35 main_v36 (addf : (⟨S100000x128, .f32⟩ : BufTy).Contents (Elt F) → (⟨S100000x128, .f32⟩ : BufTy).Contents (Elt F) → (⟨S100000x128, .f32⟩ : BufTy).Contents (Elt F)),
    unary main_arg2 main_v37 ((extractStridedSlice S1x600000 ![1, 0] · slices_S4x600000_S1x600000_1_0) : (⟨S4x600000, .i32⟩ : BufTy).Contents (Elt F) → (⟨S1x600000, .i32⟩ : BufTy).Contents (Elt F)),
    reshape main_v37 main_v38 rfl shapeCasts_S1x600000_S600000,
    nullary main_c_4 (constantI S_ 32 0#32),
    unary main_c_4 main_v39 (broadcastInDim S600000 ![] bcast_S_S600000 : (⟨S_, .i32⟩ : BufTy).Contents (Elt F) → (⟨S600000, .i32⟩ : BufTy).Contents (Elt F)),
    binary main_v38 main_v39 main_v40 (cmpi .slt : (⟨S600000, .i32⟩ : BufTy).Contents (Elt F) → (⟨S600000, .i32⟩ : BufTy).Contents (Elt F) → (⟨S600000, .i1⟩ : BufTy).Contents (Elt F)),
    nullary main_c_5 (constantI S_ 32 100000#32),
    unary main_c_5 main_v41 (broadcastInDim S600000 ![] bcast_S_S600000 : (⟨S_, .i32⟩ : BufTy).Contents (Elt F) → (⟨S600000, .i32⟩ : BufTy).Contents (Elt F)),
    binary main_v38 main_v41 main_v42 (addi : (⟨S600000, .i32⟩ : BufTy).Contents (Elt F) → (⟨S600000, .i32⟩ : BufTy).Contents (Elt F) → (⟨S600000, .i32⟩ : BufTy).Contents (Elt F)),
    ternary main_v40 main_v42 main_v38 main_v43 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v43 main_v44 (broadcastInDim S600000x1 ![0] bcast_S600000_S600000x1_0 : (⟨S600000, .i32⟩ : BufTy).Contents (Elt F) → (⟨S600000x1, .i32⟩ : BufTy).Contents (Elt F)),
    binary main_arg1 main_v44 main_v45 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg3 main_v46 ((extractStridedSlice S1x600000 ![1, 0] · slices_S4x600000_S1x600000_1_0) : (⟨S4x600000, .i32⟩ : BufTy).Contents (Elt F) → (⟨S1x600000, .i32⟩ : BufTy).Contents (Elt F)),
    reshape main_v46 main_v47 rfl shapeCasts_S1x600000_S600000,
    nullary main_cst_6 (constant S_ .f32 0x00000000#32),
    unary main_cst_6 main_v48 (broadcastInDim S100000x128 ![] bcast_S_S100000x128 : (⟨S_, .f32⟩ : BufTy).Contents (Elt F) → (⟨S100000x128, .f32⟩ : BufTy).Contents (Elt F)),
    unary main_v47 main_v49 (broadcastInDim S600000x1 ![0] bcast_S600000_S600000x1_0 : (⟨S600000, .i32⟩ : BufTy).Contents (Elt F) → (⟨S600000x1, .i32⟩ : BufTy).Contents (Elt F)),
    ternary main_v48 main_v49 main_v45 main_v50 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_7 (constant S_ .f32 0x3F800000#32),
    unary main_cst_7 main_v51 (broadcastInDim S600000 ![] bcast_S_S600000 : (⟨S_, .f32⟩ : BufTy).Contents (Elt F) → (⟨S600000, .f32⟩ : BufTy).Contents (Elt F)),
    unary main_arg3 main_v52 ((extractStridedSlice S1x600000 ![1, 0] · slices_S4x600000_S1x600000_1_0) : (⟨S4x600000, .i32⟩ : BufTy).Contents (Elt F) → (⟨S1x600000, .i32⟩ : BufTy).Contents (Elt F)),
    reshape main_v52 main_v53 rfl shapeCasts_S1x600000_S600000,
    nullary main_cst_8 (constant S_ .f32 0x00000000#32),
    unary main_cst_8 main_v54 (broadcastInDim S100000 ![] bcast_S_S100000 : (⟨S_, .f32⟩ : BufTy).Contents (Elt F) → (⟨S100000, .f32⟩ : BufTy).Contents (Elt F)),
    unary main_v53 main_v55 (broadcastInDim S600000x1 ![0] bcast_S600000_S600000x1_0 : (⟨S600000, .i32⟩ : BufTy).Contents (Elt F) → (⟨S600000x1, .i32⟩ : BufTy).Contents (Elt F)),
    ternary main_v54 main_v55 main_v51 main_v56 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_9 (constant S_ .f32 0x3F800000#32),
    unary main_cst_9 main_v57 (broadcastInDim S100000 ![] bcast_S_S100000 : (⟨S_, .f32⟩ : BufTy).Contents (Elt F) → (⟨S100000, .f32⟩ : BufTy).Contents (Elt F)),
    binary main_v56 main_v57 main_v58 (maximumf : (⟨S100000, .f32⟩ : BufTy).Contents (Elt F) → (⟨S100000, .f32⟩ : BufTy).Contents (Elt F) → (⟨S100000, .f32⟩ : BufTy).Contents (Elt F)),
    unary main_v58 main_v59 (broadcastInDim S100000x1 ![0] bcast_S100000_S100000x1_0 : (⟨S100000, .f32⟩ : BufTy).Contents (Elt F) → (⟨S100000x1, .f32⟩ : BufTy).Contents (Elt F)),
    unary main_v59 main_v60 (broadcastInDim S100000x128 ![0, 1] bcast_S100000x1_S100000x128_0_1 : (⟨S100000x1, .f32⟩ : BufTy).Contents (Elt F) → (⟨S100000x128, .f32⟩ : BufTy).Contents (Elt F)),
    binary main_v50 main_v60 main_v61 (Host.divf : (⟨S100000x128, .f32⟩ : BufTy).Contents (Elt F) → (⟨S100000x128, .f32⟩ : BufTy).Contents (Elt F) → (⟨S100000x128, .f32⟩ : BufTy).Contents (Elt F)),
    unary main_arg4 main_v62 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v62 main_v63 rfl shapeCasts_S1x128x128_S128x128,
    binary main_arg0 main_v63 main_v64 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v65 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v65 main_v66 rfl shapeCasts_S1x128x128_S128x128,
    binary main_v61 main_v66 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v64 main_v67 main_v68 (addf : (⟨S100000x128, .f32⟩ : BufTy).Contents (Elt F) → (⟨S100000x128, .f32⟩ : BufTy).Contents (Elt F) → (⟨S100000x128, .f32⟩ : BufTy).Contents (Elt F)),
    unary main_arg6 main_v69 ((extractStridedSlice S1x128 ![1, 0] · slices_S4x128_S1x128_1_0) : (⟨S4x128, .f32⟩ : BufTy).Contents (Elt F) → (⟨S1x128, .f32⟩ : BufTy).Contents (Elt F)),
    reshape main_v69 main_v70 rfl shapeCasts_S1x128_S128,
    unary main_v70 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v68 main_v72 main_v73 (addf : (⟨S100000x128, .f32⟩ : BufTy).Contents (Elt F) → (⟨S100000x128, .f32⟩ : BufTy).Contents (Elt F) → (⟨S100000x128, .f32⟩ : BufTy).Contents (Elt F)),
    unary main_arg2 main_v74 ((extractStridedSlice S1x600000 ![2, 0] · slices_S4x600000_S1x600000_2_0) : (⟨S4x600000, .i32⟩ : BufTy).Contents (Elt F) → (⟨S1x600000, .i32⟩ : BufTy).Contents (Elt F)),
    reshape main_v74 main_v75 rfl shapeCasts_S1x600000_S600000,
    nullary main_c_10 (constantI S_ 32 0#32),
    unary main_c_10 main_v76 (broadcastInDim S600000 ![] bcast_S_S600000 : (⟨S_, .i32⟩ : BufTy).Contents (Elt F) → (⟨S600000, .i32⟩ : BufTy).Contents (Elt F)),
    binary main_v75 main_v76 main_v77 (cmpi .slt : (⟨S600000, .i32⟩ : BufTy).Contents (Elt F) → (⟨S600000, .i32⟩ : BufTy).Contents (Elt F) → (⟨S600000, .i1⟩ : BufTy).Contents (Elt F)),
    nullary main_c_11 (constantI S_ 32 100000#32),
    unary main_c_11 main_v78 (broadcastInDim S600000 ![] bcast_S_S600000 : (⟨S_, .i32⟩ : BufTy).Contents (Elt F) → (⟨S600000, .i32⟩ : BufTy).Contents (Elt F)),
    binary main_v75 main_v78 main_v79 (addi : (⟨S600000, .i32⟩ : BufTy).Contents (Elt F) → (⟨S600000, .i32⟩ : BufTy).Contents (Elt F) → (⟨S600000, .i32⟩ : BufTy).Contents (Elt F)),
    ternary main_v77 main_v79 main_v75 main_v80 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v80 main_v81 (broadcastInDim S600000x1 ![0] bcast_S600000_S600000x1_0 : (⟨S600000, .i32⟩ : BufTy).Contents (Elt F) → (⟨S600000x1, .i32⟩ : BufTy).Contents (Elt F)),
    binary main_arg1 main_v81 main_v82 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg3 main_v83 ((extractStridedSlice S1x600000 ![2, 0] · slices_S4x600000_S1x600000_2_0) : (⟨S4x600000, .i32⟩ : BufTy).Contents (Elt F) → (⟨S1x600000, .i32⟩ : BufTy).Contents (Elt F)),
    reshape main_v83 main_v84 rfl shapeCasts_S1x600000_S600000,
    nullary main_cst_12 (constant S_ .f32 0x00000000#32),
    unary main_cst_12 main_v85 (broadcastInDim S100000x128 ![] bcast_S_S100000x128 : (⟨S_, .f32⟩ : BufTy).Contents (Elt F) → (⟨S100000x128, .f32⟩ : BufTy).Contents (Elt F)),
    unary main_v84 main_v86 (broadcastInDim S600000x1 ![0] bcast_S600000_S600000x1_0 : (⟨S600000, .i32⟩ : BufTy).Contents (Elt F) → (⟨S600000x1, .i32⟩ : BufTy).Contents (Elt F)),
    ternary main_v85 main_v86 main_v82 main_v87 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_13 (constant S_ .f32 0x3F800000#32),
    unary main_cst_13 main_v88 (broadcastInDim S600000 ![] bcast_S_S600000 : (⟨S_, .f32⟩ : BufTy).Contents (Elt F) → (⟨S600000, .f32⟩ : BufTy).Contents (Elt F)),
    unary main_arg3 main_v89 ((extractStridedSlice S1x600000 ![2, 0] · slices_S4x600000_S1x600000_2_0) : (⟨S4x600000, .i32⟩ : BufTy).Contents (Elt F) → (⟨S1x600000, .i32⟩ : BufTy).Contents (Elt F)),
    reshape main_v89 main_v90 rfl shapeCasts_S1x600000_S600000,
    nullary main_cst_14 (constant S_ .f32 0x00000000#32),
    unary main_cst_14 main_v91 (broadcastInDim S100000 ![] bcast_S_S100000 : (⟨S_, .f32⟩ : BufTy).Contents (Elt F) → (⟨S100000, .f32⟩ : BufTy).Contents (Elt F)),
    unary main_v90 main_v92 (broadcastInDim S600000x1 ![0] bcast_S600000_S600000x1_0 : (⟨S600000, .i32⟩ : BufTy).Contents (Elt F) → (⟨S600000x1, .i32⟩ : BufTy).Contents (Elt F)),
    ternary main_v91 main_v92 main_v88 main_v93 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_15 (constant S_ .f32 0x3F800000#32),
    unary main_cst_15 main_v94 (broadcastInDim S100000 ![] bcast_S_S100000 : (⟨S_, .f32⟩ : BufTy).Contents (Elt F) → (⟨S100000, .f32⟩ : BufTy).Contents (Elt F)),
    binary main_v93 main_v94 main_v95 (maximumf : (⟨S100000, .f32⟩ : BufTy).Contents (Elt F) → (⟨S100000, .f32⟩ : BufTy).Contents (Elt F) → (⟨S100000, .f32⟩ : BufTy).Contents (Elt F)),
    unary main_v95 main_v96 (broadcastInDim S100000x1 ![0] bcast_S100000_S100000x1_0 : (⟨S100000, .f32⟩ : BufTy).Contents (Elt F) → (⟨S100000x1, .f32⟩ : BufTy).Contents (Elt F)),
    unary main_v96 main_v97 (broadcastInDim S100000x128 ![0, 1] bcast_S100000x1_S100000x128_0_1 : (⟨S100000x1, .f32⟩ : BufTy).Contents (Elt F) → (⟨S100000x128, .f32⟩ : BufTy).Contents (Elt F)),
    binary main_v87 main_v97 main_v98 (Host.divf : (⟨S100000x128, .f32⟩ : BufTy).Contents (Elt F) → (⟨S100000x128, .f32⟩ : BufTy).Contents (Elt F) → (⟨S100000x128, .f32⟩ : BufTy).Contents (Elt F)),
    unary main_arg4 main_v99 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v99 main_v100 rfl shapeCasts_S1x128x128_S128x128,
    binary main_arg0 main_v100 main_v101 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v102 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v102 main_v103 rfl shapeCasts_S1x128x128_S128x128,
    binary main_v98 main_v103 main_v104 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v101 main_v104 main_v105 (addf : (⟨S100000x128, .f32⟩ : BufTy).Contents (Elt F) → (⟨S100000x128, .f32⟩ : BufTy).Contents (Elt F) → (⟨S100000x128, .f32⟩ : BufTy).Contents (Elt F)),
    unary main_arg6 main_v106 ((extractStridedSlice S1x128 ![2, 0] · slices_S4x128_S1x128_2_0) : (⟨S4x128, .f32⟩ : BufTy).Contents (Elt F) → (⟨S1x128, .f32⟩ : BufTy).Contents (Elt F)),
    reshape main_v106 main_v107 rfl shapeCasts_S1x128_S128,
    unary main_v107 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v105 main_v109 main_v110 (addf : (⟨S100000x128, .f32⟩ : BufTy).Contents (Elt F) → (⟨S100000x128, .f32⟩ : BufTy).Contents (Elt F) → (⟨S100000x128, .f32⟩ : BufTy).Contents (Elt F)),
    binary main_v73 main_v110 main_v111 (addf : (⟨S100000x128, .f32⟩ : BufTy).Contents (Elt F) → (⟨S100000x128, .f32⟩ : BufTy).Contents (Elt F) → (⟨S100000x128, .f32⟩ : BufTy).Contents (Elt F)),
    unary main_arg2 main_v112 ((extractStridedSlice S1x600000 ![3, 0] · slices_S4x600000_S1x600000_3_0) : (⟨S4x600000, .i32⟩ : BufTy).Contents (Elt F) → (⟨S1x600000, .i32⟩ : BufTy).Contents (Elt F)),
    reshape main_v112 main_v113 rfl shapeCasts_S1x600000_S600000,
    nullary main_c_16 (constantI S_ 32 0#32),
    unary main_c_16 main_v114 (broadcastInDim S600000 ![] bcast_S_S600000 : (⟨S_, .i32⟩ : BufTy).Contents (Elt F) → (⟨S600000, .i32⟩ : BufTy).Contents (Elt F)),
    binary main_v113 main_v114 main_v115 (cmpi .slt : (⟨S600000, .i32⟩ : BufTy).Contents (Elt F) → (⟨S600000, .i32⟩ : BufTy).Contents (Elt F) → (⟨S600000, .i1⟩ : BufTy).Contents (Elt F)),
    nullary main_c_17 (constantI S_ 32 100000#32),
    unary main_c_17 main_v116 (broadcastInDim S600000 ![] bcast_S_S600000 : (⟨S_, .i32⟩ : BufTy).Contents (Elt F) → (⟨S600000, .i32⟩ : BufTy).Contents (Elt F)),
    binary main_v113 main_v116 main_v117 (addi : (⟨S600000, .i32⟩ : BufTy).Contents (Elt F) → (⟨S600000, .i32⟩ : BufTy).Contents (Elt F) → (⟨S600000, .i32⟩ : BufTy).Contents (Elt F)),
    ternary main_v115 main_v117 main_v113 main_v118 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v118 main_v119 (broadcastInDim S600000x1 ![0] bcast_S600000_S600000x1_0 : (⟨S600000, .i32⟩ : BufTy).Contents (Elt F) → (⟨S600000x1, .i32⟩ : BufTy).Contents (Elt F)),
    binary main_arg0 main_v119 main_v120 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg3 main_v121 ((extractStridedSlice S1x600000 ![3, 0] · slices_S4x600000_S1x600000_3_0) : (⟨S4x600000, .i32⟩ : BufTy).Contents (Elt F) → (⟨S1x600000, .i32⟩ : BufTy).Contents (Elt F)),
    reshape main_v121 main_v122 rfl shapeCasts_S1x600000_S600000,
    nullary main_cst_18 (constant S_ .f32 0x00000000#32),
    unary main_cst_18 main_v123 (broadcastInDim S100000x128 ![] bcast_S_S100000x128 : (⟨S_, .f32⟩ : BufTy).Contents (Elt F) → (⟨S100000x128, .f32⟩ : BufTy).Contents (Elt F)),
    unary main_v122 main_v124 (broadcastInDim S600000x1 ![0] bcast_S600000_S600000x1_0 : (⟨S600000, .i32⟩ : BufTy).Contents (Elt F) → (⟨S600000x1, .i32⟩ : BufTy).Contents (Elt F)),
    ternary main_v123 main_v124 main_v120 main_v125 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_19 (constant S_ .f32 0x3F800000#32),
    unary main_cst_19 main_v126 (broadcastInDim S600000 ![] bcast_S_S600000 : (⟨S_, .f32⟩ : BufTy).Contents (Elt F) → (⟨S600000, .f32⟩ : BufTy).Contents (Elt F)),
    unary main_arg3 main_v127 ((extractStridedSlice S1x600000 ![3, 0] · slices_S4x600000_S1x600000_3_0) : (⟨S4x600000, .i32⟩ : BufTy).Contents (Elt F) → (⟨S1x600000, .i32⟩ : BufTy).Contents (Elt F)),
    reshape main_v127 main_v128 rfl shapeCasts_S1x600000_S600000,
    nullary main_cst_20 (constant S_ .f32 0x00000000#32),
    unary main_cst_20 main_v129 (broadcastInDim S100000 ![] bcast_S_S100000 : (⟨S_, .f32⟩ : BufTy).Contents (Elt F) → (⟨S100000, .f32⟩ : BufTy).Contents (Elt F)),
    unary main_v128 main_v130 (broadcastInDim S600000x1 ![0] bcast_S600000_S600000x1_0 : (⟨S600000, .i32⟩ : BufTy).Contents (Elt F) → (⟨S600000x1, .i32⟩ : BufTy).Contents (Elt F)),
    ternary main_v129 main_v130 main_v126 main_v131 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_21 (constant S_ .f32 0x3F800000#32),
    unary main_cst_21 main_v132 (broadcastInDim S100000 ![] bcast_S_S100000 : (⟨S_, .f32⟩ : BufTy).Contents (Elt F) → (⟨S100000, .f32⟩ : BufTy).Contents (Elt F)),
    binary main_v131 main_v132 main_v133 (maximumf : (⟨S100000, .f32⟩ : BufTy).Contents (Elt F) → (⟨S100000, .f32⟩ : BufTy).Contents (Elt F) → (⟨S100000, .f32⟩ : BufTy).Contents (Elt F)),
    unary main_v133 main_v134 (broadcastInDim S100000x1 ![0] bcast_S100000_S100000x1_0 : (⟨S100000, .f32⟩ : BufTy).Contents (Elt F) → (⟨S100000x1, .f32⟩ : BufTy).Contents (Elt F)),
    unary main_v134 main_v135 (broadcastInDim S100000x128 ![0, 1] bcast_S100000x1_S100000x128_0_1 : (⟨S100000x1, .f32⟩ : BufTy).Contents (Elt F) → (⟨S100000x128, .f32⟩ : BufTy).Contents (Elt F)),
    binary main_v125 main_v135 main_v136 (Host.divf : (⟨S100000x128, .f32⟩ : BufTy).Contents (Elt F) → (⟨S100000x128, .f32⟩ : BufTy).Contents (Elt F) → (⟨S100000x128, .f32⟩ : BufTy).Contents (Elt F)),
    unary main_arg4 main_v137 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v137 main_v138 rfl shapeCasts_S1x128x128_S128x128,
    binary main_arg1 main_v138 main_v139 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v140 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v140 main_v141 rfl shapeCasts_S1x128x128_S128x128,
    binary main_v136 main_v141 main_v142 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v139 main_v142 main_v143 (addf : (⟨S100000x128, .f32⟩ : BufTy).Contents (Elt F) → (⟨S100000x128, .f32⟩ : BufTy).Contents (Elt F) → (⟨S100000x128, .f32⟩ : BufTy).Contents (Elt F)),
    unary main_arg6 main_v144 ((extractStridedSlice S1x128 ![3, 0] · slices_S4x128_S1x128_3_0) : (⟨S4x128, .f32⟩ : BufTy).Contents (Elt F) → (⟨S1x128, .f32⟩ : BufTy).Contents (Elt F)),
    reshape main_v144 main_v145 rfl shapeCasts_S1x128_S128,
    unary main_v145 main_v146 (broadcastInDim S1x128 ![1] bcast_S128_S1x128_1 : (⟨S128, .f32⟩ : BufTy).Contents (Elt F) → (⟨S1x128, .f32⟩ : BufTy).Contents (Elt F)),
    unary main_v146 main_v147 (broadcastInDim S100000x128 ![0, 1] bcast_S1x128_S100000x128_0_1 : (⟨S1x128, .f32⟩ : BufTy).Contents (Elt F) → (⟨S100000x128, .f32⟩ : BufTy).Contents (Elt F)),
    binary main_v143 main_v147 main_v148 (addf : (⟨S100000x128, .f32⟩ : BufTy).Contents (Elt F) → (⟨S100000x128, .f32⟩ : BufTy).Contents (Elt F) → (⟨S100000x128, .f32⟩ : BufTy).Contents (Elt F)),
    binary main_v36 main_v148 main_v149 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v111) (TRef.of (T := ⟨S100000x128, .f32⟩) main_call0_v0) (TRef.of (T := ⟨S100000x128, .f32⟩) main_v150) maximumf,
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v149) (TRef.of (T := ⟨S100000x128, .f32⟩) main_call1_v0) (TRef.of (T := ⟨S100000x128, .f32⟩) main_v151) maximumf ]

/-- The second layer: the program's remaining 174 operations, in order. -/
abbrev ops2 : List (HloOp τ sig (Elt F)) :=
  [ unary main_arg2 main_v152 ((extractStridedSlice S1x600000 ![0, 0] · slices_S4x600000_S1x600000_0_0) : (⟨S4x600000, .i32⟩ : BufTy).Contents (Elt F) → (⟨S1x600000, .i32⟩ : BufTy).Contents (Elt F)),
    reshape main_v152 main_v153 rfl shapeCasts_S1x600000_S600000,
    nullary main_c_22 (constantI S_ 32 0#32),
    unary main_c_22 main_v154 (broadcastInDim S600000 ![] bcast_S_S600000 : (⟨S_, .i32⟩ : BufTy).Contents (Elt F) → (⟨S600000, .i32⟩ : BufTy).Contents (Elt F)),
    binary main_v153 main_v154 main_v155 (cmpi .slt : (⟨S600000, .i32⟩ : BufTy).Contents (Elt F) → (⟨S600000, .i32⟩ : BufTy).Contents (Elt F) → (⟨S600000, .i1⟩ : BufTy).Contents (Elt F)),
    nullary main_c_23 (constantI S_ 32 100000#32),
    unary main_c_23 main_v156 (broadcastInDim S600000 ![] bcast_S_S600000 : (⟨S_, .i32⟩ : BufTy).Contents (Elt F) → (⟨S600000, .i32⟩ : BufTy).Contents (Elt F)),
    binary main_v153 main_v156 main_v157 (addi : (⟨S600000, .i32⟩ : BufTy).Contents (Elt F) → (⟨S600000, .i32⟩ : BufTy).Contents (Elt F) → (⟨S600000, .i32⟩ : BufTy).Contents (Elt F)),
    ternary main_v155 main_v157 main_v153 main_v158 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v158 main_v159 (broadcastInDim S600000x1 ![0] bcast_S600000_S600000x1_0 : (⟨S600000, .i32⟩ : BufTy).Contents (Elt F) → (⟨S600000x1, .i32⟩ : BufTy).Contents (Elt F)),
    binary main_v150 main_v159 main_v160 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg3 main_v161 ((extractStridedSlice S1x600000 ![0, 0] · slices_S4x600000_S1x600000_0_0) : (⟨S4x600000, .i32⟩ : BufTy).Contents (Elt F) → (⟨S1x600000, .i32⟩ : BufTy).Contents (Elt F)),
    reshape main_v161 main_v162 rfl shapeCasts_S1x600000_S600000,
    nullary main_cst_24 (constant S_ .f32 0x00000000#32),
    unary main_cst_24 main_v163 (broadcastInDim S100000x128 ![] bcast_S_S100000x128 : (⟨S_, .f32⟩ : BufTy).Contents (Elt F) → (⟨S100000x128, .f32⟩ : BufTy).Contents (Elt F)),
    unary main_v162 main_v164 (broadcastInDim S600000x1 ![0] bcast_S600000_S600000x1_0 : (⟨S600000, .i32⟩ : BufTy).Contents (Elt F) → (⟨S600000x1, .i32⟩ : BufTy).Contents (Elt F)),
    ternary main_v163 main_v164 main_v160 main_v165 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_25 (constant S_ .f32 0x3F800000#32),
    unary main_cst_25 main_v166 (broadcastInDim S600000 ![] bcast_S_S600000 : (⟨S_, .f32⟩ : BufTy).Contents (Elt F) → (⟨S600000, .f32⟩ : BufTy).Contents (Elt F)),
    unary main_arg3 main_v167 ((extractStridedSlice S1x600000 ![0, 0] · slices_S4x600000_S1x600000_0_0) : (⟨S4x600000, .i32⟩ : BufTy).Contents (Elt F) → (⟨S1x600000, .i32⟩ : BufTy).Contents (Elt F)),
    reshape main_v167 main_v168 rfl shapeCasts_S1x600000_S600000,
    nullary main_cst_26 (constant S_ .f32 0x00000000#32),
    unary main_cst_26 main_v169 (broadcastInDim S100000 ![] bcast_S_S100000 : (⟨S_, .f32⟩ : BufTy).Contents (Elt F) → (⟨S100000, .f32⟩ : BufTy).Contents (Elt F)),
    unary main_v168 main_v170 (broadcastInDim S600000x1 ![0] bcast_S600000_S600000x1_0 : (⟨S600000, .i32⟩ : BufTy).Contents (Elt F) → (⟨S600000x1, .i32⟩ : BufTy).Contents (Elt F)),
    ternary main_v169 main_v170 main_v166 main_v171 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_27 (constant S_ .f32 0x3F800000#32),
    unary main_cst_27 main_v172 (broadcastInDim S100000 ![] bcast_S_S100000 : (⟨S_, .f32⟩ : BufTy).Contents (Elt F) → (⟨S100000, .f32⟩ : BufTy).Contents (Elt F)),
    binary main_v171 main_v172 main_v173 (maximumf : (⟨S100000, .f32⟩ : BufTy).Contents (Elt F) → (⟨S100000, .f32⟩ : BufTy).Contents (Elt F) → (⟨S100000, .f32⟩ : BufTy).Contents (Elt F)),
    unary main_v173 main_v174 (broadcastInDim S100000x1 ![0] bcast_S100000_S100000x1_0 : (⟨S100000, .f32⟩ : BufTy).Contents (Elt F) → (⟨S100000x1, .f32⟩ : BufTy).Contents (Elt F)),
    unary main_v174 main_v175 (broadcastInDim S100000x128 ![0, 1] bcast_S100000x1_S100000x128_0_1 : (⟨S100000x1, .f32⟩ : BufTy).Contents (Elt F) → (⟨S100000x128, .f32⟩ : BufTy).Contents (Elt F)),
    binary main_v165 main_v175 main_v176 (Host.divf : (⟨S100000x128, .f32⟩ : BufTy).Contents (Elt F) → (⟨S100000x128, .f32⟩ : BufTy).Contents (Elt F) → (⟨S100000x128, .f32⟩ : BufTy).Contents (Elt F)),
    unary main_arg7 main_v177 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v177 main_v178 rfl shapeCasts_S1x128x128_S128x128,
    binary main_v151 main_v178 main_v179 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v180 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v180 main_v181 rfl shapeCasts_S1x128x128_S128x128,
    binary main_v176 main_v181 main_v182 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v179 main_v182 main_v183 (addf : (⟨S100000x128, .f32⟩ : BufTy).Contents (Elt F) → (⟨S100000x128, .f32⟩ : BufTy).Contents (Elt F) → (⟨S100000x128, .f32⟩ : BufTy).Contents (Elt F)),
    unary main_arg9 main_v184 ((extractStridedSlice S1x128 ![0, 0] · slices_S4x128_S1x128_0_0) : (⟨S4x128, .f32⟩ : BufTy).Contents (Elt F) → (⟨S1x128, .f32⟩ : BufTy).Contents (Elt F)),
    reshape main_v184 main_v185 rfl shapeCasts_S1x128_S128,
    unary main_v185 main_v186 (broadcastInDim S1x128 ![1] bcast_S128_S1x128_1 : (⟨S128, .f32⟩ : BufTy).Contents (Elt F) → (⟨S1x128, .f32⟩ : BufTy).Contents (Elt F)),
    unary main_v186 main_v187 (broadcastInDim S100000x128 ![0, 1] bcast_S1x128_S100000x128_0_1 : (⟨S1x128, .f32⟩ : BufTy).Contents (Elt F) → (⟨S100000x128, .f32⟩ : BufTy).Contents (Elt F)),
    binary main_v183 main_v187 main_v188 (addf : (⟨S100000x128, .f32⟩ : BufTy).Contents (Elt F) → (⟨S100000x128, .f32⟩ : BufTy).Contents (Elt F) → (⟨S100000x128, .f32⟩ : BufTy).Contents (Elt F)),
    unary main_arg2 main_v189 ((extractStridedSlice S1x600000 ![1, 0] · slices_S4x600000_S1x600000_1_0) : (⟨S4x600000, .i32⟩ : BufTy).Contents (Elt F) → (⟨S1x600000, .i32⟩ : BufTy).Contents (Elt F)),
    reshape main_v189 main_v190 rfl shapeCasts_S1x600000_S600000,
    nullary main_c_28 (constantI S_ 32 0#32),
    unary main_c_28 main_v191 (broadcastInDim S600000 ![] bcast_S_S600000 : (⟨S_, .i32⟩ : BufTy).Contents (Elt F) → (⟨S600000, .i32⟩ : BufTy).Contents (Elt F)),
    binary main_v190 main_v191 main_v192 (cmpi .slt : (⟨S600000, .i32⟩ : BufTy).Contents (Elt F) → (⟨S600000, .i32⟩ : BufTy).Contents (Elt F) → (⟨S600000, .i1⟩ : BufTy).Contents (Elt F)),
    nullary main_c_29 (constantI S_ 32 100000#32),
    unary main_c_29 main_v193 (broadcastInDim S600000 ![] bcast_S_S600000 : (⟨S_, .i32⟩ : BufTy).Contents (Elt F) → (⟨S600000, .i32⟩ : BufTy).Contents (Elt F)),
    binary main_v190 main_v193 main_v194 (addi : (⟨S600000, .i32⟩ : BufTy).Contents (Elt F) → (⟨S600000, .i32⟩ : BufTy).Contents (Elt F) → (⟨S600000, .i32⟩ : BufTy).Contents (Elt F)),
    ternary main_v192 main_v194 main_v190 main_v195 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v195 main_v196 (broadcastInDim S600000x1 ![0] bcast_S600000_S600000x1_0 : (⟨S600000, .i32⟩ : BufTy).Contents (Elt F) → (⟨S600000x1, .i32⟩ : BufTy).Contents (Elt F)),
    binary main_v151 main_v196 main_v197 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg3 main_v198 ((extractStridedSlice S1x600000 ![1, 0] · slices_S4x600000_S1x600000_1_0) : (⟨S4x600000, .i32⟩ : BufTy).Contents (Elt F) → (⟨S1x600000, .i32⟩ : BufTy).Contents (Elt F)),
    reshape main_v198 main_v199 rfl shapeCasts_S1x600000_S600000,
    nullary main_cst_30 (constant S_ .f32 0x00000000#32),
    unary main_cst_30 main_v200 (broadcastInDim S100000x128 ![] bcast_S_S100000x128 : (⟨S_, .f32⟩ : BufTy).Contents (Elt F) → (⟨S100000x128, .f32⟩ : BufTy).Contents (Elt F)),
    unary main_v199 main_v201 (broadcastInDim S600000x1 ![0] bcast_S600000_S600000x1_0 : (⟨S600000, .i32⟩ : BufTy).Contents (Elt F) → (⟨S600000x1, .i32⟩ : BufTy).Contents (Elt F)),
    ternary main_v200 main_v201 main_v197 main_v202 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_31 (constant S_ .f32 0x3F800000#32),
    unary main_cst_31 main_v203 (broadcastInDim S600000 ![] bcast_S_S600000 : (⟨S_, .f32⟩ : BufTy).Contents (Elt F) → (⟨S600000, .f32⟩ : BufTy).Contents (Elt F)),
    unary main_arg3 main_v204 ((extractStridedSlice S1x600000 ![1, 0] · slices_S4x600000_S1x600000_1_0) : (⟨S4x600000, .i32⟩ : BufTy).Contents (Elt F) → (⟨S1x600000, .i32⟩ : BufTy).Contents (Elt F)),
    reshape main_v204 main_v205 rfl shapeCasts_S1x600000_S600000,
    nullary main_cst_32 (constant S_ .f32 0x00000000#32),
    unary main_cst_32 main_v206 (broadcastInDim S100000 ![] bcast_S_S100000 : (⟨S_, .f32⟩ : BufTy).Contents (Elt F) → (⟨S100000, .f32⟩ : BufTy).Contents (Elt F)),
    unary main_v205 main_v207 (broadcastInDim S600000x1 ![0] bcast_S600000_S600000x1_0 : (⟨S600000, .i32⟩ : BufTy).Contents (Elt F) → (⟨S600000x1, .i32⟩ : BufTy).Contents (Elt F)),
    ternary main_v206 main_v207 main_v203 main_v208 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_33 (constant S_ .f32 0x3F800000#32),
    unary main_cst_33 main_v209 (broadcastInDim S100000 ![] bcast_S_S100000 : (⟨S_, .f32⟩ : BufTy).Contents (Elt F) → (⟨S100000, .f32⟩ : BufTy).Contents (Elt F)),
    binary main_v208 main_v209 main_v210 (maximumf : (⟨S100000, .f32⟩ : BufTy).Contents (Elt F) → (⟨S100000, .f32⟩ : BufTy).Contents (Elt F) → (⟨S100000, .f32⟩ : BufTy).Contents (Elt F)),
    unary main_v210 main_v211 (broadcastInDim S100000x1 ![0] bcast_S100000_S100000x1_0 : (⟨S100000, .f32⟩ : BufTy).Contents (Elt F) → (⟨S100000x1, .f32⟩ : BufTy).Contents (Elt F)),
    unary main_v211 main_v212 (broadcastInDim S100000x128 ![0, 1] bcast_S100000x1_S100000x128_0_1 : (⟨S100000x1, .f32⟩ : BufTy).Contents (Elt F) → (⟨S100000x128, .f32⟩ : BufTy).Contents (Elt F)),
    binary main_v202 main_v212 main_v213 (Host.divf : (⟨S100000x128, .f32⟩ : BufTy).Contents (Elt F) → (⟨S100000x128, .f32⟩ : BufTy).Contents (Elt F) → (⟨S100000x128, .f32⟩ : BufTy).Contents (Elt F)),
    unary main_arg7 main_v214 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v214 main_v215 rfl shapeCasts_S1x128x128_S128x128,
    binary main_v150 main_v215 main_v216 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v217 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v217 main_v218 rfl shapeCasts_S1x128x128_S128x128,
    binary main_v213 main_v218 main_v219 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v216 main_v219 main_v220 (addf : (⟨S100000x128, .f32⟩ : BufTy).Contents (Elt F) → (⟨S100000x128, .f32⟩ : BufTy).Contents (Elt F) → (⟨S100000x128, .f32⟩ : BufTy).Contents (Elt F)),
    unary main_arg9 main_v221 ((extractStridedSlice S1x128 ![1, 0] · slices_S4x128_S1x128_1_0) : (⟨S4x128, .f32⟩ : BufTy).Contents (Elt F) → (⟨S1x128, .f32⟩ : BufTy).Contents (Elt F)),
    reshape main_v221 main_v222 rfl shapeCasts_S1x128_S128,
    unary main_v222 main_v223 (broadcastInDim S1x128 ![1] bcast_S128_S1x128_1 : (⟨S128, .f32⟩ : BufTy).Contents (Elt F) → (⟨S1x128, .f32⟩ : BufTy).Contents (Elt F)),
    unary main_v223 main_v224 (broadcastInDim S100000x128 ![0, 1] bcast_S1x128_S100000x128_0_1 : (⟨S1x128, .f32⟩ : BufTy).Contents (Elt F) → (⟨S100000x128, .f32⟩ : BufTy).Contents (Elt F)),
    binary main_v220 main_v224 main_v225 (addf : (⟨S100000x128, .f32⟩ : BufTy).Contents (Elt F) → (⟨S100000x128, .f32⟩ : BufTy).Contents (Elt F) → (⟨S100000x128, .f32⟩ : BufTy).Contents (Elt F)),
    unary main_arg2 main_v226 ((extractStridedSlice S1x600000 ![2, 0] · slices_S4x600000_S1x600000_2_0) : (⟨S4x600000, .i32⟩ : BufTy).Contents (Elt F) → (⟨S1x600000, .i32⟩ : BufTy).Contents (Elt F)),
    reshape main_v226 main_v227 rfl shapeCasts_S1x600000_S600000,
    nullary main_c_34 (constantI S_ 32 0#32),
    unary main_c_34 main_v228 (broadcastInDim S600000 ![] bcast_S_S600000 : (⟨S_, .i32⟩ : BufTy).Contents (Elt F) → (⟨S600000, .i32⟩ : BufTy).Contents (Elt F)),
    binary main_v227 main_v228 main_v229 (cmpi .slt : (⟨S600000, .i32⟩ : BufTy).Contents (Elt F) → (⟨S600000, .i32⟩ : BufTy).Contents (Elt F) → (⟨S600000, .i1⟩ : BufTy).Contents (Elt F)),
    nullary main_c_35 (constantI S_ 32 100000#32),
    unary main_c_35 main_v230 (broadcastInDim S600000 ![] bcast_S_S600000 : (⟨S_, .i32⟩ : BufTy).Contents (Elt F) → (⟨S600000, .i32⟩ : BufTy).Contents (Elt F)),
    binary main_v227 main_v230 main_v231 (addi : (⟨S600000, .i32⟩ : BufTy).Contents (Elt F) → (⟨S600000, .i32⟩ : BufTy).Contents (Elt F) → (⟨S600000, .i32⟩ : BufTy).Contents (Elt F)),
    ternary main_v229 main_v231 main_v227 main_v232 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v232 main_v233 (broadcastInDim S600000x1 ![0] bcast_S600000_S600000x1_0 : (⟨S600000, .i32⟩ : BufTy).Contents (Elt F) → (⟨S600000x1, .i32⟩ : BufTy).Contents (Elt F)),
    binary main_v151 main_v233 main_v234 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg3 main_v235 ((extractStridedSlice S1x600000 ![2, 0] · slices_S4x600000_S1x600000_2_0) : (⟨S4x600000, .i32⟩ : BufTy).Contents (Elt F) → (⟨S1x600000, .i32⟩ : BufTy).Contents (Elt F)),
    reshape main_v235 main_v236 rfl shapeCasts_S1x600000_S600000,
    nullary main_cst_36 (constant S_ .f32 0x00000000#32),
    unary main_cst_36 main_v237 (broadcastInDim S100000x128 ![] bcast_S_S100000x128 : (⟨S_, .f32⟩ : BufTy).Contents (Elt F) → (⟨S100000x128, .f32⟩ : BufTy).Contents (Elt F)),
    unary main_v236 main_v238 (broadcastInDim S600000x1 ![0] bcast_S600000_S600000x1_0 : (⟨S600000, .i32⟩ : BufTy).Contents (Elt F) → (⟨S600000x1, .i32⟩ : BufTy).Contents (Elt F)),
    ternary main_v237 main_v238 main_v234 main_v239 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_37 (constant S_ .f32 0x3F800000#32),
    unary main_cst_37 main_v240 (broadcastInDim S600000 ![] bcast_S_S600000 : (⟨S_, .f32⟩ : BufTy).Contents (Elt F) → (⟨S600000, .f32⟩ : BufTy).Contents (Elt F)),
    unary main_arg3 main_v241 ((extractStridedSlice S1x600000 ![2, 0] · slices_S4x600000_S1x600000_2_0) : (⟨S4x600000, .i32⟩ : BufTy).Contents (Elt F) → (⟨S1x600000, .i32⟩ : BufTy).Contents (Elt F)),
    reshape main_v241 main_v242 rfl shapeCasts_S1x600000_S600000,
    nullary main_cst_38 (constant S_ .f32 0x00000000#32),
    unary main_cst_38 main_v243 (broadcastInDim S100000 ![] bcast_S_S100000 : (⟨S_, .f32⟩ : BufTy).Contents (Elt F) → (⟨S100000, .f32⟩ : BufTy).Contents (Elt F)),
    unary main_v242 main_v244 (broadcastInDim S600000x1 ![0] bcast_S600000_S600000x1_0 : (⟨S600000, .i32⟩ : BufTy).Contents (Elt F) → (⟨S600000x1, .i32⟩ : BufTy).Contents (Elt F)),
    ternary main_v243 main_v244 main_v240 main_v245 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_39 (constant S_ .f32 0x3F800000#32),
    unary main_cst_39 main_v246 (broadcastInDim S100000 ![] bcast_S_S100000 : (⟨S_, .f32⟩ : BufTy).Contents (Elt F) → (⟨S100000, .f32⟩ : BufTy).Contents (Elt F)),
    binary main_v245 main_v246 main_v247 (maximumf : (⟨S100000, .f32⟩ : BufTy).Contents (Elt F) → (⟨S100000, .f32⟩ : BufTy).Contents (Elt F) → (⟨S100000, .f32⟩ : BufTy).Contents (Elt F)),
    unary main_v247 main_v248 (broadcastInDim S100000x1 ![0] bcast_S100000_S100000x1_0 : (⟨S100000, .f32⟩ : BufTy).Contents (Elt F) → (⟨S100000x1, .f32⟩ : BufTy).Contents (Elt F)),
    unary main_v248 main_v249 (broadcastInDim S100000x128 ![0, 1] bcast_S100000x1_S100000x128_0_1 : (⟨S100000x1, .f32⟩ : BufTy).Contents (Elt F) → (⟨S100000x128, .f32⟩ : BufTy).Contents (Elt F)),
    binary main_v239 main_v249 main_v250 (Host.divf : (⟨S100000x128, .f32⟩ : BufTy).Contents (Elt F) → (⟨S100000x128, .f32⟩ : BufTy).Contents (Elt F) → (⟨S100000x128, .f32⟩ : BufTy).Contents (Elt F)),
    unary main_arg7 main_v251 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v251 main_v252 rfl shapeCasts_S1x128x128_S128x128,
    binary main_v150 main_v252 main_v253 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v254 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v254 main_v255 rfl shapeCasts_S1x128x128_S128x128,
    binary main_v250 main_v255 main_v256 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v253 main_v256 main_v257 (addf : (⟨S100000x128, .f32⟩ : BufTy).Contents (Elt F) → (⟨S100000x128, .f32⟩ : BufTy).Contents (Elt F) → (⟨S100000x128, .f32⟩ : BufTy).Contents (Elt F)),
    unary main_arg9 main_v258 ((extractStridedSlice S1x128 ![2, 0] · slices_S4x128_S1x128_2_0) : (⟨S4x128, .f32⟩ : BufTy).Contents (Elt F) → (⟨S1x128, .f32⟩ : BufTy).Contents (Elt F)),
    reshape main_v258 main_v259 rfl shapeCasts_S1x128_S128,
    unary main_v259 main_v260 (broadcastInDim S1x128 ![1] bcast_S128_S1x128_1 : (⟨S128, .f32⟩ : BufTy).Contents (Elt F) → (⟨S1x128, .f32⟩ : BufTy).Contents (Elt F)),
    unary main_v260 main_v261 (broadcastInDim S100000x128 ![0, 1] bcast_S1x128_S100000x128_0_1 : (⟨S1x128, .f32⟩ : BufTy).Contents (Elt F) → (⟨S100000x128, .f32⟩ : BufTy).Contents (Elt F)),
    binary main_v257 main_v261 main_v262 (addf : (⟨S100000x128, .f32⟩ : BufTy).Contents (Elt F) → (⟨S100000x128, .f32⟩ : BufTy).Contents (Elt F) → (⟨S100000x128, .f32⟩ : BufTy).Contents (Elt F)),
    binary main_v225 main_v262 main_v263 (addf : (⟨S100000x128, .f32⟩ : BufTy).Contents (Elt F) → (⟨S100000x128, .f32⟩ : BufTy).Contents (Elt F) → (⟨S100000x128, .f32⟩ : BufTy).Contents (Elt F)),
    unary main_arg2 main_v264 ((extractStridedSlice S1x600000 ![3, 0] · slices_S4x600000_S1x600000_3_0) : (⟨S4x600000, .i32⟩ : BufTy).Contents (Elt F) → (⟨S1x600000, .i32⟩ : BufTy).Contents (Elt F)),
    reshape main_v264 main_v265 rfl shapeCasts_S1x600000_S600000,
    nullary main_c_40 (constantI S_ 32 0#32),
    unary main_c_40 main_v266 (broadcastInDim S600000 ![] bcast_S_S600000 : (⟨S_, .i32⟩ : BufTy).Contents (Elt F) → (⟨S600000, .i32⟩ : BufTy).Contents (Elt F)),
    binary main_v265 main_v266 main_v267 (cmpi .slt : (⟨S600000, .i32⟩ : BufTy).Contents (Elt F) → (⟨S600000, .i32⟩ : BufTy).Contents (Elt F) → (⟨S600000, .i1⟩ : BufTy).Contents (Elt F)),
    nullary main_c_41 (constantI S_ 32 100000#32),
    unary main_c_41 main_v268 (broadcastInDim S600000 ![] bcast_S_S600000 : (⟨S_, .i32⟩ : BufTy).Contents (Elt F) → (⟨S600000, .i32⟩ : BufTy).Contents (Elt F)),
    binary main_v265 main_v268 main_v269 (addi : (⟨S600000, .i32⟩ : BufTy).Contents (Elt F) → (⟨S600000, .i32⟩ : BufTy).Contents (Elt F) → (⟨S600000, .i32⟩ : BufTy).Contents (Elt F)),
    ternary main_v267 main_v269 main_v265 main_v270 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v270 main_v271 (broadcastInDim S600000x1 ![0] bcast_S600000_S600000x1_0 : (⟨S600000, .i32⟩ : BufTy).Contents (Elt F) → (⟨S600000x1, .i32⟩ : BufTy).Contents (Elt F)),
    binary main_v150 main_v271 main_v272 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_arg3 main_v273 ((extractStridedSlice S1x600000 ![3, 0] · slices_S4x600000_S1x600000_3_0) : (⟨S4x600000, .i32⟩ : BufTy).Contents (Elt F) → (⟨S1x600000, .i32⟩ : BufTy).Contents (Elt F)),
    reshape main_v273 main_v274 rfl shapeCasts_S1x600000_S600000,
    nullary main_cst_42 (constant S_ .f32 0x00000000#32),
    unary main_cst_42 main_v275 (broadcastInDim S100000x128 ![] bcast_S_S100000x128 : (⟨S_, .f32⟩ : BufTy).Contents (Elt F) → (⟨S100000x128, .f32⟩ : BufTy).Contents (Elt F)),
    unary main_v274 main_v276 (broadcastInDim S600000x1 ![0] bcast_S600000_S600000x1_0 : (⟨S600000, .i32⟩ : BufTy).Contents (Elt F) → (⟨S600000x1, .i32⟩ : BufTy).Contents (Elt F)),
    ternary main_v275 main_v276 main_v272 main_v277 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_43 (constant S_ .f32 0x3F800000#32),
    unary main_cst_43 main_v278 (broadcastInDim S600000 ![] bcast_S_S600000 : (⟨S_, .f32⟩ : BufTy).Contents (Elt F) → (⟨S600000, .f32⟩ : BufTy).Contents (Elt F)),
    unary main_arg3 main_v279 ((extractStridedSlice S1x600000 ![3, 0] · slices_S4x600000_S1x600000_3_0) : (⟨S4x600000, .i32⟩ : BufTy).Contents (Elt F) → (⟨S1x600000, .i32⟩ : BufTy).Contents (Elt F)),
    reshape main_v279 main_v280 rfl shapeCasts_S1x600000_S600000,
    nullary main_cst_44 (constant S_ .f32 0x00000000#32),
    unary main_cst_44 main_v281 (broadcastInDim S100000 ![] bcast_S_S100000 : (⟨S_, .f32⟩ : BufTy).Contents (Elt F) → (⟨S100000, .f32⟩ : BufTy).Contents (Elt F)),
    unary main_v280 main_v282 (broadcastInDim S600000x1 ![0] bcast_S600000_S600000x1_0 : (⟨S600000, .i32⟩ : BufTy).Contents (Elt F) → (⟨S600000x1, .i32⟩ : BufTy).Contents (Elt F)),
    ternary main_v281 main_v282 main_v278 main_v283 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_45 (constant S_ .f32 0x3F800000#32),
    unary main_cst_45 main_v284 (broadcastInDim S100000 ![] bcast_S_S100000 : (⟨S_, .f32⟩ : BufTy).Contents (Elt F) → (⟨S100000, .f32⟩ : BufTy).Contents (Elt F)),
    binary main_v283 main_v284 main_v285 (maximumf : (⟨S100000, .f32⟩ : BufTy).Contents (Elt F) → (⟨S100000, .f32⟩ : BufTy).Contents (Elt F) → (⟨S100000, .f32⟩ : BufTy).Contents (Elt F)),
    unary main_v285 main_v286 (broadcastInDim S100000x1 ![0] bcast_S100000_S100000x1_0 : (⟨S100000, .f32⟩ : BufTy).Contents (Elt F) → (⟨S100000x1, .f32⟩ : BufTy).Contents (Elt F)),
    unary main_v286 main_v287 (broadcastInDim S100000x128 ![0, 1] bcast_S100000x1_S100000x128_0_1 : (⟨S100000x1, .f32⟩ : BufTy).Contents (Elt F) → (⟨S100000x128, .f32⟩ : BufTy).Contents (Elt F)),
    binary main_v277 main_v287 main_v288 (Host.divf : (⟨S100000x128, .f32⟩ : BufTy).Contents (Elt F) → (⟨S100000x128, .f32⟩ : BufTy).Contents (Elt F) → (⟨S100000x128, .f32⟩ : BufTy).Contents (Elt F)),
    unary main_arg7 main_v289 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v289 main_v290 rfl shapeCasts_S1x128x128_S128x128,
    binary main_v151 main_v290 main_v291 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v292 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v292 main_v293 rfl shapeCasts_S1x128x128_S128x128,
    binary main_v288 main_v293 main_v294 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v291 main_v294 main_v295 (addf : (⟨S100000x128, .f32⟩ : BufTy).Contents (Elt F) → (⟨S100000x128, .f32⟩ : BufTy).Contents (Elt F) → (⟨S100000x128, .f32⟩ : BufTy).Contents (Elt F)),
    unary main_arg9 main_v296 ((extractStridedSlice S1x128 ![3, 0] · slices_S4x128_S1x128_3_0) : (⟨S4x128, .f32⟩ : BufTy).Contents (Elt F) → (⟨S1x128, .f32⟩ : BufTy).Contents (Elt F)),
    reshape main_v296 main_v297 rfl shapeCasts_S1x128_S128,
    unary main_v297 main_v298 (broadcastInDim S1x128 ![1] bcast_S128_S1x128_1 : (⟨S128, .f32⟩ : BufTy).Contents (Elt F) → (⟨S1x128, .f32⟩ : BufTy).Contents (Elt F)),
    unary main_v298 main_v299 (broadcastInDim S100000x128 ![0, 1] bcast_S1x128_S100000x128_0_1 : (⟨S1x128, .f32⟩ : BufTy).Contents (Elt F) → (⟨S100000x128, .f32⟩ : BufTy).Contents (Elt F)),
    binary main_v295 main_v299 main_v300 (addf : (⟨S100000x128, .f32⟩ : BufTy).Contents (Elt F) → (⟨S100000x128, .f32⟩ : BufTy).Contents (Elt F) → (⟨S100000x128, .f32⟩ : BufTy).Contents (Elt F)),
    binary main_v188 main_v300 main_v301 (addf : (⟨S100000x128, .f32⟩ : BufTy).Contents (Elt F) → (⟨S100000x128, .f32⟩ : BufTy).Contents (Elt F) → (⟨S100000x128, .f32⟩ : BufTy).Contents (Elt F)) ]

/-- The whole program: the first layer, then the second. -/
abbrev ops : List (HloOp τ sig (Elt F)) := ops1 ++ ops2

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops1_sub : (ops1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub ..⟩
set_option maxRecDepth 8192 in
theorem ops2_sub : (ops2 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub .., binary_bufs_sub ..⟩
theorem ops_sub : (ops : List (HloOp τ sig (Elt F))).Forall fun op => op.bufs ⊆ tcRefs τ sig :=
  List.forall_append.mpr ⟨ops1_sub, ops2_sub⟩

set_option maxRecDepth 8192 in
set_option maxHeartbeats 4000000 in
/-- Every operation of the first layer determines what it writes. -/
theorem ops1_fresh : ∀ op ∈ (ops1 : List (HloOp τ sig (Elt F))), op.fresh = ∅ := by
  intro _ h; (repeat (cases h with | head => rfl | tail _ h => ?_)); exact nomatch h
set_option maxRecDepth 8192 in
set_option maxHeartbeats 4000000 in
/-- Every operation of the second layer determines what it writes. -/
theorem ops2_fresh : ∀ op ∈ (ops2 : List (HloOp τ sig (Elt F))), op.fresh = ∅ := by
  intro _ h; (repeat (cases h with | head => rfl | tail _ h => ?_)); exact nomatch h

/-- Running one line after another folds the second over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Every fair execution ends with each buffer at the fold of the two stages over the launch contents. -/
theorem fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after ops2 (after ops1 (launchContents m d)) (Proc.devRef .tc b) :=
  (θ_run defs _ _).mono (fun _ h d b => (h d b).trans (congrFun (after_append ops1 ops2 (launchContents m d)) _))
    (run_seq scopedRefs_eq scopedSems_eq defs main (fun _ => ops) main_eq (fun _ => ops_sub) m ρ
      (fun _ op h => (List.mem_append.mp h).elim (ops1_fresh op) (ops2_fresh op)))

end Cert.ReferenceIdeal.NetRun

end
-- ==== Proof.Sage.lean ====
/-
  Two layers of a heterogeneous GraphSAGE network over two node types (100000 nodes each, 128 features) and four
  relations. This module states, entry by entry on the extended reals, what ONE fused "combine" step computes
  for one node type from nine arrays:

    out (i, j) = act ( Σ_k h (i, k) · ws (k, j)
                     + Σ_k (sa (i, k) · ia (i)) · wa (k, j)
                     + Σ_k (sb (i, k) · ib (i)) · wb (k, j)
                     + b (j) )

  h the node type's own features, sa / sb the neighbour sums of its two incoming relations, ia / ib the per-node
  reciprocal degrees (one column), ws the sum of the two relations' self weights, wa / wb their neighbour weights,
  b the sum of their biases (one row), act the identity or max (·, 0).
-/
import Idealize.ShloMosaic.PureOps.Ideal
import Idealize.ShloMosaic.Lib.ValueIdx

noncomputable section

open scoped BigOperators

namespace Cert.Sage

open Idealize.ShloMosaic Idealize.ShloMosaic.ValueIdx

/-- Node features: 100000 nodes by 128 features. -/
abbrev SNodes : Shape := ⟨2, ![100000, 128]⟩
/-- One number per node, as a column. -/
abbrev SCol : Shape := ⟨2, ![100000, 1]⟩
/-- A 128 × 128 weight matrix. -/
abbrev SMat : Shape := ⟨2, ![128, 128]⟩
/-- A bias, as a row. -/
abbrev SRow : Shape := ⟨2, ![1, 128]⟩

/-- Entry (i, j) of the product of a node table with a weight matrix. -/
def dotAt (a : FVec Ideal SNodes .f32) (w : FVec Ideal SMat .f32) (i : Fin 100000) (j : Fin 128) : EReal :=
  ∑ k : Fin 128, a (ix2 i k) * w (ix2 k j)

/-- A node table with every row scaled by its node's number. -/
def scaled (s : FVec Ideal SNodes .f32) (v : FVec Ideal SCol .f32) : FVec Ideal SNodes .f32 :=
  fun y => s y * v (ix2 (y 0 : Fin 100000) (0 : Fin 1))

/-- The activation: max (·, 0) between the layers, the identity after the last. -/
def act (relu : Bool) (x : EReal) : EReal := if relu then max x 0 else x

/-- Entry (i, j) of one combine step. -/
def combineAt (relu : Bool) (h sa : FVec Ideal SNodes .f32) (ia : FVec Ideal SCol .f32) (sb : FVec Ideal SNodes .f32)
    (ib : FVec Ideal SCol .f32) (ws wa wb : FVec Ideal SMat .f32) (b : FVec Ideal SRow .f32)
    (i : Fin 100000) (j : Fin 128) : EReal :=
  act relu (((dotAt h ws i j + dotAt (scaled sa ia) wa i j) + dotAt (scaled sb ib) wb i j) + b (ix2 (0 : Fin 1) j))

/-- One combine step, as a whole table. -/
def combine (relu : Bool) (h sa : FVec Ideal SNodes .f32) (ia : FVec Ideal SCol .f32) (sb : FVec Ideal SNodes .f32)
    (ib : FVec Ideal SCol .f32) (ws wa wb : FVec Ideal SMat .f32) (b : FVec Ideal SRow .f32) : FVec Ideal SNodes .f32 :=
  fun y => combineAt relu h sa ia sb ib ws wa wb b (y 0 : Fin 100000) (y 1 : Fin 128)

theorem combine_apply (relu : Bool) (h sa : FVec Ideal SNodes .f32) (ia : FVec Ideal SCol .f32) (sb : FVec Ideal SNodes .f32)
    (ib : FVec Ideal SCol .f32) (ws wa wb : FVec Ideal SMat .f32) (b : FVec Ideal SRow .f32) (i : Fin 100000) (j : Fin 128) :
    combine relu h sa ia sb ib ws wa wb b (ix2 i j) = combineAt relu h sa ia sb ib ws wa wb b i j := rfl

theorem scaled_apply (s : FVec Ideal SNodes .f32) (v : FVec Ideal SCol .f32) (i : Fin 100000) (k : Fin 128) :
    scaled s v (ix2 i k) = s (ix2 i k) * v (ix2 i (0 : Fin 1)) := rfl

end Cert.Sage

end
-- ==== Proof.SageLaw.lean ====
/-
  The algebra the two programs differ by, on the extended reals.

  One program multiplies a node's features by the SUM of two weight matrices, the other multiplies by each and
  adds: Σ_k a_k · (u_k + v_k) = Σ_k a_k · u_k + Σ_k a_k · v_k. On the extended reals the distributive law fails at
  infinities, so it is stated for real entries. One program scales a neighbour sum by the reciprocal 1 / y of the
  clamped degree, the other divides by y: equal for every y ≥ 1, the infinite one included (1 / ⊤ = 0). The rest is
  regrouping a sum of seven terms, which holds in any commutative monoid.
-/
import Idealize.ShloMosaic.PureOps.Ideal

noncomputable section

open scoped BigOperators

namespace Cert.Sage

open Idealize.ShloMosaic

/-- An extended real that is a real number. -/
def IsReal (x : EReal) : Prop := ∃ r : ℝ, x = (r : EReal)

theorem IsReal.zero : IsReal 0 := ⟨0, rfl⟩
theorem IsReal.one : IsReal 1 := ⟨1, rfl⟩
theorem IsReal.coe (r : ℝ) : IsReal (r : EReal) := ⟨r, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ k ∈ s, IsReal (f k)) : IsReal (∑ k ∈ s, f k) := by
  classical
  induction s using Finset.induction_on with
  | empty => simpa using IsReal.zero
  | insert a s ha ih =>
    rw [Finset.sum_insert ha]
    exact (h a (Finset.mem_insert_self a s)).add (ih fun k hk => h k (Finset.mem_insert_of_mem hk))

theorem IsReal.ite {p : Prop} [Decidable p] {x y : EReal} (hx : IsReal x) (hy : IsReal y) : IsReal (if p then x else y) := by
  split <;> assumption

/-- The reciprocal of an extended real that is at least one is a real number (of the infinite one: zero). -/
theorem IsReal.inv_of_one_le {y : EReal} (h : 1 ≤ y) : IsReal y⁻¹ := by
  induction y using EReal.rec with
  | bot => exact absurd (le_bot_iff.mp h) (ne_of_gt (EReal.bot_lt_coe 1))
  | top => exact ⟨0, by simp⟩
  | coe r => exact ⟨r⁻¹, (EReal.coe_inv r).symm⟩

theorem ne_zero_of_one_le {y : EReal} (h : 1 ≤ y) : y ≠ 0 := by
  intro h0; rw [h0] at h; exact absurd h (by norm_num)

/-- Dividing by y ≥ 1 is multiplying by its reciprocal. -/
theorem div_of_one_le (x : EReal) {y : EReal} (h : 1 ≤ y) : Ideal.div x y = x * y⁻¹ := by
  rw [Ideal.div, if_neg (ne_zero_of_one_le h)]

/-- The reciprocal 1 / y of y ≥ 1. -/
theorem one_div_of_one_le {y : EReal} (h : 1 ≤ y) : Ideal.div 1 y = y⁻¹ := by
  rw [div_of_one_le 1 h, one_mul]

/-- Scaling by the reciprocal of y ≥ 1 is dividing by y. -/
theorem mul_one_div (x : EReal) {y : EReal} (h : 1 ≤ y) : x * Ideal.div 1 y = Ideal.div x y := by
  rw [one_div_of_one_le h, div_of_one_le x h]

/-- A product with a sum of two weights, entry by entry real: the sum of the two products. -/
theorem sum_mul_add {ι : Type} [Fintype ι] (a u v : ι → EReal) (ha : ∀ k, IsReal (a k)) (hu : ∀ k, IsReal (u k))
    (hv : ∀ k, IsReal (v k)) : ∑ k, a k * (u k + v k) = ∑ k, a k * u k + ∑ k, a k * v k := by
  rw [← Finset.sum_add_distrib]
  refine Finset.sum_congr rfl fun k _ => ?_
  obtain ⟨r, hr⟩ := ha k; obtain ⟨s, hs⟩ := hu k; obtain ⟨t, ht⟩ := hv k
  rw [hr, hs, ht, ← EReal.coe_add, ← EReal.coe_mul, ← EReal.coe_mul, ← EReal.coe_mul, ← EReal.coe_add, mul_add]

/-- The seven terms of a fused step, regrouped as the two relations' separate steps. -/
theorem regroup (Pa Pb A B ba bb : EReal) :
    (((Pa + Pb) + A) + B) + (ba + bb) = ((Pa + A) + ba) + ((Pb + B) + bb) := by
  abel

end Cert.Sage

end
-- ==== Proof.SageStep.lean ====
/-
  One fused combine step equals the two relations' separate steps added.

  For a node type with incoming relations a and b the reference computes, per relation,
  (h · Wself + (S / y) · Wneigh) + bias and adds the two; the fused step computes
  ((h · (Wself_a + Wself_b) + (S_a · (1 / y_a)) · Wneigh_a) + (S_b · (1 / y_b)) · Wneigh_b) + (bias_a + bias_b).
  They agree entry by entry when h and the self weights are real (the distributive law) and y_a, y_b ≥ 1 (the
  reciprocal). With every input real the result is real, which feeds the next layer.
-/
import proofs.«155078_j57956288692353_2_alg».proof.Proof.Sage
import proofs.«155078_j57956288692353_2_alg».proof.Proof.SageLaw

noncomputable section

open scoped BigOperators

namespace Cert.Sage

open Idealize.ShloMosaic Idealize.ShloMosaic.ValueIdx

/-- One number per node. -/
abbrev SVecN : Shape := ⟨1, ![100000]⟩
/-- One number per feature. -/
abbrev SVecD : Shape := ⟨1, ![128]⟩

/-- Entry (i, j) of the two relations' separate steps, added. -/
def pairAt (h sa sb : FVec Ideal SNodes .f32) (ya yb : FVec Ideal SVecN .f32) (wsa wsb wa wb : FVec Ideal SMat .f32)
    (ba bb : FVec Ideal SVecD .f32) (i : Fin 100000) (j : Fin 128) : EReal :=
  ((dotAt h wsa i j + ∑ k : Fin 128, Ideal.div (sa (ix2 i k)) (ya (ix1 i)) * wa (ix2 k j)) + ba (ix1 j))
    + ((dotAt h wsb i j + ∑ k : Fin 128, Ideal.div (sb (ix2 i k)) (yb (ix1 i)) * wb (ix2 k j)) + bb (ix1 j))

theorem combineAt_eq_pairAt (relu : Bool) (h sa sb : FVec Ideal SNodes .f32) (ya yb : FVec Ideal SVecN .f32)
    (wsa wsb wa wb : FVec Ideal SMat .f32) (ba bb : FVec Ideal SVecD .f32)
    (ia ib : FVec Ideal SCol .f32) (ws : FVec Ideal SMat .f32) (b : FVec Ideal SRow .f32)
    (hia : ∀ i : Fin 100000, ia (ix2 i (0 : Fin 1)) = Ideal.div 1 (ya (ix1 i)))
    (hib : ∀ i : Fin 100000, ib (ix2 i (0 : Fin 1)) = Ideal.div 1 (yb (ix1 i)))
    (hws : ∀ k j : Fin 128, ws (ix2 k j) = wsa (ix2 k j) + wsb (ix2 k j))
    (hb : ∀ j : Fin 128, b (ix2 (0 : Fin 1) j) = ba (ix1 j) + bb (ix1 j))
    (hya : ∀ i : Fin 100000, 1 ≤ ya (ix1 i)) (hyb : ∀ i : Fin 100000, 1 ≤ yb (ix1 i))
    (hh : ∀ (i : Fin 100000) (k : Fin 128), IsReal (h (ix2 i k)))
    (hwsa : ∀ k j : Fin 128, IsReal (wsa (ix2 k j))) (hwsb : ∀ k j : Fin 128, IsReal (wsb (ix2 k j)))
    (i : Fin 100000) (j : Fin 128) :
    combineAt relu h sa ia sb ib ws wa wb b i j = act relu (pairAt h sa sb ya yb wsa wsb wa wb ba bb i j) := by
  unfold combineAt pairAt
  congr 1
  have e1 : dotAt h ws i j = dotAt h wsa i j + dotAt h wsb i j := by
    unfold dotAt
    rw [← sum_mul_add _ _ _ (fun k => hh i k) (fun k => hwsa k j) (fun k => hwsb k j)]
    exact Finset.sum_congr rfl fun k _ => by rw [hws]
  have e2 : dotAt (scaled sa ia) wa i j = ∑ k : Fin 128, Ideal.div (sa (ix2 i k)) (ya (ix1 i)) * wa (ix2 k j) := by
    unfold dotAt
    exact Finset.sum_congr rfl fun k _ => by rw [scaled_apply, hia, mul_one_div _ (hya i)]
  have e3 : dotAt (scaled sb ib) wb i j = ∑ k : Fin 128, Ideal.div (sb (ix2 i k)) (yb (ix1 i)) * wb (ix2 k j) := by
    unfold dotAt
    exact Finset.sum_congr rfl fun k _ => by rw [scaled_apply, hib, mul_one_div _ (hyb i)]
  rw [e1, e2, e3, hb]
  exact regroup _ _ _ _ _ _

theorem act_isReal (relu : Bool) {x : EReal} (hx : IsReal x) : IsReal (act relu x) := by
  unfold act
  exact IsReal.ite (hx.max IsReal.zero) hx

theorem dotAt_isReal (a : FVec Ideal SNodes .f32) (w : FVec Ideal SMat .f32) (i : Fin 100000) (j : Fin 128)
    (ha : ∀ k : Fin 128, IsReal (a (ix2 i k))) (hw : ∀ k : Fin 128, IsReal (w (ix2 k j))) : IsReal (dotAt a w i j) :=
  IsReal.sum _ _ fun k _ => (ha k).mul (hw k)

/-- With every input real and the degrees at least one, the two relations' steps added is a real number. -/
theorem pairAt_isReal (h sa sb : FVec Ideal SNodes .f32) (ya yb : FVec Ideal SVecN .f32)
    (wsa wsb wa wb : FVec Ideal SMat .f32) (ba bb : FVec Ideal SVecD .f32) (i : Fin 100000) (j : Fin 128)
    (hya : 1 ≤ ya (ix1 i)) (hyb : 1 ≤ yb (ix1 i))
    (hh : ∀ k : Fin 128, IsReal (h (ix2 i k))) (hsa : ∀ k : Fin 128, IsReal (sa (ix2 i k)))
    (hsb : ∀ k : Fin 128, IsReal (sb (ix2 i k)))
    (hwsa : ∀ k : Fin 128, IsReal (wsa (ix2 k j))) (hwsb : ∀ k : Fin 128, IsReal (wsb (ix2 k j)))
    (hwa : ∀ k : Fin 128, IsReal (wa (ix2 k j))) (hwb : ∀ k : Fin 128, IsReal (wb (ix2 k j)))
    (hba : IsReal (ba (ix1 j))) (hbb : IsReal (bb (ix1 j))) :
    IsReal (pairAt h sa sb ya yb wsa wsb wa wb ba bb i j) := by
  unfold pairAt
  refine IsReal.add (IsReal.add (IsReal.add (dotAt_isReal h wsa i j hh hwsa) ?_) hba)
    (IsReal.add (IsReal.add (dotAt_isReal h wsb i j hh hwsb) ?_) hbb)
  · exact IsReal.sum _ _ fun k _ => by
      rw [div_of_one_le _ hya]; exact ((hsa k).mul (IsReal.inv_of_one_le hya)).mul (hwa k)
  · exact IsReal.sum _ _ fun k _ => by
      rw [div_of_one_le _ hyb]; exact ((hsb k).mul (IsReal.inv_of_one_le hyb)).mul (hwb k)

end Cert.Sage

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibRowGatherScatter.lean ====
/-
  Rows gathered and rows scattered, read at one element, over any sizes.

  A table `x` of R rows and C columns; N index words. The row gather makes the N × C table whose row n is row
  `idx n` of x, the word read as a signed integer and clamped into [0, R − 1]. The accumulating row scatter adds row n
  of an N × C table of updates to row `idx n` of the operand, the word read signed and NOT clamped: a row whose index
  is outside the operand is dropped. On the extended reals the scatter's result at (r, c) is the operand there plus the
  sum, over the rows n whose index is r, of the update at (n, c); no order of accumulation is left in it. Composed: the
  scatter of weighted gathered rows at (r, c) is a sum over n of weight · x (clamped source row of n, c) — column c of
  the result only ever meets column c of x.
-/
import Idealize.ShloMosaic.PureOps.Ideal
import Idealize.ShloMosaic.Lib.ValueIdx
import Idealize.ShloMosaic.Lib.Pipeline.Value

noncomputable section

open scoped BigOperators

namespace Cert.LibRowGatherScatter

open Idealize.ShloMosaic Idealize.ShloMosaic.ValueIdx

/-- The row an index word names for a gather out of R rows: read signed, clamped into [0, R − 1]. -/
def clampRow (R : Nat) (hR : 0 < R) {w : Nat} (b : BitVec w) : Fin R := ⟨min b.toInt.toNat (R - 1), by omega⟩

section Gather

variable {α : Type} {R N C : Nat}

/-- The dimension numbers of a row gather, for an operand [R, C], start indices [N, 1] and a result [N, C]. -/
abbrev rowGatherDims (R N C : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rowDims_apply (hR : 0 < R)
    (wf : GatherDims.WF ⟨2, ![R, C]⟩ ⟨2, ![N, 1]⟩ ⟨2, ![N, C]⟩ [1] [0] [] [0] [] 1 ![1, C]) {w : Nat}
    (x : (⟨2, ![R, C]⟩ : Shape).Idx → α) (idx : IVec ⟨2, ![N, 1]⟩ w) (n : Fin N) (c : Fin C) :
    Host.gather (rowGatherDims R N C wf) x idx (ix2 n c) = x (ix2 (clampRow R hR (idx (ix2 n (0 : Fin 1)))) c) := by
  unfold Host.gather
  congr 1
  funext a
  refine Fin.ext ?_
  have e0 : ((rowGatherDims R N C wf).operandIdx (ix2 n c) idx 0).val = min (idx (ix2 n (0 : Fin 1))).toInt.toNat (R - 1) := by
    show (rowGatherDims R N C wf).start (ix2 n c) idx 0 + (rowGatherDims R N C wf).batchCoord (ix2 n c) 0
      + (rowGatherDims R N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R N C wf).startIndexMap from List.mem_singleton.mpr rfl)]
    have hsi : (rowGatherDims R N C wf).siIdx (ix2 n c) ⟨List.idxOf (0 : Fin 2) (rowGatherDims R N C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have e1 : ((rowGatherDims R N C wf).operandIdx (ix2 n c) idx 1).val = c.val := by
    show (rowGatherDims R N C wf).start (ix2 n c) idx 1 + (rowGatherDims R N C wf).batchCoord (ix2 n c) 1
      + (rowGatherDims R N C wf).offCoord (ix2 n c) 1 = _
    rw [GatherDims.batchCoord_eq_zero _ _ _ List.not_mem_nil]
    have hs : (rowGatherDims R N C wf).start (ix2 n c) idx 1 = 0 := by
      unfold GatherDims.start
      rw [dif_neg (show (1 : Fin 2) ∉ (rowGatherDims R N C wf).startIndexMap from
        (by decide : (1 : Fin 2) ∉ ([0] : List (Fin 2))))]
    rw [hs]
    simp only [Nat.add_zero, Nat.zero_add]
    unfold GatherDims.offCoord
    rw [dif_pos (show (1 : Fin 2) ∈ (rowGatherDims R N C wf).sKept from
      List.mem_filter.2 ⟨List.mem_finRange _, (by decide : decide ((1 : Fin 2) ∉ (([0] : List (Fin 2)) ++ [])) = true)⟩)]
    rfl
  match a with
  | ⟨0, _⟩ => exact e0
  | ⟨1, _⟩ => exact e1

/-- THE ROW GATHER READ AT (n, c): x at (the clamped row of word n, c). -/
theorem gather_rows (g : GatherDims ⟨2, ![R, C]⟩ ⟨2, ![N, 1]⟩ ⟨2, ![N, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (hR : 0 < R) {w : Nat}
    (x : (⟨2, ![R, C]⟩ : Shape).Idx → α) (idx : IVec ⟨2, ![N, 1]⟩ w) (n : Fin N) (c : Fin C) :
    Host.gather g x idx (ix2 n c) = x (ix2 (clampRow R hR (idx (ix2 n (0 : Fin 1)))) c) := by
  obtain ⟨od, cd, ob, sb, sm, iv, ss, wf⟩ := g
  simp only at h1 h2 h3 h4 h5 h6 h7
  subst h1 h2 h3 h4 h5 h6 h7
  exact gather_rowDims_apply hR wf x idx n c

end Gather

section Scatter

variable {R N C : Nat} (d : ScatterDims ⟨2, ![R, C]⟩ ⟨2, ![N, 1]⟩ ⟨2, ![N, C]⟩)

/-- Where update element (n, c') lands: at (r, c) exactly when row n's index word, read signed, is r and c' = c. -/
theorem resultIdx?_rows (h1 : d.updateWindowDims = [1]) (h2 : d.insertedWindowDims = [0])
    (h3 : d.scatterDimsToOperandDims = [0]) (h4 : d.indexVectorDim = 1) {w : Nat}
    (idx : IVec ⟨2, ![N, 1]⟩ w) (n : Fin N) (c' : Fin C) (r : Fin R) (c : Fin C) :
    d.resultIdx? (ix2 n c') idx = some (ix2 r c) ↔ (idx (ix2 n (0 : Fin 1))).toInt = (r.val : ℤ) ∧ c' = c := by
  obtain ⟨uw, iw, sd, iv, wf⟩ := d
  simp only at h1 h2 h3 h4
  subst h1 h2 h3 h4
  have hs0 : ScatterDims.start ⟨[1], [0], [0], 1, wf⟩ (ix2 n c') idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hs1 : ScatterDims.start ⟨[1], [0], [0], 1, wf⟩ (ix2 n c') idx 1 = 0 := by
    unfold ScatterDims.start
    rw [dif_neg (show (1 : Fin 2) ∉ ([0] : List (Fin 2)) by decide)]
  have hw0 : ScatterDims.window ⟨[1], [0], [0], 1, wf⟩ (ix2 n c') 0 = 0 := by
    unfold ScatterDims.window
    rw [dif_neg (show (0 : Fin 2) ∉ (⟨2, ![R, C]⟩ : Shape).kept [0] from
      fun h => (of_decide_eq_true (List.mem_filter.1 h).2) (List.mem_singleton.mpr rfl))]
  have hw1 : ScatterDims.window ⟨[1], [0], [0], 1, wf⟩ (ix2 n c') 1 = c'.val := by
    unfold ScatterDims.window
    rw [dif_pos (show (1 : Fin 2) ∈ (⟨2, ![R, C]⟩ : Shape).kept [0] from
      List.mem_filter.2 ⟨List.mem_finRange _, (by decide : decide ((1 : Fin 2) ∉ ([0] : List (Fin 2))) = true)⟩)]
    rfl
  unfold ScatterDims.resultIdx?
  simp only [Fin.forall_fin_two, hs0, hs1, hw0, hw1]
  have hc0 : (ix2 r c (0 : Fin 2)) = r := rfl
  have hc1 : (ix2 r c (1 : Fin 2)) = c := rfl
  have hz0 : ((![R, C] : Fin 2 → ℕ) 0) = R := rfl
  have hz1 : ((![R, C] : Fin 2 → ℕ) 1) = C := rfl
  have hr := r.isLt
  have hc := c.isLt
  have hc' := c'.isLt
  by_cases hcond : ((0 ≤ (idx (ix2 n (0 : Fin 1))).toInt + ((0 : ℕ) : ℤ) ∧ (idx (ix2 n (0 : Fin 1))).toInt + ((0 : ℕ) : ℤ) < (((![R, C] : Fin 2 → ℕ) 0 : ℕ) : ℤ)) ∧
            0 ≤ (0 : ℤ) + ((c'.val : ℕ) : ℤ) ∧ (0 : ℤ) + ((c'.val : ℕ) : ℤ) < (((![R, C] : Fin 2 → ℕ) 1 : ℕ) : ℤ))
  · rw [dif_pos hcond]
    simp only [Option.some.injEq, funext_iff, Fin.forall_fin_two, Fin.ext_iff, hs0, hs1, hw0, hw1, hc0, hc1]
    rw [hz0, hz1] at hcond
    constructor
    · rintro ⟨h0, h1⟩
      exact ⟨by omega, by omega⟩
    · rintro ⟨h0, h1⟩
      exact ⟨by omega, by omega⟩
  · rw [dif_neg hcond]
    rw [hz0, hz1] at hcond
    constructor
    · intro h; exact absurd h (by simp)
    · rintro ⟨h0, h1⟩
      exact absurd ⟨⟨by omega, by omega⟩, by omega, by omega⟩ hcond

/-- THE ROW SCATTER READ AT (r, c): the operand there plus the updates (n, c) of the rows n whose index is r. -/
theorem scatterAdd_rows (h1 : d.updateWindowDims = [1]) (h2 : d.insertedWindowDims = [0])
    (h3 : d.scatterDimsToOperandDims = [0]) (h4 : d.indexVectorDim = 1) {w : Nat}
    (x : FVec Ideal ⟨2, ![R, C]⟩ .f32) (idx : IVec ⟨2, ![N, 1]⟩ w)
    (upd : FVec Ideal ⟨2, ![N, C]⟩ .f32) (r : Fin R) (c : Fin C) :
    Host.scatterAdd (F := Ideal) d x idx upd (ix2 r c)
      = x (ix2 r c) + ∑ n : Fin N, (if (idx (ix2 n (0 : Fin 1))).toInt = (r.val : ℤ) then upd (ix2 n c) else 0) := by
  simp only [Host.scatterAdd, Ideal.hostScatterAdd_def, Ideal.hostScatterAdd]
  refine congrArg (x (ix2 r c) + ·) ?_
  rw [Finset.sum_filter, sum_idx2]
  refine Finset.sum_congr rfl fun n _ => ?_
  simp only [resultIdx?_rows d h1 h2 h3 h4]
  by_cases hA : (idx (ix2 n (0 : Fin 1))).toInt = (r.val : ℤ)
  · simp only [hA, true_and, if_true]
    rw [Finset.sum_ite_eq' Finset.univ c (fun c' => upd (ix2 n c')), if_pos (Finset.mem_univ c)]
  · simp only [hA, false_and, if_false, Finset.sum_const_zero]

end Scatter

section Propagate

variable {R N C : Nat} (d : ScatterDims ⟨2, ![R, C]⟩ ⟨2, ![N, 1]⟩ ⟨2, ![N, C]⟩)
  (g : GatherDims ⟨2, ![R, C]⟩ ⟨2, ![N, 1]⟩ ⟨2, ![N, C]⟩)

/-- The scatter of weighted gathered rows at (r, c): the operand there plus, over the rows n sent to r, weight (n, c)
    times x at (the clamped source row of n, c). -/
theorem scatter_mul_gather (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C]) (hR : 0 < R) {w w' : Nat}
    (z x : FVec Ideal ⟨2, ![R, C]⟩ .f32) (wt : FVec Ideal ⟨2, ![N, C]⟩ .f32)
    (idxD : IVec ⟨2, ![N, 1]⟩ w) (idxS : IVec ⟨2, ![N, 1]⟩ w') (r : Fin R) (c : Fin C) :
    Host.scatterAdd (F := Ideal) d z idxD (mulf wt (Host.gather g x idxS)) (ix2 r c)
      = z (ix2 r c) + ∑ n : Fin N, (if (idxD (ix2 n (0 : Fin 1))).toInt = (r.val : ℤ)
          then wt (ix2 n c) * x (ix2 (clampRow R hR (idxS (ix2 n (0 : Fin 1)))) c) else 0) := by
  rw [scatterAdd_rows d h1 h2 h3 h4]
  refine congrArg (z (ix2 r c) + ·) (Finset.sum_congr rfl fun n _ => ?_)
  rw [mulf_apply, gather_rows g k1 k2 k3 k4 k5 k6 k7 hR]

end Propagate

section Widths

variable {R N C C' : Nat}

/-- A per-row number broadcast across C columns, read at (n, c): the number of row n. -/
theorem bcast_col_apply {α : Type} (hN : N ≠ 1) (v : (⟨1, ![N]⟩ : Shape).Idx → α)
    (h3 : (⟨1, ![N]⟩ : Shape).BroadcastsInDim ⟨2, ![N, 1]⟩ ![0])
    (h4 : (⟨2, ![N, 1]⟩ : Shape).BroadcastsInDim ⟨2, ![N, C]⟩ ![0, 1]) (n : Fin N) (c : Fin C) :
    broadcastInDim ⟨2, ![N, C]⟩ ![0, 1] h4 (broadcastInDim ⟨2, ![N, 1]⟩ ![0] h3 v) (ix2 n c) = v (ix1 n) := by
  refine (broadcastInDim_apply _ h4 _ (ix2 n c) (ix2 n (0 : Fin 1)) ?_).trans ?_
  · intro a
    match a with
    | ⟨0, _⟩ => show n.val = if N = 1 then 0 else n.val; rw [if_neg hN]
    | ⟨1, _⟩ => show (0 : Fin 1).val = if (1 : Nat) = 1 then 0 else c.val; rw [if_pos rfl]; rfl
  refine broadcastInDim_apply _ h3 v (ix2 n (0 : Fin 1)) (ix1 n) ?_
  intro a
  match a with
  | ⟨0, _⟩ => show n.val = if N = 1 then 0 else n.val; rw [if_neg hN]

/-- TWO WIDTHS, ONE COLUMN EACH: the scatter of weighted gathered rows over tables of C columns, read at column c,
    and the same over tables of C' columns, read at column c', agree when the operands agree at those two columns —
    the index lists being the same. A propagation of a wide table is, column by column, the propagation of its
    columns. -/
theorem scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.scatterAdd (F := Ideal) d z idxD (mulf wt (Host.gather g x idxS)) (ix2 r c)
      = Host.scatterAdd (F := Ideal) d' z' idxD (mulf wt' (Host.gather g' x' idxS)) (ix2 r c') := by
  rw [scatter_mul_gather d g h1 h2 h3 h4 k1 k2 k3 k4 k5 k6 k7 hR,
    scatter_mul_gather d' g' h1' h2' h3' h4' k1' k2' k3' k4' k5' k6' k7' hR, hz]
  refine congrArg (z' (ix2 r c') + ·) (Finset.sum_congr rfl fun n _ => ?_)
  rw [hw n, hx]

/-- The same under a negation: the scaled Laplacian's sign. -/
theorem neg_scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.negf (F := Ideal) (Host.scatterAdd (F := Ideal) d z idxD (mulf wt (Host.gather g x idxS))) (ix2 r c)
      = Host.negf (F := Ideal) (Host.scatterAdd (F := Ideal) d' z' idxD (mulf wt' (Host.gather g' x' idxS))) (ix2 r c') := by
  show -(Host.scatterAdd (F := Ideal) d z idxD (mulf wt (Host.gather g x idxS)) (ix2 r c))
    = -(Host.scatterAdd (F := Ideal) d' z' idxD (mulf wt' (Host.gather g' x' idxS)) (ix2 r c'))
  rw [scatter_mul_gather_congr d g d' g' h1 h2 h3 h4 k1 k2 k3 k4 k5 k6 k7 h1' h2' h3' h4' k1' k2' k3' k4' k5' k6' k7' hR
    z x wt z' x' wt' idxD idxS r c c' hz hw hx]

end Widths

end Cert.LibRowGatherScatter

end
-- ==== Proof.SageHost.lean ====
/-
  The host-side spellings of the pieces of a layer, each read at one entry on the extended reals.

  A relation's step in the reference: two plain matrix products, a quotient by the clamped degree broadcast along the
  features, and a bias broadcast down the nodes. The clamped degree max (deg, 1) is at least one at every node. The
  fused program's spellings: the reciprocal 1 / max (deg, 1) laid out as a column, the sum of two biases laid out as
  a row. The neighbour sum of a table of real numbers — rows gathered by source index, added into rows of a zero table
  by destination index — is a table of real numbers.
-/
import Idealize.ShloMosaic.PureOps.Ideal.Laws
import Idealize.ShloMosaic.Lib.Pipeline.Value
import Idealize.ShloMosaic.Lib.ValueIdx
import Idealize.ShloMosaic.Lib.ValueLayout
import proofs.«155078_j57956288692353_2_alg».proof.Proof.SageStep
import proofs.«155078_j57956288692353_2_alg».proof.Proof.LibHostReads
import proofs.«155078_j57956288692353_2_alg».proof.Proof.LibRowGatherScatter

noncomputable section

open scoped BigOperators

namespace Cert.Sage

open Idealize.ShloMosaic Idealize.ShloMosaic.ValueIdx

/-- Rank zero: one number. -/
abbrev S0 : Shape := ⟨0, ![]⟩
/-- One index word per edge, as a column. -/
abbrev SEdgeCol : Shape := ⟨2, ![600000, 1]⟩
/-- One gathered row per edge. -/
abbrev SMsgs : Shape := ⟨2, ![600000, 128]⟩

/-- The word of the float 1.0 denotes the real number one. -/
theorem ofBits_one : Ideal.ofBits .f32 0x3F800000#32 = 1 := by
  simp [Ideal.ofBits, Ideal.ieee, -EReal.coe_mul]; norm_num

/-- A table filled with one constant, read anywhere: the constant. -/
theorem const_apply (s : Shape) (h : S0.BroadcastsInDim s ![]) (w : BitVec 32) (i : s.Idx) :
    broadcastInDim s ![] h (constant (F := Ideal) S0 .f32 w) i = Ideal.ofBits .f32 w :=
  (broadcastInDim_apply ![] h (constant (F := Ideal) S0 .f32 w) i (fun a => a.elim0) (fun a => a.elim0)).trans rfl

/-! ## One relation's step in the reference -/

/-- (h · Ws + (S / y) · Wn) + bias, as the host spells it. -/
def relStep (hc1 : SVecN.BroadcastsInDim SCol ![0]) (hc2 : SCol.BroadcastsInDim SNodes ![0, 1])
    (hr1 : SVecD.BroadcastsInDim SRow ![1]) (hr2 : SRow.BroadcastsInDim SNodes ![0, 1])
    (h S : FVec Ideal SNodes .f32) (Y : FVec Ideal SVecN .f32) (Ws Wn : FVec Ideal SMat .f32)
    (b : FVec Ideal SVecD .f32) : FVec Ideal SNodes .f32 :=
  addf (addf (Host.dotGeneral (F := Ideal) (DotDims.plain 100000 128 128) none h Ws)
      (Host.dotGeneral (F := Ideal) (DotDims.plain 100000 128 128) none
        (Host.divf S (broadcastInDim SNodes ![0, 1] hc2 (broadcastInDim SCol ![0] hc1 Y))) Wn))
    (broadcastInDim SNodes ![0, 1] hr2 (broadcastInDim SRow ![1] hr1 b))

theorem relStep_apply (hc1 : SVecN.BroadcastsInDim SCol ![0]) (hc2 : SCol.BroadcastsInDim SNodes ![0, 1])
    (hr1 : SVecD.BroadcastsInDim SRow ![1]) (hr2 : SRow.BroadcastsInDim SNodes ![0, 1])
    (h S : FVec Ideal SNodes .f32) (Y : FVec Ideal SVecN .f32) (Ws Wn : FVec Ideal SMat .f32)
    (b : FVec Ideal SVecD .f32) (i : Fin 100000) (j : Fin 128) :
    relStep hc1 hc2 hr1 hr2 h S Y Ws Wn b (ix2 i j)
      = (dotAt h Ws i j + ∑ k : Fin 128, Ideal.div (S (ix2 i k)) (Y (ix1 i)) * Wn (ix2 k j)) + b (ix1 j) := by
  unfold relStep
  rw [addf_apply, addf_apply, Cert.LibHostReads.dotGeneral_plain_apply, Cert.LibHostReads.dotGeneral_plain_apply]
  have hb : broadcastInDim SNodes ![0, 1] hr2 (broadcastInDim SRow ![1] hr1 b) (ix2 i j) = b (ix1 j) := by
    refine (broadcastInDim_apply _ hr2 _ (ix2 i j) (ix2 (0 : Fin 1) j) ?_).trans
      (broadcastInDim_apply _ hr1 b (ix2 (0 : Fin 1) j) (ix1 j) ?_)
    · intro a
      match a with
      | ⟨0, _⟩ => show (0 : Fin 1).val = if (1 : Nat) = 1 then 0 else i.val; rw [if_pos rfl]; rfl
      | ⟨1, _⟩ => show j.val = if (128 : Nat) = 1 then 0 else j.val; rw [if_neg (by decide)]
    · intro a
      match a with
      | ⟨0, _⟩ => show j.val = if (128 : Nat) = 1 then 0 else j.val; rw [if_neg (by decide)]
  rw [hb]
  unfold dotAt
  refine congrArg (fun z => ((∑ k : Fin 128, h (ix2 i k) * Ws (ix2 k j)) + z) + b (ix1 j)) ?_
  refine Finset.sum_congr rfl fun k _ => ?_
  refine congrArg (· * Wn (ix2 k j)) ?_
  show Ideal.div (S (ix2 i k)) (broadcastInDim SNodes ![0, 1] hc2 (broadcastInDim SCol ![0] hc1 Y) (ix2 i k)) = _
  rw [Cert.LibRowGatherScatter.bcast_col_apply (by decide) Y hc1 hc2 i k]

/-! ## The maximum with zero, and the clamped degree -/

/-- max (·, 0) of a table, as the host spells it. -/
def reluTbl (h0 : S0.BroadcastsInDim SNodes ![]) (Y : FVec Ideal SNodes .f32) : FVec Ideal SNodes .f32 :=
  maximumf Y (broadcastInDim SNodes ![] h0 (constant (F := Ideal) S0 .f32 0x00000000#32))

theorem reluTbl_apply (h0 : S0.BroadcastsInDim SNodes ![]) (Y : FVec Ideal SNodes .f32) (i : SNodes.Idx) :
    reluTbl h0 Y i = act true (Y i) := by
  unfold reluTbl act
  rw [maximumf_apply, const_apply, Ideal.ofBits_zero_f32]
  rfl

/-- max (deg, 1), as the host spells it. -/
def clampDeg (h1 : S0.BroadcastsInDim SVecN ![]) (deg : FVec Ideal SVecN .f32) : FVec Ideal SVecN .f32 :=
  maximumf deg (broadcastInDim SVecN ![] h1 (constant (F := Ideal) S0 .f32 0x3F800000#32))

theorem one_le_clampDeg (h1 : S0.BroadcastsInDim SVecN ![]) (deg : FVec Ideal SVecN .f32) (i : Fin 100000) :
    1 ≤ clampDeg h1 deg (ix1 i) := by
  unfold clampDeg
  rw [maximumf_apply, const_apply, ofBits_one]
  exact le_max_right _ _

/-- 1 / y laid out as a column, as the fused program's host side spells it. -/
def invCol (h1 : S0.BroadcastsInDim SVecN ![]) (hs : SVecN.ShapeCasts SCol) (Y : FVec Ideal SVecN .f32) :
    FVec Ideal SCol .f32 :=
  shapeCast SCol (Host.divf (broadcastInDim SVecN ![] h1 (constant (F := Ideal) S0 .f32 0x3F800000#32)) Y) hs

theorem invCol_apply (h1 : S0.BroadcastsInDim SVecN ![]) (hs : SVecN.ShapeCasts SCol) (Y : FVec Ideal SVecN .f32)
    (i : Fin 100000) : invCol h1 hs Y (ix2 i (0 : Fin 1)) = Ideal.div 1 (Y (ix1 i)) := by
  unfold invCol
  refine (shapeCast_apply _ hs (ix2 i (0 : Fin 1)) (ix1 i) ?_).trans ?_
  · rewrite [Shape.rowMajor_val_two, Shape.rowMajor_val_one]
    show i.val = i.val * 1 + (0 : Fin 1).val
    simp
  show Ideal.div (broadcastInDim SVecN ![] h1 (constant (F := Ideal) S0 .f32 0x3F800000#32) (ix1 i)) (Y (ix1 i)) = _
  rw [const_apply, ofBits_one]

/-- The sum of two biases laid out as a row, as the fused program's host side spells it. -/
def biasRow (hs : SVecD.ShapeCasts SRow) (ba bb : FVec Ideal SVecD .f32) : FVec Ideal SRow .f32 :=
  shapeCast SRow (addf ba bb) hs

theorem biasRow_apply (hs : SVecD.ShapeCasts SRow) (ba bb : FVec Ideal SVecD .f32) (j : Fin 128) :
    biasRow hs ba bb (ix2 (0 : Fin 1) j) = ba (ix1 j) + bb (ix1 j) := by
  unfold biasRow
  refine (shapeCast_apply _ hs (ix2 (0 : Fin 1) j) (ix1 j) ?_).trans (addf_apply ba bb (ix1 j))
  rewrite [Shape.rowMajor_val_two, Shape.rowMajor_val_one]
  show j.val = (0 : Fin 1).val * 128 + j.val
  simp

/-! ## The neighbour sum of a real table is real -/

/-- Rows of x gathered by source index and added into rows of a zero table by destination index. -/
def aggTbl (d : ScatterDims SNodes SEdgeCol SMsgs) (g : GatherDims SNodes SEdgeCol SMsgs)
    (hz : S0.BroadcastsInDim SNodes ![]) (idxD idxS : IVec SEdgeCol 32) (x : FVec Ideal SNodes .f32) :
    FVec Ideal SNodes .f32 :=
  Host.scatterAdd (F := Ideal) d (broadcastInDim SNodes ![] hz (constant (F := Ideal) S0 .f32 0x00000000#32)) idxD
    (Host.gather g x idxS)

theorem aggTbl_isReal (d : ScatterDims SNodes SEdgeCol SMsgs) (g : GatherDims SNodes SEdgeCol SMsgs)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, 128])
    (hz : S0.BroadcastsInDim SNodes ![]) (idxD idxS : IVec SEdgeCol 32) (x : FVec Ideal SNodes .f32)
    (hx : ∀ (r : Fin 100000) (c : Fin 128), IsReal (x (ix2 r c))) (r : Fin 100000) (c : Fin 128) :
    IsReal (aggTbl d g hz idxD idxS x (ix2 r c)) := by
  unfold aggTbl
  rw [Cert.LibRowGatherScatter.scatterAdd_rows d h1 h2 h3 h4, const_apply, Ideal.ofBits_zero_f32]
  refine IsReal.add IsReal.zero (IsReal.sum _ _ fun n _ => IsReal.ite ?_ IsReal.zero)
  rw [Cert.LibRowGatherScatter.gather_rows g k1 k2 k3 k4 k5 k6 k7 (by decide)]
  exact hx _ _

end Cert.Sage

end
-- ==== Proof.SageFused.lean ====
/-
  The fused combine step on the host-side spellings of its operands — the reciprocal degrees as columns, the summed
  self weights, the summed biases as a row — equals, entry by entry, the two relations' separate steps added.
-/
import proofs.«155078_j57956288692353_2_alg».proof.Proof.SageHost

noncomputable section

open scoped BigOperators

namespace Cert.Sage

open Idealize.ShloMosaic Idealize.ShloMosaic.ValueIdx

/-- The fused step of a node type with incoming relations a and b, from the relations' own tables. -/
def fused (relu : Bool) (h1 : S0.BroadcastsInDim SVecN ![]) (hs : SVecN.ShapeCasts SCol) (hr : SVecD.ShapeCasts SRow)
    (h sa sb : FVec Ideal SNodes .f32) (ya yb : FVec Ideal SVecN .f32) (wsa wsb wa wb : FVec Ideal SMat .f32)
    (ba bb : FVec Ideal SVecD .f32) : FVec Ideal SNodes .f32 :=
  combine relu h sa (invCol h1 hs ya) sb (invCol h1 hs yb) (addf wsa wsb) wa wb (biasRow hr ba bb)

theorem fused_apply (relu : Bool) (h1 : S0.BroadcastsInDim SVecN ![]) (hs : SVecN.ShapeCasts SCol)
    (hr : SVecD.ShapeCasts SRow) (h sa sb : FVec Ideal SNodes .f32) (ya yb : FVec Ideal SVecN .f32)
    (wsa wsb wa wb : FVec Ideal SMat .f32) (ba bb : FVec Ideal SVecD .f32)
    (hya : ∀ i : Fin 100000, 1 ≤ ya (ix1 i)) (hyb : ∀ i : Fin 100000, 1 ≤ yb (ix1 i))
    (hh : ∀ (i : Fin 100000) (k : Fin 128), IsReal (h (ix2 i k)))
    (hwsa : ∀ k j : Fin 128, IsReal (wsa (ix2 k j))) (hwsb : ∀ k j : Fin 128, IsReal (wsb (ix2 k j)))
    (i : Fin 100000) (j : Fin 128) :
    fused relu h1 hs hr h sa sb ya yb wsa wsb wa wb ba bb (ix2 i j)
      = act relu (pairAt h sa sb ya yb wsa wsb wa wb ba bb i j) := by
  unfold fused
  rw [combine_apply]
  exact combineAt_eq_pairAt relu h sa sb ya yb wsa wsb wa wb ba bb _ _ _ _
    (fun i => invCol_apply h1 hs ya i) (fun i => invCol_apply h1 hs yb i) (fun k j => addf_apply wsa wsb (ix2 k j))
    (fun j => biasRow_apply hr ba bb j) hya hyb hh hwsa hwsb i j

end Cert.Sage

end
-- ==== Proof.Net.lean ====
/-
  The two-layer network as functions of the inputs, in the two spellings the programs use.

  Inputs: query and product features x0, x1 (100000 × 128 each), source and destination index lists x2, x3 (four
  relations × 600000 edges), self and neighbour weights and biases of the two layers. Relation g gathers rows of its
  source type's table by its source indices (a negative index counted from the end) and adds them into the rows its
  destination indices name; its clamped degree is max (number of edges into the node, 1). Query nodes receive relations
  1 and 2 (from product nodes), product nodes relations 0 and 3 (from query nodes).

  The reference adds, per node type, its two relations' steps (h · Wself + (S / y) · Wneigh) + bias, with max (·, 0)
  between the layers. The fused program runs one combine step per node type and layer on the summed self weights,
  the reciprocal degrees and the summed biases. With real inputs the two agree, layer by layer.
-/
import proofs.«155078_j57956288692353_2_alg».proof.Proof.SageFused

noncomputable section

open scoped BigOperators

namespace Cert.Sage

open Idealize.ShloMosaic Idealize.ShloMosaic.ValueIdx

/-- The four relations' index lists. -/
abbrev SIdx4 : Shape := ⟨2, ![4, 600000]⟩
/-- One relation's index list, still with its unit axis. -/
abbrev SIdx1 : Shape := ⟨2, ![1, 600000]⟩
/-- One relation's index list. -/
abbrev SEdge : Shape := ⟨1, ![600000]⟩
/-- The four relations' weight matrices. -/
abbrev SW4 : Shape := ⟨3, ![4, 128, 128]⟩
/-- One relation's weight matrix, still with its unit axis. -/
abbrev SW1 : Shape := ⟨3, ![1, 128, 128]⟩
/-- The four relations' biases. -/
abbrev SB4 : Shape := ⟨2, ![4, 128]⟩

theorem sl_idx (g : Fin 4) : SIdx4.Slices ![g.val, 0] SIdx1 := by revert g; decide
theorem sc_idx : SIdx1.ShapeCasts SEdge := by decide
theorem bc_edge : SEdge.BroadcastsInDim SEdgeCol ![0] := by decide
theorem bc0_edge : S0.BroadcastsInDim SEdge ![] := by decide
theorem bc0_n : S0.BroadcastsInDim SVecN ![] := by decide
theorem bc0_nodes : S0.BroadcastsInDim SNodes ![] := by decide
theorem sl_w (g : Fin 4) : SW4.Slices ![g.val, 0, 0] SW1 := by revert g; decide
theorem sc_w : SW1.ShapeCasts SMat := by decide
theorem sl_b (g : Fin 4) : SB4.Slices ![g.val, 0] SRow := by revert g; decide
theorem sc_b : SRow.ShapeCasts SVecD := by decide
theorem bc_c1 : SVecN.BroadcastsInDim SCol ![0] := by decide
theorem bc_c2 : SCol.BroadcastsInDim SNodes ![0, 1] := by decide
theorem bc_r1 : SVecD.BroadcastsInDim SRow ![1] := by decide
theorem bc_r2 : SRow.BroadcastsInDim SNodes ![0, 1] := by decide
theorem sc_col : SVecN.ShapeCasts SCol := by decide
theorem sc_row : SVecD.ShapeCasts SRow := by decide

section Net

variable (wf2 : ScatterDims.WF SNodes SEdgeCol SMsgs [1] [0] [0] 1)
  (wfg : GatherDims.WF SNodes SEdgeCol SMsgs [1] [0] [] [0] [] 1 ![1, 128])
  (wf1 : ScatterDims.WF SVecN SEdgeCol SEdge [] [0] [0] 1)

/-- Adding gathered rows into rows. -/
abbrev rowScatter : ScatterDims SNodes SEdgeCol SMsgs := ⟨[1], [0], [0], 1, wf2⟩
/-- Gathering rows. -/
abbrev rowGather : GatherDims SNodes SEdgeCol SMsgs := ⟨[1], [0], [], [], [0], 1, ![1, 128], wfg⟩
/-- Adding numbers into the entries of a list. -/
abbrev cellScatter : ScatterDims SVecN SEdgeCol SEdge := ⟨[], [0], [0], 1, wf1⟩

variable (x2 x3 : IVec SIdx4 32)

/-- Relation g's row of an index table. -/
def idxRow (g : Fin 4) (x : IVec SIdx4 32) : IVec SEdge 32 :=
  shapeCast SEdge (extractStridedSlice SIdx1 ![g.val, 0] x (sl_idx g)) sc_idx

/-- Relation g's source indices, a negative one counted from the end of the 100000 rows, as a column. -/
def srcIdx (g : Fin 4) : IVec SEdgeCol 32 :=
  broadcastInDim SEdgeCol ![0] bc_edge
    (select (cmpi .slt (idxRow g x2) (broadcastInDim SEdge ![] bc0_edge (constantI S0 32 0#32)))
      (addi (idxRow g x2) (broadcastInDim SEdge ![] bc0_edge (constantI S0 32 100000#32))) (idxRow g x2))

/-- Relation g's destination indices, as a column. -/
def dstIdx (g : Fin 4) : IVec SEdgeCol 32 := broadcastInDim SEdgeCol ![0] bc_edge (idxRow g x3)

/-- Relation g's clamped degree max (deg, 1): ones added into a zero list by destination index. -/
def degY (g : Fin 4) : FVec Ideal SVecN .f32 :=
  clampDeg bc0_n (Host.scatterAdd (F := Ideal) (cellScatter wf1)
    (broadcastInDim SVecN ![] bc0_n (constant (F := Ideal) S0 .f32 0x00000000#32)) (dstIdx x3 g)
    (broadcastInDim SEdge ![] bc0_edge (constant (F := Ideal) S0 .f32 0x3F800000#32)))

/-- Relation g's neighbour sum of a table h of its source type. -/
def agg (g : Fin 4) (h : FVec Ideal SNodes .f32) : FVec Ideal SNodes .f32 :=
  aggTbl (rowScatter wf2) (rowGather wfg) bc0_nodes (dstIdx x3 g) (srcIdx x2 g) h

/-- Relation g's weight matrix out of a stack of four. -/
def wmat (g : Fin 4) (W : FVec Ideal SW4 .f32) : FVec Ideal SMat .f32 :=
  shapeCast SMat (extractStridedSlice SW1 ![g.val, 0, 0] W (sl_w g)) sc_w

/-- Relation g's bias out of a stack of four. -/
def bvec (g : Fin 4) (b : FVec Ideal SB4 .f32) : FVec Ideal SVecD .f32 :=
  shapeCast SVecD (extractStridedSlice SRow ![g.val, 0] b (sl_b g)) sc_b

/-- Relation g's step in the reference: hs the destination type's table, hn the source type's. -/
def rel (g : Fin 4) (hs hn : FVec Ideal SNodes .f32) (W Wn : FVec Ideal SW4 .f32) (b : FVec Ideal SB4 .f32) :
    FVec Ideal SNodes .f32 :=
  relStep bc_c1 bc_c2 bc_r1 bc_r2 hs (agg wf2 wfg x2 x3 g hn) (degY wf1 x3 g) (wmat g W) (wmat g Wn) (bvec g b)

/-- A node type's layer in the reference: its relations g and g' added. -/
def refLayer (g g' : Fin 4) (hs hn : FVec Ideal SNodes .f32) (W Wn : FVec Ideal SW4 .f32) (b : FVec Ideal SB4 .f32) :
    FVec Ideal SNodes .f32 :=
  addf (rel wf2 wfg wf1 x2 x3 g hs hn W Wn b) (rel wf2 wfg wf1 x2 x3 g' hs hn W Wn b)

/-- A node type's layer in the fused program. -/
def fusedLayer (relu : Bool) (g g' : Fin 4) (hs hn : FVec Ideal SNodes .f32) (W Wn : FVec Ideal SW4 .f32)
    (b : FVec Ideal SB4 .f32) : FVec Ideal SNodes .f32 :=
  fused relu bc0_n sc_col sc_row hs (agg wf2 wfg x2 x3 g hn) (agg wf2 wfg x2 x3 g' hn) (degY wf1 x3 g) (degY wf1 x3 g')
    (wmat g W) (wmat g' W) (wmat g Wn) (wmat g' Wn) (bvec g b) (bvec g' b)

theorem wmat_isReal (g : Fin 4) (W : FVec Ideal SW4 .f32) (hW : ∀ i, IsReal (W i)) (i : SMat.Idx) : IsReal (wmat g W i) :=
  hW _

theorem bvec_isReal (g : Fin 4) (b : FVec Ideal SB4 .f32) (hb : ∀ i, IsReal (b i)) (i : SVecD.Idx) : IsReal (bvec g b i) :=
  hb _

theorem one_le_degY (g : Fin 4) (i : Fin 100000) : 1 ≤ degY wf1 x3 g (ix1 i) := one_le_clampDeg _ _ i

theorem agg_isReal (g : Fin 4) (h : FVec Ideal SNodes .f32) (hh : ∀ i, IsReal (h i)) (r : Fin 100000) (c : Fin 128) :
    IsReal (agg wf2 wfg x2 x3 g h (ix2 r c)) :=
  aggTbl_isReal _ _ rfl rfl rfl rfl rfl rfl rfl rfl rfl rfl rfl _ _ _ h (fun r c => hh _) r c

/-- The reference's layer at (i, j). -/
theorem refLayer_apply (g g' : Fin 4) (hs hn : FVec Ideal SNodes .f32) (W Wn : FVec Ideal SW4 .f32)
    (b : FVec Ideal SB4 .f32) (i : Fin 100000) (j : Fin 128) :
    refLayer wf2 wfg wf1 x2 x3 g g' hs hn W Wn b (ix2 i j)
      = pairAt hs (agg wf2 wfg x2 x3 g hn) (agg wf2 wfg x2 x3 g' hn) (degY wf1 x3 g) (degY wf1 x3 g')
          (wmat g W) (wmat g' W) (wmat g Wn) (wmat g' Wn) (bvec g b) (bvec g' b) i j := by
  unfold refLayer rel
  rw [addf_apply, relStep_apply, relStep_apply]
  rfl

/-- With real features and real self weights, the fused layer is the activation of the reference's layer. -/
theorem fusedLayer_apply (relu : Bool) (g g' : Fin 4) (hs hn : FVec Ideal SNodes .f32) (W Wn : FVec Ideal SW4 .f32)
    (b : FVec Ideal SB4 .f32) (hhs : ∀ i, IsReal (hs i)) (hW : ∀ i, IsReal (W i)) (i : Fin 100000) (j : Fin 128) :
    fusedLayer wf2 wfg wf1 x2 x3 relu g g' hs hn W Wn b (ix2 i j)
      = act relu (refLayer wf2 wfg wf1 x2 x3 g g' hs hn W Wn b (ix2 i j)) := by
  unfold fusedLayer
  rw [fused_apply relu _ _ _ _ _ _ _ _ _ _ _ _ _ _ (one_le_degY wf1 x3 g) (one_le_degY wf1 x3 g') (fun i k => hhs _)
    (fun k j => wmat_isReal g W hW _) (fun k j => wmat_isReal g' W hW _), refLayer_apply]

/-- With every input real the reference's layer is real. -/
theorem refLayer_isReal (g g' : Fin 4) (hs hn : FVec Ideal SNodes .f32) (W Wn : FVec Ideal SW4 .f32)
    (b : FVec Ideal SB4 .f32) (hhs : ∀ i, IsReal (hs i)) (hhn : ∀ i, IsReal (hn i)) (hW : ∀ i, IsReal (W i))
    (hWn : ∀ i, IsReal (Wn i)) (hb : ∀ i, IsReal (b i)) (i : Fin 100000) (j : Fin 128) :
    IsReal (refLayer wf2 wfg wf1 x2 x3 g g' hs hn W Wn b (ix2 i j)) := by
  rw [refLayer_apply]
  exact pairAt_isReal _ _ _ _ _ _ _ _ _ _ _ i j (one_le_degY wf1 x3 g i) (one_le_degY wf1 x3 g' i) (fun k => hhs _)
    (fun k => agg_isReal wf2 wfg x2 x3 g hn hhn i k) (fun k => agg_isReal wf2 wfg x2 x3 g' hn hhn i k)
    (fun k => wmat_isReal g W hW _) (fun k => wmat_isReal g' W hW _) (fun k => wmat_isReal g Wn hWn _)
    (fun k => wmat_isReal g' Wn hWn _) (bvec_isReal g b hb _) (bvec_isReal g' b hb _)

variable (x0 x1 : FVec Ideal SNodes .f32) (x4 x5 : FVec Ideal SW4 .f32) (x6 : FVec Ideal SB4 .f32)
  (x7 x8 : FVec Ideal SW4 .f32) (x9 : FVec Ideal SB4 .f32)

/-! ## The reference's four tables -/

def refQ1 : FVec Ideal SNodes .f32 := reluTbl bc0_nodes (refLayer wf2 wfg wf1 x2 x3 1 2 x0 x1 x4 x5 x6)
def refP1 : FVec Ideal SNodes .f32 := reluTbl bc0_nodes (refLayer wf2 wfg wf1 x2 x3 0 3 x1 x0 x4 x5 x6)
def refQ2 : FVec Ideal SNodes .f32 :=
  refLayer wf2 wfg wf1 x2 x3 1 2 (refQ1 wf2 wfg wf1 x2 x3 x0 x1 x4 x5 x6) (refP1 wf2 wfg wf1 x2 x3 x0 x1 x4 x5 x6) x7 x8 x9
def refP2 : FVec Ideal SNodes .f32 :=
  refLayer wf2 wfg wf1 x2 x3 0 3 (refP1 wf2 wfg wf1 x2 x3 x0 x1 x4 x5 x6) (refQ1 wf2 wfg wf1 x2 x3 x0 x1 x4 x5 x6) x7 x8 x9

/-! ## The fused program's four tables -/

def kerQ1 : FVec Ideal SNodes .f32 := fusedLayer wf2 wfg wf1 x2 x3 true 1 2 x0 x1 x4 x5 x6
def kerP1 : FVec Ideal SNodes .f32 := fusedLayer wf2 wfg wf1 x2 x3 true 0 3 x1 x0 x4 x5 x6
def kerQ2 (q p : FVec Ideal SNodes .f32) : FVec Ideal SNodes .f32 := fusedLayer wf2 wfg wf1 x2 x3 false 1 2 q p x7 x8 x9
def kerP2 (q p : FVec Ideal SNodes .f32) : FVec Ideal SNodes .f32 := fusedLayer wf2 wfg wf1 x2 x3 false 0 3 p q x7 x8 x9

variable (r0 : ∀ i, IsReal (x0 i)) (r1 : ∀ i, IsReal (x1 i)) (r4 : ∀ i, IsReal (x4 i)) (r5 : ∀ i, IsReal (x5 i))
  (r6 : ∀ i, IsReal (x6 i)) (r7 : ∀ i, IsReal (x7 i))

include r0 r4 in
theorem kerQ1_eq : kerQ1 wf2 wfg wf1 x2 x3 x0 x1 x4 x5 x6 = refQ1 wf2 wfg wf1 x2 x3 x0 x1 x4 x5 x6 := by
  funext y
  obtain ⟨i, j, rfl⟩ : ∃ (i : Fin 100000) (j : Fin 128), y = ix2 i j := ⟨y 0, y 1, eq_ix2 y⟩
  unfold kerQ1 refQ1
  rw [fusedLayer_apply wf2 wfg wf1 x2 x3 true 1 2 x0 x1 x4 x5 x6 r0 r4, reluTbl_apply]

include r1 r4 in
theorem kerP1_eq : kerP1 wf2 wfg wf1 x2 x3 x0 x1 x4 x5 x6 = refP1 wf2 wfg wf1 x2 x3 x0 x1 x4 x5 x6 := by
  funext y
  obtain ⟨i, j, rfl⟩ : ∃ (i : Fin 100000) (j : Fin 128), y = ix2 i j := ⟨y 0, y 1, eq_ix2 y⟩
  unfold kerP1 refP1
  rw [fusedLayer_apply wf2 wfg wf1 x2 x3 true 0 3 x1 x0 x4 x5 x6 r1 r4, reluTbl_apply]

include r0 r1 r4 r5 r6 in
theorem refQ1_isReal (y : SNodes.Idx) : IsReal (refQ1 wf2 wfg wf1 x2 x3 x0 x1 x4 x5 x6 y) := by
  obtain ⟨i, j, rfl⟩ : ∃ (i : Fin 100000) (j : Fin 128), y = ix2 i j := ⟨y 0, y 1, eq_ix2 y⟩
  unfold refQ1
  rw [reluTbl_apply]
  exact act_isReal true (refLayer_isReal wf2 wfg wf1 x2 x3 1 2 x0 x1 x4 x5 x6 r0 r1 r4 r5 r6 i j)

include r0 r1 r4 r5 r6 in
theorem refP1_isReal (y : SNodes.Idx) : IsReal (refP1 wf2 wfg wf1 x2 x3 x0 x1 x4 x5 x6 y) := by
  obtain ⟨i, j, rfl⟩ : ∃ (i : Fin 100000) (j : Fin 128), y = ix2 i j := ⟨y 0, y 1, eq_ix2 y⟩
  unfold refP1
  rw [reluTbl_apply]
  exact act_isReal true (refLayer_isReal wf2 wfg wf1 x2 x3 0 3 x1 x0 x4 x5 x6 r1 r0 r4 r5 r6 i j)

include r0 r1 r4 r5 r6 r7 in
theorem kerQ2_eq : kerQ2 wf2 wfg wf1 x2 x3 x7 x8 x9 (refQ1 wf2 wfg wf1 x2 x3 x0 x1 x4 x5 x6) (refP1 wf2 wfg wf1 x2 x3 x0 x1 x4 x5 x6)
    = refQ2 wf2 wfg wf1 x2 x3 x0 x1 x4 x5 x6 x7 x8 x9 := by
  funext y
  obtain ⟨i, j, rfl⟩ : ∃ (i : Fin 100000) (j : Fin 128), y = ix2 i j := ⟨y 0, y 1, eq_ix2 y⟩
  unfold kerQ2 refQ2
  rw [fusedLayer_apply wf2 wfg wf1 x2 x3 false 1 2 _ _ x7 x8 x9 (refQ1_isReal wf2 wfg wf1 x2 x3 x0 x1 x4 x5 x6 r0 r1 r4 r5 r6) r7]
  rfl

include r0 r1 r4 r5 r6 r7 in
theorem kerP2_eq : kerP2 wf2 wfg wf1 x2 x3 x7 x8 x9 (refQ1 wf2 wfg wf1 x2 x3 x0 x1 x4 x5 x6) (refP1 wf2 wfg wf1 x2 x3 x0 x1 x4 x5 x6)
    = refP2 wf2 wfg wf1 x2 x3 x0 x1 x4 x5 x6 x7 x8 x9 := by
  funext y
  obtain ⟨i, j, rfl⟩ : ∃ (i : Fin 100000) (j : Fin 128), y = ix2 i j := ⟨y 0, y 1, eq_ix2 y⟩
  unfold kerP2 refP2
  rw [fusedLayer_apply wf2 wfg wf1 x2 x3 false 0 3 _ _ x7 x8 x9 (refP1_isReal wf2 wfg wf1 x2 x3 x0 x1 x4 x5 x6 r0 r1 r4 r5 r6) r7]
  rfl

end Net

end Cert.Sage

end
-- ==== Proof.RefRun.lean ====
/-
  The reference network's run, read in two stages.

  The program is a straight line of 354 array operations; every fair execution ends with each buffer at the fold of
  its second stage over the fold of its first stage over the launch contents. The first stage leaves, in two tables,
  the network's first-layer tables of the inputs (each with the maximum with zero); the second stage leaves, in the
  two results, the network's layer of those two tables. The first layer's tables enter the second stage as two
  arrays, so they are written out once. No operation writes an input array.
-/
import proofs.«155078_j57956288692353_2_alg».proof.Proof.RefOps
import proofs.«155078_j57956288692353_2_alg».proof.Proof.Net

noncomputable section

namespace Cert.ReferenceIdeal.NetRun

open Cert.ReferenceIdeal Cert.ReferenceIdeal.Gen Idealize.ShloMosaic Idealize.ShloMosaic.TcCoe Idealize.SL.Sem Idealize.ShloMosaic.StableHlo

/-! ## The two stages, read

`W` is what the buffers hold when a stage starts. -/

section Stages

variable (W : Valuation τ sig (Elt Ideal))

set_option maxHeartbeats 40000000 in
/-- After the first stage the first table is the network's first-layer query table of the inputs. -/
theorem stage1_q : after ops1 W (Proc.devRef .tc main_v150)
    = Cert.Sage.refQ1 scatter_S100000x128_S600000x1_S600000x128_1_0_0_1_wf gather_S100000x128_S600000x1_S600000x128_1_0_n_n_0_1_1128_wf scatter_S100000_S600000x1_S600000_n_0_0_1_wf
        (W (Proc.devRef .tc main_arg2)) (W (Proc.devRef .tc main_arg3)) (W (Proc.devRef .tc main_arg0)) (W (Proc.devRef .tc main_arg1)) (W (Proc.devRef .tc main_arg4)) (W (Proc.devRef .tc main_arg5)) (W (Proc.devRef .tc main_arg6)) := by
  after_results_simp <;> rfl

set_option maxHeartbeats 40000000 in
/-- After the first stage the second table is the network's first-layer product table of the inputs. -/
theorem stage1_p : after ops1 W (Proc.devRef .tc main_v151)
    = Cert.Sage.refP1 scatter_S100000x128_S600000x1_S600000x128_1_0_0_1_wf gather_S100000x128_S600000x1_S600000x128_1_0_n_n_0_1_1128_wf scatter_S100000_S600000x1_S600000_n_0_0_1_wf
        (W (Proc.devRef .tc main_arg2)) (W (Proc.devRef .tc main_arg3)) (W (Proc.devRef .tc main_arg0)) (W (Proc.devRef .tc main_arg1)) (W (Proc.devRef .tc main_arg4)) (W (Proc.devRef .tc main_arg5)) (W (Proc.devRef .tc main_arg6)) := by
  after_results_simp <;> rfl

set_option maxHeartbeats 40000000 in
/-- After the second stage the first result is the network's query layer of the two tables the stage starts from. -/
theorem stage2_q : after ops2 W (Proc.devRef .tc main_v263)
    = Cert.Sage.refLayer scatter_S100000x128_S600000x1_S600000x128_1_0_0_1_wf gather_S100000x128_S600000x1_S600000x128_1_0_n_n_0_1_1128_wf scatter_S100000_S600000x1_S600000_n_0_0_1_wf
        (W (Proc.devRef .tc main_arg2)) (W (Proc.devRef .tc main_arg3)) 1 2 (W (Proc.devRef .tc main_v150)) (W (Proc.devRef .tc main_v151)) (W (Proc.devRef .tc main_arg7)) (W (Proc.devRef .tc main_arg8)) (W (Proc.devRef .tc main_arg9)) := by
  after_results_simp <;> rfl

set_option maxHeartbeats 40000000 in
/-- After the second stage the second result is the network's product layer of the two tables the stage starts from. -/
theorem stage2_p : after ops2 W (Proc.devRef .tc main_v301)
    = Cert.Sage.refLayer scatter_S100000x128_S600000x1_S600000x128_1_0_0_1_wf gather_S100000x128_S600000x1_S600000x128_1_0_n_n_0_1_1128_wf scatter_S100000_S600000x1_S600000_n_0_0_1_wf
        (W (Proc.devRef .tc main_arg2)) (W (Proc.devRef .tc main_arg3)) 0 3 (W (Proc.devRef .tc main_v151)) (W (Proc.devRef .tc main_v150)) (W (Proc.devRef .tc main_arg7)) (W (Proc.devRef .tc main_arg8)) (W (Proc.devRef .tc main_arg9)) := by
  after_results_simp <;> rfl

/-! ## No stage writes an input -/

set_option maxHeartbeats 40000000 in
/-- The first stage leaves the query features as they were. -/
theorem keep1_0 : after ops1 W (Proc.devRef .tc main_arg0) = W (Proc.devRef .tc main_arg0) := by
  after_results_simp <;> rfl

set_option maxHeartbeats 40000000 in
/-- The first stage leaves the product features as they were. -/
theorem keep1_1 : after ops1 W (Proc.devRef .tc main_arg1) = W (Proc.devRef .tc main_arg1) := by
  after_results_simp <;> rfl

set_option maxHeartbeats 40000000 in
/-- The first stage leaves the source index lists as they were. -/
theorem keep1_2 : after ops1 W (Proc.devRef .tc main_arg2) = W (Proc.devRef .tc main_arg2) := by
  after_results_simp <;> rfl

set_option maxHeartbeats 40000000 in
/-- The first stage leaves the destination index lists as they were. -/
theorem keep1_3 : after ops1 W (Proc.devRef .tc main_arg3) = W (Proc.devRef .tc main_arg3) := by
  after_results_simp <;> rfl

set_option maxHeartbeats 40000000 in
/-- The first stage leaves the first layer's self weights as they were. -/
theorem keep1_4 : after ops1 W (Proc.devRef .tc main_arg4) = W (Proc.devRef .tc main_arg4) := by
  after_results_simp <;> rfl

set_option maxHeartbeats 40000000 in
/-- The first stage leaves the first layer's neighbour weights as they were. -/
theorem keep1_5 : after ops1 W (Proc.devRef .tc main_arg5) = W (Proc.devRef .tc main_arg5) := by
  after_results_simp <;> rfl

set_option maxHeartbeats 40000000 in
/-- The first stage leaves the first layer's biases as they were. -/
theorem keep1_6 : after ops1 W (Proc.devRef .tc main_arg6) = W (Proc.devRef .tc main_arg6) := by
  after_results_simp <;> rfl

set_option maxHeartbeats 40000000 in
/-- The first stage leaves the second layer's self weights as they were. -/
theorem keep1_7 : after ops1 W (Proc.devRef .tc main_arg7) = W (Proc.devRef .tc main_arg7) := by
  after_results_simp <;> rfl

set_option maxHeartbeats 40000000 in
/-- The first stage leaves the second layer's neighbour weights as they were. -/
theorem keep1_8 : after ops1 W (Proc.devRef .tc main_arg8) = W (Proc.devRef .tc main_arg8) := by
  after_results_simp <;> rfl

set_option maxHeartbeats 40000000 in
/-- The first stage leaves the second layer's biases as they were. -/
theorem keep1_9 : after ops1 W (Proc.devRef .tc main_arg9) = W (Proc.devRef .tc main_arg9) := by
  after_results_simp <;> rfl

set_option maxHeartbeats 40000000 in
/-- The second stage leaves the query features as they were. -/
theorem keep2_0 : after ops2 W (Proc.devRef .tc main_arg0) = W (Proc.devRef .tc main_arg0) := by
  after_results_simp <;> rfl

set_option maxHeartbeats 40000000 in
/-- The second stage leaves the product features as they were. -/
theorem keep2_1 : after ops2 W (Proc.devRef .tc main_arg1) = W (Proc.devRef .tc main_arg1) := by
  after_results_simp <;> rfl

set_option maxHeartbeats 40000000 in
/-- The second stage leaves the source index lists as they were. -/
theorem keep2_2 : after ops2 W (Proc.devRef .tc main_arg2) = W (Proc.devRef .tc main_arg2) := by
  after_results_simp <;> rfl

set_option maxHeartbeats 40000000 in
/-- The second stage leaves the destination index lists as they were. -/
theorem keep2_3 : after ops2 W (Proc.devRef .tc main_arg3) = W (Proc.devRef .tc main_arg3) := by
  after_results_simp <;> rfl

set_option maxHeartbeats 40000000 in
/-- The second stage leaves the first layer's self weights as they were. -/
theorem keep2_4 : after ops2 W (Proc.devRef .tc main_arg4) = W (Proc.devRef .tc main_arg4) := by
  after_results_simp <;> rfl

set_option maxHeartbeats 40000000 in
/-- The second stage leaves the first layer's neighbour weights as they were. -/
theorem keep2_5 : after ops2 W (Proc.devRef .tc main_arg5) = W (Proc.devRef .tc main_arg5) := by
  after_results_simp <;> rfl

set_option maxHeartbeats 40000000 in
/-- The second stage leaves the first layer's biases as they were. -/
theorem keep2_6 : after ops2 W (Proc.devRef .tc main_arg6) = W (Proc.devRef .tc main_arg6) := by
  after_results_simp <;> rfl

set_option maxHeartbeats 40000000 in
/-- The second stage leaves the second layer's self weights as they were. -/
theorem keep2_7 : after ops2 W (Proc.devRef .tc main_arg7) = W (Proc.devRef .tc main_arg7) := by
  after_results_simp <;> rfl

set_option maxHeartbeats 40000000 in
/-- The second stage leaves the second layer's neighbour weights as they were. -/
theorem keep2_8 : after ops2 W (Proc.devRef .tc main_arg8) = W (Proc.devRef .tc main_arg8) := by
  after_results_simp <;> rfl

set_option maxHeartbeats 40000000 in
/-- The second stage leaves the second layer's biases as they were. -/
theorem keep2_9 : after ops2 W (Proc.devRef .tc main_arg9) = W (Proc.devRef .tc main_arg9) := by
  after_results_simp <;> rfl

end Stages

/-! ## The two stages in a row, from contents `L` -/

section Chain

variable (L : Valuation τ sig (Elt Ideal))

theorem keep_0 : after ops2 (after ops1 L) (Proc.devRef .tc main_arg0) = L (Proc.devRef .tc main_arg0) :=
  (keep2_0 (after ops1 L)).trans (keep1_0 L)
theorem keep_1 : after ops2 (after ops1 L) (Proc.devRef .tc main_arg1) = L (Proc.devRef .tc main_arg1) :=
  (keep2_1 (after ops1 L)).trans (keep1_1 L)
theorem keep_2 : after ops2 (after ops1 L) (Proc.devRef .tc main_arg2) = L (Proc.devRef .tc main_arg2) :=
  (keep2_2 (after ops1 L)).trans (keep1_2 L)
theorem keep_3 : after ops2 (after ops1 L) (Proc.devRef .tc main_arg3) = L (Proc.devRef .tc main_arg3) :=
  (keep2_3 (after ops1 L)).trans (keep1_3 L)
theorem keep_4 : after ops2 (after ops1 L) (Proc.devRef .tc main_arg4) = L (Proc.devRef .tc main_arg4) :=
  (keep2_4 (after ops1 L)).trans (keep1_4 L)
theorem keep_5 : after ops2 (after ops1 L) (Proc.devRef .tc main_arg5) = L (Proc.devRef .tc main_arg5) :=
  (keep2_5 (after ops1 L)).trans (keep1_5 L)
theorem keep_6 : after ops2 (after ops1 L) (Proc.devRef .tc main_arg6) = L (Proc.devRef .tc main_arg6) :=
  (keep2_6 (after ops1 L)).trans (keep1_6 L)
theorem keep_7 : after ops2 (after ops1 L) (Proc.devRef .tc main_arg7) = L (Proc.devRef .tc main_arg7) :=
  (keep2_7 (after ops1 L)).trans (keep1_7 L)
theorem keep_8 : after ops2 (after ops1 L) (Proc.devRef .tc main_arg8) = L (Proc.devRef .tc main_arg8) :=
  (keep2_8 (after ops1 L)).trans (keep1_8 L)
theorem keep_9 : after ops2 (after ops1 L) (Proc.devRef .tc main_arg9) = L (Proc.devRef .tc main_arg9) :=
  (keep2_9 (after ops1 L)).trans (keep1_9 L)

/-- The first result after both stages is the network's second-layer query table of the inputs. -/
theorem q2_eq : after ops2 (after ops1 L) (Proc.devRef .tc main_v263)
    = Cert.Sage.refQ2 scatter_S100000x128_S600000x1_S600000x128_1_0_0_1_wf gather_S100000x128_S600000x1_S600000x128_1_0_n_n_0_1_1128_wf scatter_S100000_S600000x1_S600000_n_0_0_1_wf
        (L (Proc.devRef .tc main_arg2)) (L (Proc.devRef .tc main_arg3)) (L (Proc.devRef .tc main_arg0)) (L (Proc.devRef .tc main_arg1)) (L (Proc.devRef .tc main_arg4)) (L (Proc.devRef .tc main_arg5)) (L (Proc.devRef .tc main_arg6)) (L (Proc.devRef .tc main_arg7)) (L (Proc.devRef .tc main_arg8)) (L (Proc.devRef .tc main_arg9)) := by
  rw [stage2_q (after ops1 L), stage1_q L, stage1_p L, keep1_2 L, keep1_3 L, keep1_7 L, keep1_8 L, keep1_9 L]
  rfl

/-- The second result after both stages is the network's second-layer product table of the inputs. -/
theorem p2_eq : after ops2 (after ops1 L) (Proc.devRef .tc main_v301)
    = Cert.Sage.refP2 scatter_S100000x128_S600000x1_S600000x128_1_0_0_1_wf gather_S100000x128_S600000x1_S600000x128_1_0_n_n_0_1_1128_wf scatter_S100000_S600000x1_S600000_n_0_0_1_wf
        (L (Proc.devRef .tc main_arg2)) (L (Proc.devRef .tc main_arg3)) (L (Proc.devRef .tc main_arg0)) (L (Proc.devRef .tc main_arg1)) (L (Proc.devRef .tc main_arg4)) (L (Proc.devRef .tc main_arg5)) (L (Proc.devRef .tc main_arg6)) (L (Proc.devRef .tc main_arg7)) (L (Proc.devRef .tc main_arg8)) (L (Proc.devRef .tc main_arg9)) := by
  rw [stage2_p (after ops1 L), stage1_q L, stage1_p L, keep1_2 L, keep1_3 L, keep1_7 L, keep1_8 L, keep1_9 L]
  rfl

end Chain

/-- On every device, from any memory with zero counters: every fair execution of the reference terminates with its
    two results at the network's second-layer tables of the inputs, and the ten inputs unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v263) = Cert.Sage.refQ2 scatter_S100000x128_S600000x1_S600000x128_1_0_0_1_wf gather_S100000x128_S600000x1_S600000x128_1_0_n_n_0_1_1128_wf scatter_S100000_S600000x1_S600000_n_0_0_1_wf
          (m ((c.tc : Thread nD τ).loc main_arg2)) (m ((c.tc : Thread nD τ).loc main_arg3)) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v301) = Cert.Sage.refP2 scatter_S100000x128_S600000x1_S600000x128_1_0_0_1_wf gather_S100000x128_S600000x1_S600000x128_1_0_n_n_0_1_1128_wf scatter_S100000_S600000x1_S600000_n_0_0_1_wf
          (m ((c.tc : Thread nD τ).loc main_arg2)) (m ((c.tc : Thread nD τ).loc main_arg3)) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v263).trans (q2_eq (launchContents m c)),
      (h c main_v301).trans (p2_eq (launchContents m c)),
      (h c main_arg0).trans (keep_0 (launchContents m c)),
      (h c main_arg1).trans (keep_1 (launchContents m c)),
      (h c main_arg2).trans (keep_2 (launchContents m c)),
      (h c main_arg3).trans (keep_3 (launchContents m c)),
      (h c main_arg4).trans (keep_4 (launchContents m c)),
      (h c main_arg5).trans (keep_5 (launchContents m c)),
      (h c main_arg6).trans (keep_6 (launchContents m c)),
      (h c main_arg7).trans (keep_7 (launchContents m c)),
      (h c main_arg8).trans (keep_8 (launchContents m c)),
      (h c main_arg9).trans (keep_9 (launchContents m c))⟩)
    (fold m ρ)

end Cert.ReferenceIdeal.NetRun

end
-- ==== Proof.KernelRun.lean ====
/-
  The idealized kernel's run with its two result arrays named.

  The program is four launches of the combine step among stretches of host operations. Every weakly fair execution
  terminates, and the final contents of every unscoped buffer are the fold of the program over the launch memory:
  a stretch of host operations applies them in order, a launch replaces its output array by what its grid points
  wrote back. Here that statement is read at the two result buffers and the ten arguments.
-/
import proofs.«155078_j57956288692353_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two result buffers end at the fold's contents and the
    arguments as launched. -/
theorem run_named : θ_run defs (onTc (τ := τ) (main (F := F))) ⟨m, fun _ => 0, ρ⟩ (fun r => ∀ c : Dev nD,
      r.2.mem ((c.tc : Thread nD τ).loc main_v203) = W8 m ρ c (Proc.devRef .tc main_v203)
      ∧ r.2.mem ((c.tc : Thread nD τ).loc main_v219) = W8 m ρ c (Proc.devRef .tc main_v219)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v203 (by decide)),
       h c _ (mem_uc main_v219 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunValue

end
-- ==== Proof.KernelHost.lean ====
/-
  What the fused program's host operations leave in the buffers its four launches read.

  Before each launch the host prepares, for the node type being updated: the neighbour sums of its two incoming
  relations (rows gathered by source index and added by destination index), the reciprocals of the clamped degrees as
  columns, the sum of the two self weight matrices, the two neighbour weight matrices, and the sum of the two biases as a
  row. Each is the network's own function of the inputs; the second layer's neighbour sums are taken of the first
  layer's two outputs.
-/
import proofs.«155078_j57956288692353_2_alg».proof.Proof.Gen.KernelIdeal.Frame
import proofs.«155078_j57956288692353_2_alg».proof.Proof.Net

set_option maxRecDepth 16384

noncomputable section

namespace Cert.KernelIdeal.HostValue

open Cert.KernelIdeal Cert.KernelIdeal.Gen Cert.Sage
open Idealize.ShloMosaic Idealize.ShloMosaic.TcCoe Idealize.SL.Sem

variable (m : (ℓ : Loc nD τ sig) → Buf (Elt Ideal) ℓ) (ρ : Dev nD → PrngReg) (c : Dev nD)

/-- An input array of the first launch is unchanged by it. -/
theorem w2_in (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- An input array of the second launch is unchanged by it. -/
theorem w4_in (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

theorem w2_v21 : W2 m ρ c (no_index (Proc.devRef .tc main_v21)) = W1 m ρ c (Proc.devRef .tc main_v21) := w2_in m ρ c 2 rfl
theorem w2_v32 : W2 m ρ c (no_index (Proc.devRef .tc main_v32)) = W1 m ρ c (Proc.devRef .tc main_v32) := w2_in m ρ c 4 rfl
theorem w4_v10 : W4 m ρ c (no_index (Proc.devRef .tc main_v10)) = W3 m ρ c (Proc.devRef .tc main_v10) := w4_in m ρ c 2 rfl
theorem w4_v43 : W4 m ρ c (no_index (Proc.devRef .tc main_v43)) = W3 m ρ c (Proc.devRef .tc main_v43) := w4_in m ρ c 4 rfl

/-- A buffer that is not one of a launch's arrays is unchanged by it (stated so that rewriting finds a literal buffer). -/
theorem w2_ne (b : Ref sig .tc) (hb : ∀ w, Pipeline.arrRef spec0 w ≠ b) :
    W2 m ρ c (no_index (Proc.devRef .tc b)) = W1 m ρ c (Proc.devRef .tc b) := W2_of_ne m ρ c b hb
theorem w4_ne (b : Ref sig .tc) (hb : ∀ w, Pipeline.arrRef spec1 w ≠ b) :
    W4 m ρ c (no_index (Proc.devRef .tc b)) = W3 m ρ c (Proc.devRef .tc b) := W4_of_ne m ρ c b hb
theorem w6_ne (b : Ref sig .tc) (hb : ∀ w, Pipeline.arrRef spec2 w ≠ b) :
    W6 m ρ c (no_index (Proc.devRef .tc b)) = W5 m ρ c (Proc.devRef .tc b) := W6_of_ne m ρ c b hb
set_option maxHeartbeats 4000000 in
theorem w8_ne (b : Ref sig .tc) (hb : ∀ w, Pipeline.arrRef spec3 w ≠ b) :
    W8 m ρ c (no_index (Proc.devRef .tc b)) = W7 m ρ c (Proc.devRef .tc b) := W8_of_ne m ρ c b hb

/-- Folds a buffer's contents back through the host operations and the launches that leave it alone. -/
macro "fold_host" : tactic =>
  `(tactic| simp (disch := decide) only [Cert.KernelIdeal.Gen.V1, Cert.KernelIdeal.Gen.V3, Cert.KernelIdeal.Gen.V5, Cert.KernelIdeal.Gen.V7,
      Cert.KernelIdeal.Gen.W1, Cert.KernelIdeal.Gen.W3, Cert.KernelIdeal.Gen.W5, Cert.KernelIdeal.Gen.W7,
      Cert.KernelIdeal.Gen.hostOps0, Cert.KernelIdeal.Gen.hostOps1, Cert.KernelIdeal.Gen.hostOps2, Cert.KernelIdeal.Gen.hostOps3,
      Cert.KernelIdeal.HostValue.w2_ne, Cert.KernelIdeal.HostValue.w4_ne, Cert.KernelIdeal.HostValue.w6_ne, Cert.KernelIdeal.HostValue.w8_ne,
      Cert.KernelIdeal.HostValue.w2_v21, Cert.KernelIdeal.HostValue.w2_v32, Cert.KernelIdeal.HostValue.w4_v10, Cert.KernelIdeal.HostValue.w4_v43,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne'])

/-! ## Before the first launch (query nodes, first layer) -/

theorem v1_arg0 : (V1 m ρ c main_arg0 : FVec Ideal SNodes .f32) = (m ((c.tc : Thread nD τ).loc main_arg0)) := by
  fold_host <;> rfl
theorem v1_v71 : (V1 m ρ c main_v71 : FVec Ideal SNodes .f32) = (agg scatter_S100000x128_S600000x1_S600000x128_1_0_0_1_wf gather_S100000x128_S600000x1_S600000x128_1_0_n_n_0_1_1128_wf (m ((c.tc : Thread nD τ).loc main_arg2)) (m ((c.tc : Thread nD τ).loc main_arg3)) 1 (m ((c.tc : Thread nD τ).loc main_arg1))) := by
  fold_host <;> rfl
theorem v1_v21 : (V1 m ρ c main_v21 : FVec Ideal SCol .f32) = (invCol bc0_n sc_col (degY scatter_S100000_S600000x1_S600000_n_0_0_1_wf (m ((c.tc : Thread nD τ).loc main_arg3)) 1)) := by
  fold_host <;> rfl
theorem v1_v85 : (V1 m ρ c main_v85 : FVec Ideal SNodes .f32) = (agg scatter_S100000x128_S600000x1_S600000x128_1_0_0_1_wf gather_S100000x128_S600000x1_S600000x128_1_0_n_n_0_1_1128_wf (m ((c.tc : Thread nD τ).loc main_arg2)) (m ((c.tc : Thread nD τ).loc main_arg3)) 2 (m ((c.tc : Thread nD τ).loc main_arg1))) := by
  fold_host <;> rfl
theorem v1_v32 : (V1 m ρ c main_v32 : FVec Ideal SCol .f32) = (invCol bc0_n sc_col (degY scatter_S100000_S600000x1_S600000_n_0_0_1_wf (m ((c.tc : Thread nD τ).loc main_arg3)) 2)) := by
  fold_host <;> rfl
theorem v1_v104 : (V1 m ρ c main_v104 : FVec Ideal SMat .f32) = addf (wmat 1 (m ((c.tc : Thread nD τ).loc main_arg4))) (wmat 2 (m ((c.tc : Thread nD τ).loc main_arg4))) := by
  fold_host <;> rfl
theorem v1_v111 : (V1 m ρ c main_v111 : FVec Ideal SMat .f32) = (wmat 1 (m ((c.tc : Thread nD τ).loc main_arg5))) := by
  fold_host <;> rfl
theorem v1_v113 : (V1 m ρ c main_v113 : FVec Ideal SMat .f32) = (wmat 2 (m ((c.tc : Thread nD τ).loc main_arg5))) := by
  fold_host <;> rfl
theorem v1_v114 : (V1 m ρ c main_v114 : FVec Ideal SRow .f32) = (biasRow sc_row (bvec 1 (m ((c.tc : Thread nD τ).loc main_arg6))) (bvec 2 (m ((c.tc : Thread nD τ).loc main_arg6)))) := by
  fold_host <;> rfl

/-! ## Before the second launch (product nodes, first layer) -/

set_option maxHeartbeats 1000000 in
theorem v3_arg1 : (V3 m ρ c main_arg1 : FVec Ideal SNodes .f32) = (m ((c.tc : Thread nD τ).loc main_arg1)) := by
  fold_host <;> rfl
set_option maxHeartbeats 1000000 in
theorem v3_v57 : (V3 m ρ c main_v57 : FVec Ideal SNodes .f32) = (agg scatter_S100000x128_S600000x1_S600000x128_1_0_0_1_wf gather_S100000x128_S600000x1_S600000x128_1_0_n_n_0_1_1128_wf (m ((c.tc : Thread nD τ).loc main_arg2)) (m ((c.tc : Thread nD τ).loc main_arg3)) 0 (m ((c.tc : Thread nD τ).loc main_arg0))) := by
  fold_host <;> rfl
set_option maxHeartbeats 1000000 in
theorem v3_v10 : (V3 m ρ c main_v10 : FVec Ideal SCol .f32) = (invCol bc0_n sc_col (degY scatter_S100000_S600000x1_S600000_n_0_0_1_wf (m ((c.tc : Thread nD τ).loc main_arg3)) 0)) := by
  fold_host <;> rfl
set_option maxHeartbeats 1000000 in
theorem v3_v99 : (V3 m ρ c main_v99 : FVec Ideal SNodes .f32) = (agg scatter_S100000x128_S600000x1_S600000x128_1_0_0_1_wf gather_S100000x128_S600000x1_S600000x128_1_0_n_n_0_1_1128_wf (m ((c.tc : Thread nD τ).loc main_arg2)) (m ((c.tc : Thread nD τ).loc main_arg3)) 3 (m ((c.tc : Thread nD τ).loc main_arg0))) := by
  fold_host <;> rfl
set_option maxHeartbeats 1000000 in
theorem v3_v43 : (V3 m ρ c main_v43 : FVec Ideal SCol .f32) = (invCol bc0_n sc_col (degY scatter_S100000_S600000x1_S600000_n_0_0_1_wf (m ((c.tc : Thread nD τ).loc main_arg3)) 3)) := by
  fold_host <;> rfl
set_option maxHeartbeats 1000000 in
theorem v3_v120 : (V3 m ρ c main_v120 : FVec Ideal SMat .f32) = addf (wmat 0 (m ((c.tc : Thread nD τ).loc main_arg4))) (wmat 3 (m ((c.tc : Thread nD τ).loc main_arg4))) := by
  fold_host <;> rfl
set_option maxHeartbeats 1000000 in
theorem v3_v127 : (V3 m ρ c main_v127 : FVec Ideal SMat .f32) = (wmat 0 (m ((c.tc : Thread nD τ).loc main_arg5))) := by
  fold_host <;> rfl
set_option maxHeartbeats 1000000 in
theorem v3_v129 : (V3 m ρ c main_v129 : FVec Ideal SMat .f32) = (wmat 3 (m ((c.tc : Thread nD τ).loc main_arg5))) := by
  fold_host <;> rfl
set_option maxHeartbeats 1000000 in
theorem v3_v130 : (V3 m ρ c main_v130 : FVec Ideal SRow .f32) = (biasRow sc_row (bvec 0 (m ((c.tc : Thread nD τ).loc main_arg6))) (bvec 3 (m ((c.tc : Thread nD τ).loc main_arg6)))) := by
  fold_host <;> rfl

/-! ## Before the third launch (query nodes, second layer) -/

set_option maxHeartbeats 4000000 in
theorem v5_v115 : (V5 m ρ c main_v115 : FVec Ideal SNodes .f32) = (W2 m ρ c (Proc.devRef .tc main_v115) : FVec Ideal SNodes .f32) := by
  fold_host <;> rfl
set_option maxHeartbeats 4000000 in
theorem v5_v159 : (V5 m ρ c main_v159 : FVec Ideal SNodes .f32) = (agg scatter_S100000x128_S600000x1_S600000x128_1_0_0_1_wf gather_S100000x128_S600000x1_S600000x128_1_0_n_n_0_1_1128_wf (m ((c.tc : Thread nD τ).loc main_arg2)) (m ((c.tc : Thread nD τ).loc main_arg3)) 1 (W4 m ρ c (Proc.devRef .tc main_v131) : FVec Ideal SNodes .f32)) := by
  fold_host <;> rfl
set_option maxHeartbeats 4000000 in
theorem v5_v21 : (V5 m ρ c main_v21 : FVec Ideal SCol .f32) = (invCol bc0_n sc_col (degY scatter_S100000_S600000x1_S600000_n_0_0_1_wf (m ((c.tc : Thread nD τ).loc main_arg3)) 1)) := by
  fold_host <;> rfl
set_option maxHeartbeats 4000000 in
theorem v5_v173 : (V5 m ρ c main_v173 : FVec Ideal SNodes .f32) = (agg scatter_S100000x128_S600000x1_S600000x128_1_0_0_1_wf gather_S100000x128_S600000x1_S600000x128_1_0_n_n_0_1_1128_wf (m ((c.tc : Thread nD τ).loc main_arg2)) (m ((c.tc : Thread nD τ).loc main_arg3)) 2 (W4 m ρ c (Proc.devRef .tc main_v131) : FVec Ideal SNodes .f32)) := by
  fold_host <;> rfl
set_option maxHeartbeats 4000000 in
theorem v5_v32 : (V5 m ρ c main_v32 : FVec Ideal SCol .f32) = (invCol bc0_n sc_col (degY scatter_S100000_S600000x1_S600000_n_0_0_1_wf (m ((c.tc : Thread nD τ).loc main_arg3)) 2)) := by
  fold_host <;> rfl
set_option maxHeartbeats 4000000 in
theorem v5_v192 : (V5 m ρ c main_v192 : FVec Ideal SMat .f32) = addf (wmat 1 (m ((c.tc : Thread nD τ).loc main_arg7))) (wmat 2 (m ((c.tc : Thread nD τ).loc main_arg7))) := by
  fold_host <;> rfl
set_option maxHeartbeats 4000000 in
theorem v5_v199 : (V5 m ρ c main_v199 : FVec Ideal SMat .f32) = (wmat 1 (m ((c.tc : Thread nD τ).loc main_arg8))) := by
  fold_host <;> rfl
set_option maxHeartbeats 4000000 in
theorem v5_v201 : (V5 m ρ c main_v201 : FVec Ideal SMat .f32) = (wmat 2 (m ((c.tc : Thread nD τ).loc main_arg8))) := by
  fold_host <;> rfl
set_option maxHeartbeats 4000000 in
theorem v5_v202 : (V5 m ρ c main_v202 : FVec Ideal SRow .f32) = (biasRow sc_row (bvec 1 (m ((c.tc : Thread nD τ).loc main_arg9))) (bvec 2 (m ((c.tc : Thread nD τ).loc main_arg9)))) := by
  fold_host <;> rfl

/-! ## Before the fourth launch (product nodes, second layer) -/

set_option maxHeartbeats 4000000 in
theorem v7_v131 : (V7 m ρ c main_v131 : FVec Ideal SNodes .f32) = (W4 m ρ c (Proc.devRef .tc main_v131) : FVec Ideal SNodes .f32) := by
  fold_host <;> rfl
set_option maxHeartbeats 4000000 in
theorem v7_v145 : (V7 m ρ c main_v145 : FVec Ideal SNodes .f32) = (agg scatter_S100000x128_S600000x1_S600000x128_1_0_0_1_wf gather_S100000x128_S600000x1_S600000x128_1_0_n_n_0_1_1128_wf (m ((c.tc : Thread nD τ).loc main_arg2)) (m ((c.tc : Thread nD τ).loc main_arg3)) 0 (W2 m ρ c (Proc.devRef .tc main_v115) : FVec Ideal SNodes .f32)) := by
  fold_host <;> rfl
set_option maxHeartbeats 4000000 in
theorem v7_v10 : (V7 m ρ c main_v10 : FVec Ideal SCol .f32) = (invCol bc0_n sc_col (degY scatter_S100000_S600000x1_S600000_n_0_0_1_wf (m ((c.tc : Thread nD τ).loc main_arg3)) 0)) := by
  fold_host <;> rfl
set_option maxHeartbeats 4000000 in
theorem v7_v187 : (V7 m ρ c main_v187 : FVec Ideal SNodes .f32) = (agg scatter_S100000x128_S600000x1_S600000x128_1_0_0_1_wf gather_S100000x128_S600000x1_S600000x128_1_0_n_n_0_1_1128_wf (m ((c.tc : Thread nD τ).loc main_arg2)) (m ((c.tc : Thread nD τ).loc main_arg3)) 3 (W2 m ρ c (Proc.devRef .tc main_v115) : FVec Ideal SNodes .f32)) := by
  fold_host <;> rfl
set_option maxHeartbeats 4000000 in
theorem v7_v43 : (V7 m ρ c main_v43 : FVec Ideal SCol .f32) = (invCol bc0_n sc_col (degY scatter_S100000_S600000x1_S600000_n_0_0_1_wf (m ((c.tc : Thread nD τ).loc main_arg3)) 3)) := by
  fold_host <;> rfl
set_option maxHeartbeats 4000000 in
theorem v7_v208 : (V7 m ρ c main_v208 : FVec Ideal SMat .f32) = addf (wmat 0 (m ((c.tc : Thread nD τ).loc main_arg7))) (wmat 3 (m ((c.tc : Thread nD τ).loc main_arg7))) := by
  fold_host <;> rfl
set_option maxHeartbeats 4000000 in
theorem v7_v215 : (V7 m ρ c main_v215 : FVec Ideal SMat .f32) = (wmat 0 (m ((c.tc : Thread nD τ).loc main_arg8))) := by
  fold_host <;> rfl
set_option maxHeartbeats 4000000 in
theorem v7_v217 : (V7 m ρ c main_v217 : FVec Ideal SMat .f32) = (wmat 3 (m ((c.tc : Thread nD τ).loc main_arg8))) := by
  fold_host <;> rfl
set_option maxHeartbeats 4000000 in
theorem v7_v218 : (V7 m ρ c main_v218 : FVec Ideal SRow .f32) = (biasRow sc_row (bvec 0 (m ((c.tc : Thread nD τ).loc main_arg9))) (bvec 3 (m ((c.tc : Thread nD τ).loc main_arg9)))) := by
  fold_host <;> rfl

/-! ## The first result is left alone by what follows it -/

set_option maxHeartbeats 4000000 in
theorem w8_v203 : W8 m ρ c (Proc.devRef .tc main_v203) = W6 m ρ c (Proc.devRef .tc main_v203) := by
  fold_host

end Cert.KernelIdeal.HostValue

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.Body.lean ====
/-
  One combine step on a block of 4000 rows, read at one entry on the extended reals.

  The body takes nine blocks: h (4000 × 128), sa (4000 × 128) with its column ia (4000 × 1), sb (4000 × 128) with its
  column ib (4000 × 1), three 128 × 128 weight matrices ws, wa, wb, and one row b (1 × 128). It scales every row of
  sa by that row's entry of ia and every row of sb by that row's entry of ib, multiplies h, the scaled sa and the
  scaled sb by ws, wa, wb on the matrix unit into zero accumulators, adds the three products and then the row b to
  every row; between the layers it takes the maximum with zero. On the extended reals a change of float format is the
  identity and a product into zeros is the plain sum over the contracted axis, so entry (p, q) of the result is

      act ( Σ_k h (p, k) · ws (k, q) + Σ_k (sa (p, k) · ia (p)) · wa (k, q) + Σ_k (sb (p, k) · ib (p)) · wb (k, q) + b (q) ).
-/
import proofs.«155078_j57956288692353_2_alg».proof.Proof.Gen.KernelIdeal.Skeleton
import proofs.«155078_j57956288692353_2_alg».proof.Proof.Sage
import proofs.«155078_j57956288692353_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal

/-- A column [a, 1] broadcast along the second axis to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's contraction contracts the second axis of a 4000 × 128 block with the first axis of a 128 × 128
    matrix: the plain matrix product. -/
theorem dot_eq : dot_S4000x128_S128x128_S4000x128_1_0_0_1_n_n = DotDims.plain 4000 128 128 := rfl

/-- Entry (p, q) of a block times a weight matrix, accumulated into zeros: Σ_k lhs (p, k) · rhs (k, q). -/
theorem product_apply {φ₁ φ₂ : FTy} (lhs : FVec Ideal S4000x128 φ₁) (rhs : FVec Ideal S128x128 φ₂)
    (p : Fin 4000) (q : Fin 128) :
    matmul dot_S4000x128_S128x128_S4000x128_1_0_0_1_n_n none lhs rhs (constant (F := Ideal) S4000x128 .f32 0x00000000#32) (ix2 p q)
      = ∑ k : Fin 128, lhs (ix2 p k) * rhs (ix2 k q) :=
  Cert.PlainMatmul.matmul_zero_apply 4000 128 128 none lhs rhs p q

/-! ## The four bodies at an entry

The first layer's two bodies end in the maximum with zero; the second layer's two do not. Each proof removes the
casts to the same shape, reads the sums and the maximum at (p, q), reads each product as its sum over the contracted
axis and the bias row at its column, and then, under the sums, the changes of format as the identity, the scaling as
a product of two entries and the broadcast column at its row. -/

/-- The first of the first layer's two bodies, at entry (p, q) of its block. -/
theorem pay0 (x0 x1 : Vec Ideal S4000x128 .f32) (x2 : Vec Ideal S4000x1 .f32) (x3 : Vec Ideal S4000x128 .f32)
    (x4 : Vec Ideal S4000x1 .f32) (x5 x6 x7 : Vec Ideal S128x128 .f32) (x8 : Vec Ideal S1x128 .f32)
    (p : Fin 4000) (q : Fin 128) :
    Gen.k0_pay1 (F := Ideal) x0 x1 x2 x3 x4 x5 x6 x7 x8 (ix2 p q)
      = Cert.Sage.act true (((∑ k : Fin 128, x0 (ix2 p k) * x5 (ix2 k q))
          + ∑ k : Fin 128, (x1 (ix2 p k) * x2 (ix2 p (0 : Fin 1))) * x6 (ix2 k q))
          + (∑ k : Fin 128, (x3 (ix2 p k) * x4 (ix2 p (0 : Fin 1))) * x7 (ix2 k q))
          + x8 (ix2 (0 : Fin 1) q)) := by
  unfold Gen.k0_pay1
  simp only [shapeCast_self]
  rw [maximumf_apply, addf_apply, addf_apply, addf_apply, broadcast_apply, broadcastTo_1b_ab_apply,
    product_apply, product_apply, product_apply]
  simp only [truncf_apply, mulf_apply, broadcastTo_a1_ab_apply, Ideal.ofBits_def, Ideal.ofBits_zero_f32]
  rfl

/-- The second of the first layer's two bodies, at entry (p, q) of its block. -/
theorem pay1 (x0 x1 : Vec Ideal S4000x128 .f32) (x2 : Vec Ideal S4000x1 .f32) (x3 : Vec Ideal S4000x128 .f32)
    (x4 : Vec Ideal S4000x1 .f32) (x5 x6 x7 : Vec Ideal S128x128 .f32) (x8 : Vec Ideal S1x128 .f32)
    (p : Fin 4000) (q : Fin 128) :
    Gen.k1_pay1 (F := Ideal) x0 x1 x2 x3 x4 x5 x6 x7 x8 (ix2 p q)
      = Cert.Sage.act true (((∑ k : Fin 128, x0 (ix2 p k) * x5 (ix2 k q))
          + ∑ k : Fin 128, (x1 (ix2 p k) * x2 (ix2 p (0 : Fin 1))) * x6 (ix2 k q))
          + (∑ k : Fin 128, (x3 (ix2 p k) * x4 (ix2 p (0 : Fin 1))) * x7 (ix2 k q))
          + x8 (ix2 (0 : Fin 1) q)) := by
  unfold Gen.k1_pay1
  simp only [shapeCast_self]
  rw [maximumf_apply, addf_apply, addf_apply, addf_apply, broadcast_apply, broadcastTo_1b_ab_apply,
    product_apply, product_apply, product_apply]
  simp only [truncf_apply, mulf_apply, broadcastTo_a1_ab_apply, Ideal.ofBits_def, Ideal.ofBits_zero_f32]
  rfl

/-- The first of the second layer's two bodies, at entry (p, q) of its block: no maximum. -/
theorem pay2 (x0 x1 : Vec Ideal S4000x128 .f32) (x2 : Vec Ideal S4000x1 .f32) (x3 : Vec Ideal S4000x128 .f32)
    (x4 : Vec Ideal S4000x1 .f32) (x5 x6 x7 : Vec Ideal S128x128 .f32) (x8 : Vec Ideal S1x128 .f32)
    (p : Fin 4000) (q : Fin 128) :
    Gen.k2_pay1 (F := Ideal) x0 x1 x2 x3 x4 x5 x6 x7 x8 (ix2 p q)
      = Cert.Sage.act false (((∑ k : Fin 128, x0 (ix2 p k) * x5 (ix2 k q))
          + ∑ k : Fin 128, (x1 (ix2 p k) * x2 (ix2 p (0 : Fin 1))) * x6 (ix2 k q))
          + (∑ k : Fin 128, (x3 (ix2 p k) * x4 (ix2 p (0 : Fin 1))) * x7 (ix2 k q))
          + x8 (ix2 (0 : Fin 1) q)) := by
  unfold Gen.k2_pay1
  simp only [shapeCast_self]
  rw [addf_apply, addf_apply, addf_apply, broadcastTo_1b_ab_apply, product_apply, product_apply, product_apply]
  simp only [truncf_apply, mulf_apply, broadcastTo_a1_ab_apply]
  rfl

/-- The second of the second layer's two bodies, at entry (p, q) of its block: no maximum. -/
theorem pay3 (x0 x1 : Vec Ideal S4000x128 .f32) (x2 : Vec Ideal S4000x1 .f32) (x3 : Vec Ideal S4000x128 .f32)
    (x4 : Vec Ideal S4000x1 .f32) (x5 x6 x7 : Vec Ideal S128x128 .f32) (x8 : Vec Ideal S1x128 .f32)
    (p : Fin 4000) (q : Fin 128) :
    Gen.k3_pay1 (F := Ideal) x0 x1 x2 x3 x4 x5 x6 x7 x8 (ix2 p q)
      = Cert.Sage.act false (((∑ k : Fin 128, x0 (ix2 p k) * x5 (ix2 k q))
          + ∑ k : Fin 128, (x1 (ix2 p k) * x2 (ix2 p (0 : Fin 1))) * x6 (ix2 k q))
          + (∑ k : Fin 128, (x3 (ix2 p k) * x4 (ix2 p (0 : Fin 1))) * x7 (ix2 k q))
          + x8 (ix2 (0 : Fin 1) q)) := by
  unfold Gen.k3_pay1
  simp only [shapeCast_self]
  rw [addf_apply, addf_apply, addf_apply, broadcastTo_1b_ab_apply, product_apply, product_apply, product_apply]
  simp only [truncf_apply, mulf_apply, broadcastTo_a1_ab_apply]
  rfl

/-! ## A block's entry against the whole table

When row p of the row blocks is row r of the node tables and of the two columns, and the weight matrices and the bias
row are the whole arrays, the entry formula at (p, q) is the combine step's entry (r, q). -/

/-- The entry formula on blocks that are rows of the tables is the combine step at that row. -/
theorem entry_eq_combine (relu : Bool)
    (h sa : FVec Ideal Cert.Sage.SNodes .f32) (ia : FVec Ideal Cert.Sage.SCol .f32) (sb : FVec Ideal Cert.Sage.SNodes .f32)
    (ib : FVec Ideal Cert.Sage.SCol .f32) (ws wa wb : FVec Ideal Cert.Sage.SMat .f32) (b : FVec Ideal Cert.Sage.SRow .f32)
    (x0 x1 : Vec Ideal S4000x128 .f32) (x2 : Vec Ideal S4000x1 .f32) (x3 : Vec Ideal S4000x128 .f32)
    (x4 : Vec Ideal S4000x1 .f32) (x5 x6 x7 : Vec Ideal S128x128 .f32) (x8 : Vec Ideal S1x128 .f32)
    (p : Fin 4000) (r : Fin 100000) (q : Fin 128)
    (e0 : ∀ k : Fin 128, x0 (ix2 p k) = h (ix2 r k))
    (e1 : ∀ k : Fin 128, x1 (ix2 p k) = sa (ix2 r k))
    (e2 : x2 (ix2 p (0 : Fin 1)) = ia (ix2 r (0 : Fin 1)))
    (e3 : ∀ k : Fin 128, x3 (ix2 p k) = sb (ix2 r k))
    (e4 : x4 (ix2 p (0 : Fin 1)) = ib (ix2 r (0 : Fin 1)))
    (e5 : ∀ k : Fin 128, x5 (ix2 k q) = ws (ix2 k q))
    (e6 : ∀ k : Fin 128, x6 (ix2 k q) = wa (ix2 k q))
    (e7 : ∀ k : Fin 128, x7 (ix2 k q) = wb (ix2 k q))
    (e8 : x8 (ix2 (0 : Fin 1) q) = b (ix2 (0 : Fin 1) q)) :
    Cert.Sage.act relu (((∑ k : Fin 128, x0 (ix2 p k) * x5 (ix2 k q))
          + ∑ k : Fin 128, (x1 (ix2 p k) * x2 (ix2 p (0 : Fin 1))) * x6 (ix2 k q))
          + (∑ k : Fin 128, (x3 (ix2 p k) * x4 (ix2 p (0 : Fin 1))) * x7 (ix2 k q))
          + x8 (ix2 (0 : Fin 1) q))
      = Cert.Sage.combine relu h sa ia sb ib ws wa wb b (ix2 r q) := by
  rw [Cert.Sage.combine_apply]
  unfold Cert.Sage.combineAt Cert.Sage.dotAt
  simp only [Cert.Sage.scaled_apply, e0, e1, e2, e3, e4, e5, e6, e7, e8]

end Cert.KernelIdeal.Body

end
-- ==== Proof.Region0.lean ====
/-
  The first combine step as a whole table.

  The step runs over 25 blocks of 4000 rows. At block t the three row-blocked tables and the two columns are read at
  rows t · 4000 … t · 4000 + 3999, the three weight matrices and the bias row whole, and the result is written to
  the same rows of the output table. Every row of the 100000 lies in exactly one block (row r in block r / 4000), so
  after the last block the output table is, entry by entry, the combine step of the nine arrays as the step found
  them, with the maximum with zero.
-/
import proofs.«155078_j57956288692353_2_alg».proof.Proof.Gen.KernelIdeal.Frame
import proofs.«155078_j57956288692353_2_alg».proof.Proof.Sage
import proofs.«155078_j57956288692353_2_alg».proof.Proof.Body
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-- The zero offset on both axes. -/
theorem hz0 : (![0, 0] : Fin 2 → Nat) = fun _ => 0 := funext fun a => by fin_cases a <;> rfl

/-- The output table the step should leave: the combine step of the nine arrays as the step finds them. -/
abbrev G0 (c : Dev nD) : S100000x128.Idx → EReal :=
  Cert.Sage.combine true (V c main_arg0) (V c main_v71) (V c main_v21) (V c main_v85) (V c main_v32) (V c main_v104) (V c main_v111) (V c main_v113) (V c main_v114)

/-- The block indices over the 25 points: the row-blocked windows (0 to 4, and the output 9) are at block row t,
    block column 0; the weight and bias windows (5 to 8) stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row p of point t's block of window 0 is row t · 4000 + p of its table. -/
theorem blk0_0 (c : Dev nD) (t : Fin cfg0.N) (p : Fin 4000) (k : Fin 128) (r : Fin 100000)
    (hr : r.val = t.val * 4000 + p.val) :
    (iblk0 V c 0 t : Vec Ideal S4000x128 .f32) (ix2 p k) = (V c main_arg0 : S100000x128.Idx → EReal) (ix2 r k) := by
  obtain ⟨f0a, f0b, -, -, -, -, -, -, -, -, -, -, -, -, -, -, -, -, -, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 4000 + 1 * p.val = r.val; rw [f0a, hr]; omega
  | ⟨1, _⟩ => show win0_0.index t (1 : Fin 2) * 128 + 1 * k.val = k.val; rw [f0b]; omega

/-- Row p of point t's block of window 1 is row t · 4000 + p of its table. -/
theorem blk0_1 (c : Dev nD) (t : Fin cfg0.N) (p : Fin 4000) (k : Fin 128) (r : Fin 100000)
    (hr : r.val = t.val * 4000 + p.val) :
    (iblk0 V c 1 t : Vec Ideal S4000x128 .f32) (ix2 p k) = (V c main_v71 : S100000x128.Idx → EReal) (ix2 r k) := by
  obtain ⟨-, -, f1a, f1b, -, -, -, -, -, -, -, -, -, -, -, -, -, -, -, -⟩ := idx_facts0 t
  unfold iblk0
  rw [View.read_apply]
  show V c main_v71 _ = V c main_v71 _
  refine congrArg (V c main_v71) (funext fun a => Fin.ext ?_)
  match a with
  | ⟨0, _⟩ => show win0_1.index t (0 : Fin 2) * 4000 + 1 * p.val = r.val; rw [f1a, hr]; omega
  | ⟨1, _⟩ => show win0_1.index t (1 : Fin 2) * 128 + 1 * k.val = k.val; rw [f1b]; omega

/-- Entry p of point t's block of window 2 is entry t · 4000 + p of its column. -/
theorem blk0_2 (c : Dev nD) (t : Fin cfg0.N) (p : Fin 4000) (r : Fin 100000)
    (hr : r.val = t.val * 4000 + p.val) :
    (iblk0 V c 2 t : Vec Ideal S4000x1 .f32) (ix2 p (0 : Fin 1)) = (V c main_v21 : S100000x1.Idx → EReal) (ix2 r (0 : Fin 1)) := by
  obtain ⟨-, -, -, -, f2a, f2b, -, -, -, -, -, -, -, -, -, -, -, -, -, -⟩ := idx_facts0 t
  unfold iblk0
  rw [View.read_apply]
  show V c main_v21 _ = V c main_v21 _
  refine congrArg (V c main_v21) (funext fun a => Fin.ext ?_)
  match a with
  | ⟨0, _⟩ => show win0_2.index t (0 : Fin 2) * 4000 + 1 * p.val = r.val; rw [f2a, hr]; omega
  | ⟨1, _⟩ => show win0_2.index t (1 : Fin 2) * 1 + 1 * (0 : Fin 1).val = (0 : Fin 1).val; rw [f2b]; rfl

/-- Row p of point t's block of window 3 is row t · 4000 + p of its table. -/
theorem blk0_3 (c : Dev nD) (t : Fin cfg0.N) (p : Fin 4000) (k : Fin 128) (r : Fin 100000)
    (hr : r.val = t.val * 4000 + p.val) :
    (iblk0 V c 3 t : Vec Ideal S4000x128 .f32) (ix2 p k) = (V c main_v85 : S100000x128.Idx → EReal) (ix2 r k) := by
  obtain ⟨-, -, -, -, -, -, f3a, f3b, -, -, -, -, -, -, -, -, -, -, -, -⟩ := idx_facts0 t
  unfold iblk0
  rw [View.read_apply]
  show V c main_v85 _ = V c main_v85 _
  refine congrArg (V c main_v85) (funext fun a => Fin.ext ?_)
  match a with
  | ⟨0, _⟩ => show win0_3.index t (0 : Fin 2) * 4000 + 1 * p.val = r.val; rw [f3a, hr]; omega
  | ⟨1, _⟩ => show win0_3.index t (1 : Fin 2) * 128 + 1 * k.val = k.val; rw [f3b]; omega

/-- Entry p of point t's block of window 4 is entry t · 4000 + p of its column. -/
theorem blk0_4 (c : Dev nD) (t : Fin cfg0.N) (p : Fin 4000) (r : Fin 100000)
    (hr : r.val = t.val * 4000 + p.val) :
    (iblk0 V c 4 t : Vec Ideal S4000x1 .f32) (ix2 p (0 : Fin 1)) = (V c main_v32 : S100000x1.Idx → EReal) (ix2 r (0 : Fin 1)) := by
  obtain ⟨-, -, -, -, -, -, -, -, f4a, f4b, -, -, -, -, -, -, -, -, -, -⟩ := idx_facts0 t
  unfold iblk0
  rw [View.read_apply]
  show V c main_v32 _ = V c main_v32 _
  refine congrArg (V c main_v32) (funext fun a => Fin.ext ?_)
  match a with
  | ⟨0, _⟩ => show win0_4.index t (0 : Fin 2) * 4000 + 1 * p.val = r.val; rw [f4a, hr]; omega
  | ⟨1, _⟩ => show win0_4.index t (1 : Fin 2) * 1 + 1 * (0 : Fin 1).val = (0 : Fin 1).val; rw [f4b]; rfl

/-- Window 5's block at every point is its whole weight matrix. -/
theorem blk0_5 (c : Dev nD) (t : Fin cfg0.N) (k q : Fin 128) :
    (iblk0 V c 5 t : Vec Ideal S128x128 .f32) (ix2 k q) = (V c main_v104 : S128x128.Idx → EReal) (ix2 k q) := by
  obtain ⟨-, -, -, -, -, -, -, -, -, -, f5a, f5b, -, -, -, -, -, -, -, -⟩ := idx_facts0 t
  unfold iblk0
  rw [View.read_apply]
  show V c main_v104 _ = V c main_v104 _
  refine congrArg (V c main_v104) (funext fun a => Fin.ext ?_)
  match a with
  | ⟨0, _⟩ => show win0_5.index t (0 : Fin 2) * 128 + 1 * k.val = k.val; rw [f5a]; omega
  | ⟨1, _⟩ => show win0_5.index t (1 : Fin 2) * 128 + 1 * q.val = q.val; rw [f5b]; omega

/-- Window 6's block at every point is its whole weight matrix. -/
theorem blk0_6 (c : Dev nD) (t : Fin cfg0.N) (k q : Fin 128) :
    (iblk0 V c 6 t : Vec Ideal S128x128 .f32) (ix2 k q) = (V c main_v111 : S128x128.Idx → EReal) (ix2 k q) := by
  obtain ⟨-, -, -, -, -, -, -, -, -, -, -, -, f6a, f6b, -, -, -, -, -, -⟩ := idx_facts0 t
  unfold iblk0
  rw [View.read_apply]
  show V c main_v111 _ = V c main_v111 _
  refine congrArg (V c main_v111) (funext fun a => Fin.ext ?_)
  match a with
  | ⟨0, _⟩ => show win0_6.index t (0 : Fin 2) * 128 + 1 * k.val = k.val; rw [f6a]; omega
  | ⟨1, _⟩ => show win0_6.index t (1 : Fin 2) * 128 + 1 * q.val = q.val; rw [f6b]; omega

/-- Window 7's block at every point is its whole weight matrix. -/
theorem blk0_7 (c : Dev nD) (t : Fin cfg0.N) (k q : Fin 128) :
    (iblk0 V c 7 t : Vec Ideal S128x128 .f32) (ix2 k q) = (V c main_v113 : S128x128.Idx → EReal) (ix2 k q) := by
  obtain ⟨-, -, -, -, -, -, -, -, -, -, -, -, -, -, f7a, f7b, -, -, -, -⟩ := idx_facts0 t
  unfold iblk0
  rw [View.read_apply]
  show V c main_v113 _ = V c main_v113 _
  refine congrArg (V c main_v113) (funext fun a => Fin.ext ?_)
  match a with
  | ⟨0, _⟩ => show win0_7.index t (0 : Fin 2) * 128 + 1 * k.val = k.val; rw [f7a]; omega
  | ⟨1, _⟩ => show win0_7.index t (1 : Fin 2) * 128 + 1 * q.val = q.val; rw [f7b]; omega

/-- Window 8's block at every point is its whole bias row. -/
theorem blk0_8 (c : Dev nD) (t : Fin cfg0.N) (q : Fin 128) :
    (iblk0 V c 8 t : Vec Ideal S1x128 .f32) (ix2 (0 : Fin 1) q) = (V c main_v114 : S1x128.Idx → EReal) (ix2 (0 : Fin 1) q) := by
  obtain ⟨-, -, -, -, -, -, -, -, -, -, -, -, -, -, -, -, f8a, f8b, -, -⟩ := idx_facts0 t
  unfold iblk0
  rw [View.read_apply]
  show V c main_v114 _ = V c main_v114 _
  refine congrArg (V c main_v114) (funext fun a => Fin.ext ?_)
  match a with
  | ⟨0, _⟩ => show win0_8.index t (0 : Fin 2) * 1 + 1 * (0 : Fin 1).val = (0 : Fin 1).val; rw [f8a]; rfl
  | ⟨1, _⟩ => show win0_8.index t (1 : Fin 2) * 128 + 1 * q.val = q.val; rw [f8b]; omega

/-- Entry (p, q) of what point t computes from its nine blocks is entry (t · 4000 + p, q) of the combine step. -/
theorem point0 (c : Dev nD) (t : Fin cfg0.N) (p : Fin 4000) (q : Fin 128) (r : Fin 100000)
    (hr : r.val = t.val * 4000 + p.val) :
    k0_pay1 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 p q) = G0 V c (ix2 r q) :=
  (Body.pay0 (iblk0 V c 0 t) (iblk0 V c 1 t) (iblk0 V c 2 t) (iblk0 V c 3 t) (iblk0 V c 4 t) (iblk0 V c 5 t) (iblk0 V c 6 t) (iblk0 V c 7 t) (iblk0 V c 8 t) p q).trans
    (Body.entry_eq_combine true (V c main_arg0) (V c main_v71) (V c main_v21) (V c main_v85) (V c main_v32) (V c main_v104) (V c main_v111) (V c main_v113) (V c main_v114)
      (iblk0 V c 0 t) (iblk0 V c 1 t) (iblk0 V c 2 t) (iblk0 V c 3 t) (iblk0 V c 4 t) (iblk0 V c 5 t) (iblk0 V c 6 t) (iblk0 V c 7 t) (iblk0 V c 8 t) p r q
      (fun k => blk0_0 V c t p k r hr) (fun k => blk0_1 V c t p k r hr) (blk0_2 V c t p r hr)
      (fun k => blk0_3 V c t p k r hr) (blk0_4 V c t p r hr)
      (fun k => blk0_5 V c t k q) (fun k => blk0_6 V c t k q) (fun k => blk0_7 V c t k q) (blk0_8 V c t q))

/-- What point t writes back is block t of the combine step's table. -/
theorem flushed0_eq (c : Dev nD) (t : Fin cfg0.N) :
    (dat0 (F := Ideal) V c).flushed 9 t = ((cfg0.win 9).blk t).view.read (Elt Ideal) (G0 V c) := by
  show (cfg0.win 9).cut (grid0.coords t) ((dat0 (F := Ideal) V c).after 9 t) = _
  rw [after0_9]
  unfold out0_9
  rw [View.canon_unit_zero hz0]
  simp only [View.ld_unit_zero (S := S4000x128) hz0, View.ld_unit_zero (S := S4000x1) hz0,
    View.ld_unit_zero (S := S128x128) hz0, View.ld_unit_zero (S := S1x128) hz0]
  obtain ⟨-, -, -, -, -, -, -, -, -, -, -, -, -, -, -, -, -, -, f9a, f9b⟩ := idx_facts0 t
  have hN : cfg0.N = 25 := N_0
  funext j
  show k0_pay1 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) j = G0 V c (((cfg0.win 9).blk t).view.emb j)
  have hj0 : (j 0).val < 4000 := (j 0).isLt
  obtain ⟨r, hr⟩ : ∃ r : Fin 100000, r.val = t.val * 4000 + (j 0).val :=
    ⟨⟨t.val * 4000 + (j 0).val, by have := t.isLt; omega⟩, rfl⟩
  have hemb : ((cfg0.win 9).blk t).view.emb j = ix2 r (j 1) := funext fun a => Fin.ext (by
    match a with
    | ⟨0, _⟩ => show win0_9.index t (0 : Fin 2) * 4000 + 1 * (j 0).val = r.val; rw [f9a, hr]; omega
    | ⟨1, _⟩ => show win0_9.index t (1 : Fin 2) * 128 + 1 * (j 1).val = (j 1).val; rw [f9b]; omega)
  rw [hemb]
  exact (congrArg (k0_pay1 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) (eq_ix2 (n0 := 4000) (n1 := 128) j)).trans (point0 V c t (j 0) (j 1) r hr)

/-- An index of the output table is in point t's block iff each coordinate is in the block's range on its axis. -/
theorem mem_blk0 (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v115).slice (win0_9.rect t)).set ↔ _
  rw [View.set_slice_whole, Rect.mem_set_unit]
  exact Iff.rfl

/-- Every entry of the output table is written: row r by point r / 4000, and every point writes back. -/
theorem cover0 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, -, -, -, -, -, -, -, -, -, -, -, -, f9a, f9b⟩ := idx_facts0 t
  refine ⟨t, flush0_9 t, ?_⟩
  rw [mem_blk0]
  intro a
  match a with
  | ⟨0, _⟩ => show win0_9.index t (0 : Fin 2) * 4000 ≤ (i 0).val ∧ (i 0).val < win0_9.index t (0 : Fin 2) * 4000 + 4000; rw [f9a, ht]; omega
  | ⟨1, _⟩ => show win0_9.index t (1 : Fin 2) * 128 ≤ (i 1).val ∧ (i 1).val < win0_9.index t (1 : Fin 2) * 128 + 128; rw [f9b]; omega

/-- After the last point the output table is the combine step of the nine arrays as the step found them. -/
theorem final0 (c : Dev nD) :
    (dat0 (F := Ideal) V c).arrAt 9 cfg0.N
      = Cert.Sage.combine true (V c main_arg0) (V c main_v71) (V c main_v21) (V c main_v85) (V c main_v32) (V c main_v104) (V c main_v111) (V c main_v113) (V c main_v114) :=
  (dat0 (F := Ideal) V c).arrAt_eq_of_cover 9 (G0 V c) (fun t _ => flushed0_eq V c t) cover0

end Cert.KernelIdeal.RegionValue

end
-- ==== Proof.Region1.lean ====
/-
  The second combine step as a whole table.

  The step runs over 25 blocks of 4000 rows. At block t the three row-blocked tables and the two columns are read at
  rows t · 4000 … t · 4000 + 3999, the three weight matrices and the bias row whole, and the result is written to
  the same rows of the output table. Every row of the 100000 lies in exactly one block (row r in block r / 4000), so
  after the last block the output table is, entry by entry, the combine step of the nine arrays as the step found
  them, with the maximum with zero.
-/
import proofs.«155078_j57956288692353_2_alg».proof.Proof.Gen.KernelIdeal.Frame
import proofs.«155078_j57956288692353_2_alg».proof.Proof.Sage
import proofs.«155078_j57956288692353_2_alg».proof.Proof.Body
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-- The zero offset on both axes. -/
theorem hz1 : (![0, 0] : Fin 2 → Nat) = fun _ => 0 := funext fun a => by fin_cases a <;> rfl

/-- The output table the step should leave: the combine step of the nine arrays as the step finds them. -/
abbrev G1 (c : Dev nD) : S100000x128.Idx → EReal :=
  Cert.Sage.combine true (V c main_arg1) (V c main_v57) (V c main_v10) (V c main_v99) (V c main_v43) (V c main_v120) (V c main_v127) (V c main_v129) (V c main_v130)

/-- The block indices over the 25 points: the row-blocked windows (0 to 4, and the output 9) are at block row t,
    block column 0; the weight and bias windows (5 to 8) stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Row p of point t's block of window 0 is row t · 4000 + p of its table. -/
theorem blk1_0 (c : Dev nD) (t : Fin cfg1.N) (p : Fin 4000) (k : Fin 128) (r : Fin 100000)
    (hr : r.val = t.val * 4000 + p.val) :
    (iblk1 V c 0 t : Vec Ideal S4000x128 .f32) (ix2 p k) = (V c main_arg1 : S100000x128.Idx → EReal) (ix2 r k) := by
  obtain ⟨f0a, f0b, -, -, -, -, -, -, -, -, -, -, -, -, -, -, -, -, -, -⟩ := idx_facts1 t
  unfold iblk1
  rw [View.read_apply]
  show V c main_arg1 _ = V c main_arg1 _
  refine congrArg (V c main_arg1) (funext fun a => Fin.ext ?_)
  match a with
  | ⟨0, _⟩ => show win1_0.index t (0 : Fin 2) * 4000 + 1 * p.val = r.val; rw [f0a, hr]; omega
  | ⟨1, _⟩ => show win1_0.index t (1 : Fin 2) * 128 + 1 * k.val = k.val; rw [f0b]; omega

/-- Row p of point t's block of window 1 is row t · 4000 + p of its table. -/
theorem blk1_1 (c : Dev nD) (t : Fin cfg1.N) (p : Fin 4000) (k : Fin 128) (r : Fin 100000)
    (hr : r.val = t.val * 4000 + p.val) :
    (iblk1 V c 1 t : Vec Ideal S4000x128 .f32) (ix2 p k) = (V c main_v57 : S100000x128.Idx → EReal) (ix2 r k) := by
  obtain ⟨-, -, f1a, f1b, -, -, -, -, -, -, -, -, -, -, -, -, -, -, -, -⟩ := idx_facts1 t
  unfold iblk1
  rw [View.read_apply]
  show V c main_v57 _ = V c main_v57 _
  refine congrArg (V c main_v57) (funext fun a => Fin.ext ?_)
  match a with
  | ⟨0, _⟩ => show win1_1.index t (0 : Fin 2) * 4000 + 1 * p.val = r.val; rw [f1a, hr]; omega
  | ⟨1, _⟩ => show win1_1.index t (1 : Fin 2) * 128 + 1 * k.val = k.val; rw [f1b]; omega

/-- Entry p of point t's block of window 2 is entry t · 4000 + p of its column. -/
theorem blk1_2 (c : Dev nD) (t : Fin cfg1.N) (p : Fin 4000) (r : Fin 100000)
    (hr : r.val = t.val * 4000 + p.val) :
    (iblk1 V c 2 t : Vec Ideal S4000x1 .f32) (ix2 p (0 : Fin 1)) = (V c main_v10 : S100000x1.Idx → EReal) (ix2 r (0 : Fin 1)) := by
  obtain ⟨-, -, -, -, f2a, f2b, -, -, -, -, -, -, -, -, -, -, -, -, -, -⟩ := idx_facts1 t
  unfold iblk1
  rw [View.read_apply]
  show V c main_v10 _ = V c main_v10 _
  refine congrArg (V c main_v10) (funext fun a => Fin.ext ?_)
  match a with
  | ⟨0, _⟩ => show win1_2.index t (0 : Fin 2) * 4000 + 1 * p.val = r.val; rw [f2a, hr]; omega
  | ⟨1, _⟩ => show win1_2.index t (1 : Fin 2) * 1 + 1 * (0 : Fin 1).val = (0 : Fin 1).val; rw [f2b]; rfl

/-- Row p of point t's block of window 3 is row t · 4000 + p of its table. -/
theorem blk1_3 (c : Dev nD) (t : Fin cfg1.N) (p : Fin 4000) (k : Fin 128) (r : Fin 100000)
    (hr : r.val = t.val * 4000 + p.val) :
    (iblk1 V c 3 t : Vec Ideal S4000x128 .f32) (ix2 p k) = (V c main_v99 : S100000x128.Idx → EReal) (ix2 r k) := by
  obtain ⟨-, -, -, -, -, -, f3a, f3b, -, -, -, -, -, -, -, -, -, -, -, -⟩ := idx_facts1 t
  unfold iblk1
  rw [View.read_apply]
  show V c main_v99 _ = V c main_v99 _
  refine congrArg (V c main_v99) (funext fun a => Fin.ext ?_)
  match a with
  | ⟨0, _⟩ => show win1_3.index t (0 : Fin 2) * 4000 + 1 * p.val = r.val; rw [f3a, hr]; omega
  | ⟨1, _⟩ => show win1_3.index t (1 : Fin 2) * 128 + 1 * k.val = k.val; rw [f3b]; omega

/-- Entry p of point t's block of window 4 is entry t · 4000 + p of its column. -/
theorem blk1_4 (c : Dev nD) (t : Fin cfg1.N) (p : Fin 4000) (r : Fin 100000)
    (hr : r.val = t.val * 4000 + p.val) :
    (iblk1 V c 4 t : Vec Ideal S4000x1 .f32) (ix2 p (0 : Fin 1)) = (V c main_v43 : S100000x1.Idx → EReal) (ix2 r (0 : Fin 1)) := by
  obtain ⟨-, -, -, -, -, -, -, -, f4a, f4b, -, -, -, -, -, -, -, -, -, -⟩ := idx_facts1 t
  unfold iblk1
  rw [View.read_apply]
  show V c main_v43 _ = V c main_v43 _
  refine congrArg (V c main_v43) (funext fun a => Fin.ext ?_)
  match a with
  | ⟨0, _⟩ => show win1_4.index t (0 : Fin 2) * 4000 + 1 * p.val = r.val; rw [f4a, hr]; omega
  | ⟨1, _⟩ => show win1_4.index t (1 : Fin 2) * 1 + 1 * (0 : Fin 1).val = (0 : Fin 1).val; rw [f4b]; rfl

/-- Window 5's block at every point is its whole weight matrix. -/
theorem blk1_5 (c : Dev nD) (t : Fin cfg1.N) (k q : Fin 128) :
    (iblk1 V c 5 t : Vec Ideal S128x128 .f32) (ix2 k q) = (V c main_v120 : S128x128.Idx → EReal) (ix2 k q) := by
  obtain ⟨-, -, -, -, -, -, -, -, -, -, f5a, f5b, -, -, -, -, -, -, -, -⟩ := idx_facts1 t
  unfold iblk1
  rw [View.read_apply]
  show V c main_v120 _ = V c main_v120 _
  refine congrArg (V c main_v120) (funext fun a => Fin.ext ?_)
  match a with
  | ⟨0, _⟩ => show win1_5.index t (0 : Fin 2) * 128 + 1 * k.val = k.val; rw [f5a]; omega
  | ⟨1, _⟩ => show win1_5.index t (1 : Fin 2) * 128 + 1 * q.val = q.val; rw [f5b]; omega

/-- Window 6's block at every point is its whole weight matrix. -/
theorem blk1_6 (c : Dev nD) (t : Fin cfg1.N) (k q : Fin 128) :
    (iblk1 V c 6 t : Vec Ideal S128x128 .f32) (ix2 k q) = (V c main_v127 : S128x128.Idx → EReal) (ix2 k q) := by
  obtain ⟨-, -, -, -, -, -, -, -, -, -, -, -, f6a, f6b, -, -, -, -, -, -⟩ := idx_facts1 t
  unfold iblk1
  rw [View.read_apply]
  show V c main_v127 _ = V c main_v127 _
  refine congrArg (V c main_v127) (funext fun a => Fin.ext ?_)
  match a with
  | ⟨0, _⟩ => show win1_6.index t (0 : Fin 2) * 128 + 1 * k.val = k.val; rw [f6a]; omega
  | ⟨1, _⟩ => show win1_6.index t (1 : Fin 2) * 128 + 1 * q.val = q.val; rw [f6b]; omega

/-- Window 7's block at every point is its whole weight matrix. -/
theorem blk1_7 (c : Dev nD) (t : Fin cfg1.N) (k q : Fin 128) :
    (iblk1 V c 7 t : Vec Ideal S128x128 .f32) (ix2 k q) = (V c main_v129 : S128x128.Idx → EReal) (ix2 k q) := by
  obtain ⟨-, -, -, -, -, -, -, -, -, -, -, -, -, -, f7a, f7b, -, -, -, -⟩ := idx_facts1 t
  unfold iblk1
  rw [View.read_apply]
  show V c main_v129 _ = V c main_v129 _
  refine congrArg (V c main_v129) (funext fun a => Fin.ext ?_)
  match a with
  | ⟨0, _⟩ => show win1_7.index t (0 : Fin 2) * 128 + 1 * k.val = k.val; rw [f7a]; omega
  | ⟨1, _⟩ => show win1_7.index t (1 : Fin 2) * 128 + 1 * q.val = q.val; rw [f7b]; omega

/-- Window 8's block at every point is its whole bias row. -/
theorem blk1_8 (c : Dev nD) (t : Fin cfg1.N) (q : Fin 128) :
    (iblk1 V c 8 t : Vec Ideal S1x128 .f32) (ix2 (0 : Fin 1) q) = (V c main_v130 : S1x128.Idx → EReal) (ix2 (0 : Fin 1) q) := by
  obtain ⟨-, -, -, -, -, -, -, -, -, -, -, -, -, -, -, -, f8a, f8b, -, -⟩ := idx_facts1 t
  unfold iblk1
  rw [View.read_apply]
  show V c main_v130 _ = V c main_v130 _
  refine congrArg (V c main_v130) (funext fun a => Fin.ext ?_)
  match a with
  | ⟨0, _⟩ => show win1_8.index t (0 : Fin 2) * 1 + 1 * (0 : Fin 1).val = (0 : Fin 1).val; rw [f8a]; rfl
  | ⟨1, _⟩ => show win1_8.index t (1 : Fin 2) * 128 + 1 * q.val = q.val; rw [f8b]; omega

/-- Entry (p, q) of what point t computes from its nine blocks is entry (t · 4000 + p, q) of the combine step. -/
theorem point1 (c : Dev nD) (t : Fin cfg1.N) (p : Fin 4000) (q : Fin 128) (r : Fin 100000)
    (hr : r.val = t.val * 4000 + p.val) :
    k1_pay1 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (ix2 p q) = G1 V c (ix2 r q) :=
  (Body.pay1 (iblk1 V c 0 t) (iblk1 V c 1 t) (iblk1 V c 2 t) (iblk1 V c 3 t) (iblk1 V c 4 t) (iblk1 V c 5 t) (iblk1 V c 6 t) (iblk1 V c 7 t) (iblk1 V c 8 t) p q).trans
    (Body.entry_eq_combine true (V c main_arg1) (V c main_v57) (V c main_v10) (V c main_v99) (V c main_v43) (V c main_v120) (V c main_v127) (V c main_v129) (V c main_v130)
      (iblk1 V c 0 t) (iblk1 V c 1 t) (iblk1 V c 2 t) (iblk1 V c 3 t) (iblk1 V c 4 t) (iblk1 V c 5 t) (iblk1 V c 6 t) (iblk1 V c 7 t) (iblk1 V c 8 t) p r q
      (fun k => blk1_0 V c t p k r hr) (fun k => blk1_1 V c t p k r hr) (blk1_2 V c t p r hr)
      (fun k => blk1_3 V c t p k r hr) (blk1_4 V c t p r hr)
      (fun k => blk1_5 V c t k q) (fun k => blk1_6 V c t k q) (fun k => blk1_7 V c t k q) (blk1_8 V c t q))

/-- What point t writes back is block t of the combine step's table. -/
theorem flushed1_eq (c : Dev nD) (t : Fin cfg1.N) :
    (dat1 (F := Ideal) V c).flushed 9 t = ((cfg1.win 9).blk t).view.read (Elt Ideal) (G1 V c) := by
  show (cfg1.win 9).cut (grid1.coords t) ((dat1 (F := Ideal) V c).after 9 t) = _
  rw [after1_9]
  unfold out1_9
  rw [View.canon_unit_zero hz1]
  simp only [View.ld_unit_zero (S := S4000x128) hz1, View.ld_unit_zero (S := S4000x1) hz1,
    View.ld_unit_zero (S := S128x128) hz1, View.ld_unit_zero (S := S1x128) hz1]
  obtain ⟨-, -, -, -, -, -, -, -, -, -, -, -, -, -, -, -, -, -, f9a, f9b⟩ := idx_facts1 t
  have hN : cfg1.N = 25 := N_1
  funext j
  show k1_pay1 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) j = G1 V c (((cfg1.win 9).blk t).view.emb j)
  have hj0 : (j 0).val < 4000 := (j 0).isLt
  obtain ⟨r, hr⟩ : ∃ r : Fin 100000, r.val = t.val * 4000 + (j 0).val :=
    ⟨⟨t.val * 4000 + (j 0).val, by have := t.isLt; omega⟩, rfl⟩
  have hemb : ((cfg1.win 9).blk t).view.emb j = ix2 r (j 1) := funext fun a => Fin.ext (by
    match a with
    | ⟨0, _⟩ => show win1_9.index t (0 : Fin 2) * 4000 + 1 * (j 0).val = r.val; rw [f9a, hr]; omega
    | ⟨1, _⟩ => show win1_9.index t (1 : Fin 2) * 128 + 1 * (j 1).val = (j 1).val; rw [f9b]; omega)
  rw [hemb]
  exact (congrArg (k1_pay1 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t)) (eq_ix2 (n0 := 4000) (n1 := 128) j)).trans (point1 V c t (j 0) (j 1) r hr)

/-- An index of the output table is in point t's block iff each coordinate is in the block's range on its axis. -/
theorem mem_blk1 (t : Fin cfg1.N) (i : S100000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_v131).slice (win1_9.rect t)).set ↔ _
  rw [View.set_slice_whole, Rect.mem_set_unit]
  exact Iff.rfl

/-- Every entry of the output table is written: row r by point r / 4000, and every point writes back. -/
theorem cover1 (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, -, -, -, -, -, -, -, -, -, -, -, -, f9a, f9b⟩ := idx_facts1 t
  refine ⟨t, flush1_9 t, ?_⟩
  rw [mem_blk1]
  intro a
  match a with
  | ⟨0, _⟩ => show win1_9.index t (0 : Fin 2) * 4000 ≤ (i 0).val ∧ (i 0).val < win1_9.index t (0 : Fin 2) * 4000 + 4000; rw [f9a, ht]; omega
  | ⟨1, _⟩ => show win1_9.index t (1 : Fin 2) * 128 ≤ (i 1).val ∧ (i 1).val < win1_9.index t (1 : Fin 2) * 128 + 128; rw [f9b]; omega

/-- After the last point the output table is the combine step of the nine arrays as the step found them. -/
theorem final1 (c : Dev nD) :
    (dat1 (F := Ideal) V c).arrAt 9 cfg1.N
      = Cert.Sage.combine true (V c main_arg1) (V c main_v57) (V c main_v10) (V c main_v99) (V c main_v43) (V c main_v120) (V c main_v127) (V c main_v129) (V c main_v130) :=
  (dat1 (F := Ideal) V c).arrAt_eq_of_cover 9 (G1 V c) (fun t _ => flushed1_eq V c t) cover1

end Cert.KernelIdeal.RegionValue

end
-- ==== Proof.Region2.lean ====
/-
  The third combine step as a whole table.

  The step runs over 25 blocks of 4000 rows. At block t the three row-blocked tables and the two columns are read at
  rows t · 4000 … t · 4000 + 3999, the three weight matrices and the bias row whole, and the result is written to
  the same rows of the output table. Every row of the 100000 lies in exactly one block (row r in block r / 4000), so
  after the last block the output table is, entry by entry, the combine step of the nine arrays as the step found
  them, with no activation.
-/
import proofs.«155078_j57956288692353_2_alg».proof.Proof.Gen.KernelIdeal.Frame
import proofs.«155078_j57956288692353_2_alg».proof.Proof.Sage
import proofs.«155078_j57956288692353_2_alg».proof.Proof.Body
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-- The zero offset on both axes. -/
theorem hz2 : (![0, 0] : Fin 2 → Nat) = fun _ => 0 := funext fun a => by fin_cases a <;> rfl

/-- The output table the step should leave: the combine step of the nine arrays as the step finds them. -/
abbrev G2 (c : Dev nD) : S100000x128.Idx → EReal :=
  Cert.Sage.combine false (V c main_v115) (V c main_v159) (V c main_v21) (V c main_v173) (V c main_v32) (V c main_v192) (V c main_v199) (V c main_v201) (V c main_v202)

/-- The block indices over the 25 points: the row-blocked windows (0 to 4, and the output 9) are at block row t,
    block column 0; the weight and bias windows (5 to 8) stay at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Row p of point t's block of window 0 is row t · 4000 + p of its table. -/
theorem blk2_0 (c : Dev nD) (t : Fin cfg2.N) (p : Fin 4000) (k : Fin 128) (r : Fin 100000)
    (hr : r.val = t.val * 4000 + p.val) :
    (iblk2 V c 0 t : Vec Ideal S4000x128 .f32) (ix2 p k) = (V c main_v115 : S100000x128.Idx → EReal) (ix2 r k) := by
  obtain ⟨f0a, f0b, -, -, -, -, -, -, -, -, -, -, -, -, -, -, -, -, -, -⟩ := idx_facts2 t
  unfold iblk2
  rw [View.read_apply]
  show V c main_v115 _ = V c main_v115 _
  refine congrArg (V c main_v115) (funext fun a => Fin.ext ?_)
  match a with
  | ⟨0, _⟩ => show win2_0.index t (0 : Fin 2) * 4000 + 1 * p.val = r.val; rw [f0a, hr]; omega
  | ⟨1, _⟩ => show win2_0.index t (1 : Fin 2) * 128 + 1 * k.val = k.val; rw [f0b]; omega

/-- Row p of point t's block of window 1 is row t · 4000 + p of its table. -/
theorem blk2_1 (c : Dev nD) (t : Fin cfg2.N) (p : Fin 4000) (k : Fin 128) (r : Fin 100000)
    (hr : r.val = t.val * 4000 + p.val) :
    (iblk2 V c 1 t : Vec Ideal S4000x128 .f32) (ix2 p k) = (V c main_v159 : S100000x128.Idx → EReal) (ix2 r k) := by
  obtain ⟨-, -, f1a, f1b, -, -, -, -, -, -, -, -, -, -, -, -, -, -, -, -⟩ := idx_facts2 t
  unfold iblk2
  rw [View.read_apply]
  show V c main_v159 _ = V c main_v159 _
  refine congrArg (V c main_v159) (funext fun a => Fin.ext ?_)
  match a with
  | ⟨0, _⟩ => show win2_1.index t (0 : Fin 2) * 4000 + 1 * p.val = r.val; rw [f1a, hr]; omega
  | ⟨1, _⟩ => show win2_1.index t (1 : Fin 2) * 128 + 1 * k.val = k.val; rw [f1b]; omega

/-- Entry p of point t's block of window 2 is entry t · 4000 + p of its column. -/
theorem blk2_2 (c : Dev nD) (t : Fin cfg2.N) (p : Fin 4000) (r : Fin 100000)
    (hr : r.val = t.val * 4000 + p.val) :
    (iblk2 V c 2 t : Vec Ideal S4000x1 .f32) (ix2 p (0 : Fin 1)) = (V c main_v21 : S100000x1.Idx → EReal) (ix2 r (0 : Fin 1)) := by
  obtain ⟨-, -, -, -, f2a, f2b, -, -, -, -, -, -, -, -, -, -, -, -, -, -⟩ := idx_facts2 t
  unfold iblk2
  rw [View.read_apply]
  show V c main_v21 _ = V c main_v21 _
  refine congrArg (V c main_v21) (funext fun a => Fin.ext ?_)
  match a with
  | ⟨0, _⟩ => show win2_2.index t (0 : Fin 2) * 4000 + 1 * p.val = r.val; rw [f2a, hr]; omega
  | ⟨1, _⟩ => show win2_2.index t (1 : Fin 2) * 1 + 1 * (0 : Fin 1).val = (0 : Fin 1).val; rw [f2b]; rfl

/-- Row p of point t's block of window 3 is row t · 4000 + p of its table. -/
theorem blk2_3 (c : Dev nD) (t : Fin cfg2.N) (p : Fin 4000) (k : Fin 128) (r : Fin 100000)
    (hr : r.val = t.val * 4000 + p.val) :
    (iblk2 V c 3 t : Vec Ideal S4000x128 .f32) (ix2 p k) = (V c main_v173 : S100000x128.Idx → EReal) (ix2 r k) := by
  obtain ⟨-, -, -, -, -, -, f3a, f3b, -, -, -, -, -, -, -, -, -, -, -, -⟩ := idx_facts2 t
  unfold iblk2
  rw [View.read_apply]
  show V c main_v173 _ = V c main_v173 _
  refine congrArg (V c main_v173) (funext fun a => Fin.ext ?_)
  match a with
  | ⟨0, _⟩ => show win2_3.index t (0 : Fin 2) * 4000 + 1 * p.val = r.val; rw [f3a, hr]; omega
  | ⟨1, _⟩ => show win2_3.index t (1 : Fin 2) * 128 + 1 * k.val = k.val; rw [f3b]; omega

/-- Entry p of point t's block of window 4 is entry t · 4000 + p of its column. -/
theorem blk2_4 (c : Dev nD) (t : Fin cfg2.N) (p : Fin 4000) (r : Fin 100000)
    (hr : r.val = t.val * 4000 + p.val) :
    (iblk2 V c 4 t : Vec Ideal S4000x1 .f32) (ix2 p (0 : Fin 1)) = (V c main_v32 : S100000x1.Idx → EReal) (ix2 r (0 : Fin 1)) := by
  obtain ⟨-, -, -, -, -, -, -, -, f4a, f4b, -, -, -, -, -, -, -, -, -, -⟩ := idx_facts2 t
  unfold iblk2
  rw [View.read_apply]
  show V c main_v32 _ = V c main_v32 _
  refine congrArg (V c main_v32) (funext fun a => Fin.ext ?_)
  match a with
  | ⟨0, _⟩ => show win2_4.index t (0 : Fin 2) * 4000 + 1 * p.val = r.val; rw [f4a, hr]; omega
  | ⟨1, _⟩ => show win2_4.index t (1 : Fin 2) * 1 + 1 * (0 : Fin 1).val = (0 : Fin 1).val; rw [f4b]; rfl

/-- Window 5's block at every point is its whole weight matrix. -/
theorem blk2_5 (c : Dev nD) (t : Fin cfg2.N) (k q : Fin 128) :
    (iblk2 V c 5 t : Vec Ideal S128x128 .f32) (ix2 k q) = (V c main_v192 : S128x128.Idx → EReal) (ix2 k q) := by
  obtain ⟨-, -, -, -, -, -, -, -, -, -, f5a, f5b, -, -, -, -, -, -, -, -⟩ := idx_facts2 t
  unfold iblk2
  rw [View.read_apply]
  show V c main_v192 _ = V c main_v192 _
  refine congrArg (V c main_v192) (funext fun a => Fin.ext ?_)
  match a with
  | ⟨0, _⟩ => show win2_5.index t (0 : Fin 2) * 128 + 1 * k.val = k.val; rw [f5a]; omega
  | ⟨1, _⟩ => show win2_5.index t (1 : Fin 2) * 128 + 1 * q.val = q.val; rw [f5b]; omega

/-- Window 6's block at every point is its whole weight matrix. -/
theorem blk2_6 (c : Dev nD) (t : Fin cfg2.N) (k q : Fin 128) :
    (iblk2 V c 6 t : Vec Ideal S128x128 .f32) (ix2 k q) = (V c main_v199 : S128x128.Idx → EReal) (ix2 k q) := by
  obtain ⟨-, -, -, -, -, -, -, -, -, -, -, -, f6a, f6b, -, -, -, -, -, -⟩ := idx_facts2 t
  unfold iblk2
  rw [View.read_apply]
  show V c main_v199 _ = V c main_v199 _
  refine congrArg (V c main_v199) (funext fun a => Fin.ext ?_)
  match a with
  | ⟨0, _⟩ => show win2_6.index t (0 : Fin 2) * 128 + 1 * k.val = k.val; rw [f6a]; omega
  | ⟨1, _⟩ => show win2_6.index t (1 : Fin 2) * 128 + 1 * q.val = q.val; rw [f6b]; omega

/-- Window 7's block at every point is its whole weight matrix. -/
theorem blk2_7 (c : Dev nD) (t : Fin cfg2.N) (k q : Fin 128) :
    (iblk2 V c 7 t : Vec Ideal S128x128 .f32) (ix2 k q) = (V c main_v201 : S128x128.Idx → EReal) (ix2 k q) := by
  obtain ⟨-, -, -, -, -, -, -, -, -, -, -, -, -, -, f7a, f7b, -, -, -, -⟩ := idx_facts2 t
  unfold iblk2
  rw [View.read_apply]
  show V c main_v201 _ = V c main_v201 _
  refine congrArg (V c main_v201) (funext fun a => Fin.ext ?_)
  match a with
  | ⟨0, _⟩ => show win2_7.index t (0 : Fin 2) * 128 + 1 * k.val = k.val; rw [f7a]; omega
  | ⟨1, _⟩ => show win2_7.index t (1 : Fin 2) * 128 + 1 * q.val = q.val; rw [f7b]; omega

/-- Window 8's block at every point is its whole bias row. -/
theorem blk2_8 (c : Dev nD) (t : Fin cfg2.N) (q : Fin 128) :
    (iblk2 V c 8 t : Vec Ideal S1x128 .f32) (ix2 (0 : Fin 1) q) = (V c main_v202 : S1x128.Idx → EReal) (ix2 (0 : Fin 1) q) := by
  obtain ⟨-, -, -, -, -, -, -, -, -, -, -, -, -, -, -, -, f8a, f8b, -, -⟩ := idx_facts2 t
  unfold iblk2
  rw [View.read_apply]
  show V c main_v202 _ = V c main_v202 _
  refine congrArg (V c main_v202) (funext fun a => Fin.ext ?_)
  match a with
  | ⟨0, _⟩ => show win2_8.index t (0 : Fin 2) * 1 + 1 * (0 : Fin 1).val = (0 : Fin 1).val; rw [f8a]; rfl
  | ⟨1, _⟩ => show win2_8.index t (1 : Fin 2) * 128 + 1 * q.val = q.val; rw [f8b]; omega

/-- Entry (p, q) of what point t computes from its nine blocks is entry (t · 4000 + p, q) of the combine step. -/
theorem point2 (c : Dev nD) (t : Fin cfg2.N) (p : Fin 4000) (q : Fin 128) (r : Fin 100000)
    (hr : r.val = t.val * 4000 + p.val) :
    k2_pay1 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (ix2 p q) = G2 V c (ix2 r q) :=
  (Body.pay2 (iblk2 V c 0 t) (iblk2 V c 1 t) (iblk2 V c 2 t) (iblk2 V c 3 t) (iblk2 V c 4 t) (iblk2 V c 5 t) (iblk2 V c 6 t) (iblk2 V c 7 t) (iblk2 V c 8 t) p q).trans
    (Body.entry_eq_combine false (V c main_v115) (V c main_v159) (V c main_v21) (V c main_v173) (V c main_v32) (V c main_v192) (V c main_v199) (V c main_v201) (V c main_v202)
      (iblk2 V c 0 t) (iblk2 V c 1 t) (iblk2 V c 2 t) (iblk2 V c 3 t) (iblk2 V c 4 t) (iblk2 V c 5 t) (iblk2 V c 6 t) (iblk2 V c 7 t) (iblk2 V c 8 t) p r q
      (fun k => blk2_0 V c t p k r hr) (fun k => blk2_1 V c t p k r hr) (blk2_2 V c t p r hr)
      (fun k => blk2_3 V c t p k r hr) (blk2_4 V c t p r hr)
      (fun k => blk2_5 V c t k q) (fun k => blk2_6 V c t k q) (fun k => blk2_7 V c t k q) (blk2_8 V c t q))

/-- What point t writes back is block t of the combine step's table. -/
theorem flushed2_eq (c : Dev nD) (t : Fin cfg2.N) :
    (dat2 (F := Ideal) V c).flushed 9 t = ((cfg2.win 9).blk t).view.read (Elt Ideal) (G2 V c) := by
  show (cfg2.win 9).cut (grid2.coords t) ((dat2 (F := Ideal) V c).after 9 t) = _
  rw [after2_9]
  unfold out2_9
  rw [View.canon_unit_zero hz2]
  simp only [View.ld_unit_zero (S := S4000x128) hz2, View.ld_unit_zero (S := S4000x1) hz2,
    View.ld_unit_zero (S := S128x128) hz2, View.ld_unit_zero (S := S1x128) hz2]
  obtain ⟨-, -, -, -, -, -, -, -, -, -, -, -, -, -, -, -, -, -, f9a, f9b⟩ := idx_facts2 t
  have hN : cfg2.N = 25 := N_2
  funext j
  show k2_pay1 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) j = G2 V c (((cfg2.win 9).blk t).view.emb j)
  have hj0 : (j 0).val < 4000 := (j 0).isLt
  obtain ⟨r, hr⟩ : ∃ r : Fin 100000, r.val = t.val * 4000 + (j 0).val :=
    ⟨⟨t.val * 4000 + (j 0).val, by have := t.isLt; omega⟩, rfl⟩
  have hemb : ((cfg2.win 9).blk t).view.emb j = ix2 r (j 1) := funext fun a => Fin.ext (by
    match a with
    | ⟨0, _⟩ => show win2_9.index t (0 : Fin 2) * 4000 + 1 * (j 0).val = r.val; rw [f9a, hr]; omega
    | ⟨1, _⟩ => show win2_9.index t (1 : Fin 2) * 128 + 1 * (j 1).val = (j 1).val; rw [f9b]; omega)
  rw [hemb]
  exact (congrArg (k2_pay1 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t)) (eq_ix2 (n0 := 4000) (n1 := 128) j)).trans (point2 V c t (j 0) (j 1) r hr)

/-- An index of the output table is in point t's block iff each coordinate is in the block's range on its axis. -/
theorem mem_blk2 (t : Fin cfg2.N) (i : S100000x128.Idx) :
    i ∈ ((cfg2.win 9).blk t).view.set ↔ ∀ a : Fin 2, win2_9.index t a * S4000x128.size a ≤ (i a).val ∧ (i a).val < win2_9.index t a * S4000x128.size a + S4000x128.size a := by
  show i ∈ ((View.whole main_v203).slice (win2_9.rect t)).set ↔ _
  rw [View.set_slice_whole, Rect.mem_set_unit]
  exact Iff.rfl

/-- Every entry of the output table is written: row r by point r / 4000, and every point writes back. -/
theorem cover2 (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  obtain ⟨t, ht⟩ : ∃ t : Fin cfg2.N, t.val = (i 0).val / 4000 :=
    ⟨⟨(i 0).val / 4000, by rw [show cfg2.N = 25 from N_2]; omega⟩, rfl⟩
  obtain ⟨-, -, -, -, -, -, -, -, -, -, -, -, -, -, -, -, -, -, f9a, f9b⟩ := idx_facts2 t
  refine ⟨t, flush2_9 t, ?_⟩
  rw [mem_blk2]
  intro a
  match a with
  | ⟨0, _⟩ => show win2_9.index t (0 : Fin 2) * 4000 ≤ (i 0).val ∧ (i 0).val < win2_9.index t (0 : Fin 2) * 4000 + 4000; rw [f9a, ht]; omega
  | ⟨1, _⟩ => show win2_9.index t (1 : Fin 2) * 128 ≤ (i 1).val ∧ (i 1).val < win2_9.index t (1 : Fin 2) * 128 + 128; rw [f9b]; omega

/-- After the last point the output table is the combine step of the nine arrays as the step found them. -/
theorem final2 (c : Dev nD) :
    (dat2 (F := Ideal) V c).arrAt 9 cfg2.N
      = Cert.Sage.combine false (V c main_v115) (V c main_v159) (V c main_v21) (V c main_v173) (V c main_v32) (V c main_v192) (V c main_v199) (V c main_v201) (V c main_v202) :=
  (dat2 (F := Ideal) V c).arrAt_eq_of_cover 9 (G2 V c) (fun t _ => flushed2_eq V c t) cover2

end Cert.KernelIdeal.RegionValue

end
-- ==== Proof.Region3.lean ====
/-
  The fourth combine step as a whole table.

  The step runs over 25 blocks of 4000 rows. At block t the three row-blocked tables and the two columns are read at
  rows t · 4000 … t · 4000 + 3999, the three weight matrices and the bias row whole, and the result is written to
  the same rows of the output table. Every row of the 100000 lies in exactly one block (row r in block r / 4000), so
  after the last block the output table is, entry by entry, the combine step of the nine arrays as the step found
  them, with no activation.
-/
import proofs.«155078_j57956288692353_2_alg».proof.Proof.Gen.KernelIdeal.Frame
import proofs.«155078_j57956288692353_2_alg».proof.Proof.Sage
import proofs.«155078_j57956288692353_2_alg».proof.Proof.Body
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-- The zero offset on both axes. -/
theorem hz3 : (![0, 0] : Fin 2 → Nat) = fun _ => 0 := funext fun a => by fin_cases a <;> rfl

/-- The output table the step should leave: the combine step of the nine arrays as the step finds them. -/
abbrev G3 (c : Dev nD) : S100000x128.Idx → EReal :=
  Cert.Sage.combine false (V c main_v131) (V c main_v145) (V c main_v10) (V c main_v187) (V c main_v43) (V c main_v208) (V c main_v215) (V c main_v217) (V c main_v218)

/-- The block indices over the 25 points: the row-blocked windows (0 to 4, and the output 9) are at block row t,
    block column 0; the weight and bias windows (5 to 8) stay at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- Row p of point t's block of window 0 is row t · 4000 + p of its table. -/
theorem blk3_0 (c : Dev nD) (t : Fin cfg3.N) (p : Fin 4000) (k : Fin 128) (r : Fin 100000)
    (hr : r.val = t.val * 4000 + p.val) :
    (iblk3 V c 0 t : Vec Ideal S4000x128 .f32) (ix2 p k) = (V c main_v131 : S100000x128.Idx → EReal) (ix2 r k) := by
  obtain ⟨f0a, f0b, -, -, -, -, -, -, -, -, -, -, -, -, -, -, -, -, -, -⟩ := idx_facts3 t
  unfold iblk3
  rw [View.read_apply]
  show V c main_v131 _ = V c main_v131 _
  refine congrArg (V c main_v131) (funext fun a => Fin.ext ?_)
  match a with
  | ⟨0, _⟩ => show win3_0.index t (0 : Fin 2) * 4000 + 1 * p.val = r.val; rw [f0a, hr]; omega
  | ⟨1, _⟩ => show win3_0.index t (1 : Fin 2) * 128 + 1 * k.val = k.val; rw [f0b]; omega

/-- Row p of point t's block of window 1 is row t · 4000 + p of its table. -/
theorem blk3_1 (c : Dev nD) (t : Fin cfg3.N) (p : Fin 4000) (k : Fin 128) (r : Fin 100000)
    (hr : r.val = t.val * 4000 + p.val) :
    (iblk3 V c 1 t : Vec Ideal S4000x128 .f32) (ix2 p k) = (V c main_v145 : S100000x128.Idx → EReal) (ix2 r k) := by
  obtain ⟨-, -, f1a, f1b, -, -, -, -, -, -, -, -, -, -, -, -, -, -, -, -⟩ := idx_facts3 t
  unfold iblk3
  rw [View.read_apply]
  show V c main_v145 _ = V c main_v145 _
  refine congrArg (V c main_v145) (funext fun a => Fin.ext ?_)
  match a with
  | ⟨0, _⟩ => show win3_1.index t (0 : Fin 2) * 4000 + 1 * p.val = r.val; rw [f1a, hr]; omega
  | ⟨1, _⟩ => show win3_1.index t (1 : Fin 2) * 128 + 1 * k.val = k.val; rw [f1b]; omega

/-- Entry p of point t's block of window 2 is entry t · 4000 + p of its column. -/
theorem blk3_2 (c : Dev nD) (t : Fin cfg3.N) (p : Fin 4000) (r : Fin 100000)
    (hr : r.val = t.val * 4000 + p.val) :
    (iblk3 V c 2 t : Vec Ideal S4000x1 .f32) (ix2 p (0 : Fin 1)) = (V c main_v10 : S100000x1.Idx → EReal) (ix2 r (0 : Fin 1)) := by
  obtain ⟨-, -, -, -, f2a, f2b, -, -, -, -, -, -, -, -, -, -, -, -, -, -⟩ := idx_facts3 t
  unfold iblk3
  rw [View.read_apply]
  show V c main_v10 _ = V c main_v10 _
  refine congrArg (V c main_v10) (funext fun a => Fin.ext ?_)
  match a with
  | ⟨0, _⟩ => show win3_2.index t (0 : Fin 2) * 4000 + 1 * p.val = r.val; rw [f2a, hr]; omega
  | ⟨1, _⟩ => show win3_2.index t (1 : Fin 2) * 1 + 1 * (0 : Fin 1).val = (0 : Fin 1).val; rw [f2b]; rfl

/-- Row p of point t's block of window 3 is row t · 4000 + p of its table. -/
theorem blk3_3 (c : Dev nD) (t : Fin cfg3.N) (p : Fin 4000) (k : Fin 128) (r : Fin 100000)
    (hr : r.val = t.val * 4000 + p.val) :
    (iblk3 V c 3 t : Vec Ideal S4000x128 .f32) (ix2 p k) = (V c main_v187 : S100000x128.Idx → EReal) (ix2 r k) := by
  obtain ⟨-, -, -, -, -, -, f3a, f3b, -, -, -, -, -, -, -, -, -, -, -, -⟩ := idx_facts3 t
  unfold iblk3
  rw [View.read_apply]
  show V c main_v187 _ = V c main_v187 _
  refine congrArg (V c main_v187) (funext fun a => Fin.ext ?_)
  match a with
  | ⟨0, _⟩ => show win3_3.index t (0 : Fin 2) * 4000 + 1 * p.val = r.val; rw [f3a, hr]; omega
  | ⟨1, _⟩ => show win3_3.index t (1 : Fin 2) * 128 + 1 * k.val = k.val; rw [f3b]; omega

/-- Entry p of point t's block of window 4 is entry t · 4000 + p of its column. -/
theorem blk3_4 (c : Dev nD) (t : Fin cfg3.N) (p : Fin 4000) (r : Fin 100000)
    (hr : r.val = t.val * 4000 + p.val) :
    (iblk3 V c 4 t : Vec Ideal S4000x1 .f32) (ix2 p (0 : Fin 1)) = (V c main_v43 : S100000x1.Idx → EReal) (ix2 r (0 : Fin 1)) := by
  obtain ⟨-, -, -, -, -, -, -, -, f4a, f4b, -, -, -, -, -, -, -, -, -, -⟩ := idx_facts3 t
  unfold iblk3
  rw [View.read_apply]
  show V c main_v43 _ = V c main_v43 _
  refine congrArg (V c main_v43) (funext fun a => Fin.ext ?_)
  match a with
  | ⟨0, _⟩ => show win3_4.index t (0 : Fin 2) * 4000 + 1 * p.val = r.val; rw [f4a, hr]; omega
  | ⟨1, _⟩ => show win3_4.index t (1 : Fin 2) * 1 + 1 * (0 : Fin 1).val = (0 : Fin 1).val; rw [f4b]; rfl

/-- Window 5's block at every point is its whole weight matrix. -/
theorem blk3_5 (c : Dev nD) (t : Fin cfg3.N) (k q : Fin 128) :
    (iblk3 V c 5 t : Vec Ideal S128x128 .f32) (ix2 k q) = (V c main_v208 : S128x128.Idx → EReal) (ix2 k q) := by
  obtain ⟨-, -, -, -, -, -, -, -, -, -, f5a, f5b, -, -, -, -, -, -, -, -⟩ := idx_facts3 t
  unfold iblk3
  rw [View.read_apply]
  show V c main_v208 _ = V c main_v208 _
  refine congrArg (V c main_v208) (funext fun a => Fin.ext ?_)
  match a with
  | ⟨0, _⟩ => show win3_5.index t (0 : Fin 2) * 128 + 1 * k.val = k.val; rw [f5a]; omega
  | ⟨1, _⟩ => show win3_5.index t (1 : Fin 2) * 128 + 1 * q.val = q.val; rw [f5b]; omega

/-- Window 6's block at every point is its whole weight matrix. -/
theorem blk3_6 (c : Dev nD) (t : Fin cfg3.N) (k q : Fin 128) :
    (iblk3 V c 6 t : Vec Ideal S128x128 .f32) (ix2 k q) = (V c main_v215 : S128x128.Idx → EReal) (ix2 k q) := by
  obtain ⟨-, -, -, -, -, -, -, -, -, -, -, -, f6a, f6b, -, -, -, -, -, -⟩ := idx_facts3 t
  unfold iblk3
  rw [View.read_apply]
  show V c main_v215 _ = V c main_v215 _
  refine congrArg (V c main_v215) (funext fun a => Fin.ext ?_)
  match a with
  | ⟨0, _⟩ => show win3_6.index t (0 : Fin 2) * 128 + 1 * k.val = k.val; rw [f6a]; omega
  | ⟨1, _⟩ => show win3_6.index t (1 : Fin 2) * 128 + 1 * q.val = q.val; rw [f6b]; omega

/-- Window 7's block at every point is its whole weight matrix. -/
theorem blk3_7 (c : Dev nD) (t : Fin cfg3.N) (k q : Fin 128) :
    (iblk3 V c 7 t : Vec Ideal S128x128 .f32) (ix2 k q) = (V c main_v217 : S128x128.Idx → EReal) (ix2 k q) := by
  obtain ⟨-, -, -, -, -, -, -, -, -, -, -, -, -, -, f7a, f7b, -, -, -, -⟩ := idx_facts3 t
  unfold iblk3
  rw [View.read_apply]
  show V c main_v217 _ = V c main_v217 _
  refine congrArg (V c main_v217) (funext fun a => Fin.ext ?_)
  match a with
  | ⟨0, _⟩ => show win3_7.index t (0 : Fin 2) * 128 + 1 * k.val = k.val; rw [f7a]; omega
  | ⟨1, _⟩ => show win3_7.index t (1 : Fin 2) * 128 + 1 * q.val = q.val; rw [f7b]; omega

/-- Window 8's block at every point is its whole bias row. -/
theorem blk3_8 (c : Dev nD) (t : Fin cfg3.N) (q : Fin 128) :
    (iblk3 V c 8 t : Vec Ideal S1x128 .f32) (ix2 (0 : Fin 1) q) = (V c main_v218 : S1x128.Idx → EReal) (ix2 (0 : Fin 1) q) := by
  obtain ⟨-, -, -, -, -, -, -, -, -, -, -, -, -, -, -, -, f8a, f8b, -, -⟩ := idx_facts3 t
  unfold iblk3
  rw [View.read_apply]
  show V c main_v218 _ = V c main_v218 _
  refine congrArg (V c main_v218) (funext fun a => Fin.ext ?_)
  match a with
  | ⟨0, _⟩ => show win3_8.index t (0 : Fin 2) * 1 + 1 * (0 : Fin 1).val = (0 : Fin 1).val; rw [f8a]; rfl
  | ⟨1, _⟩ => show win3_8.index t (1 : Fin 2) * 128 + 1 * q.val = q.val; rw [f8b]; omega

/-- Entry (p, q) of what point t computes from its nine blocks is entry (t · 4000 + p, q) of the combine step. -/
theorem point3 (c : Dev nD) (t : Fin cfg3.N) (p : Fin 4000) (q : Fin 128) (r : Fin 100000)
    (hr : r.val = t.val * 4000 + p.val) :
    k3_pay1 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) (ix2 p q) = G3 V c (ix2 r q) :=
  (Body.pay3 (iblk3 V c 0 t) (iblk3 V c 1 t) (iblk3 V c 2 t) (iblk3 V c 3 t) (iblk3 V c 4 t) (iblk3 V c 5 t) (iblk3 V c 6 t) (iblk3 V c 7 t) (iblk3 V c 8 t) p q).trans
    (Body.entry_eq_combine false (V c main_v131) (V c main_v145) (V c main_v10) (V c main_v187) (V c main_v43) (V c main_v208) (V c main_v215) (V c main_v217) (V c main_v218)
      (iblk3 V c 0 t) (iblk3 V c 1 t) (iblk3 V c 2 t) (iblk3 V c 3 t) (iblk3 V c 4 t) (iblk3 V c 5 t) (iblk3 V c 6 t) (iblk3 V c 7 t) (iblk3 V c 8 t) p r q
      (fun k => blk3_0 V c t p k r hr) (fun k => blk3_1 V c t p k r hr) (blk3_2 V c t p r hr)
      (fun k => blk3_3 V c t p k r hr) (blk3_4 V c t p r hr)
      (fun k => blk3_5 V c t k q) (fun k => blk3_6 V c t k q) (fun k => blk3_7 V c t k q) (blk3_8 V c t q))

/-- What point t writes back is block t of the combine step's table. -/
theorem flushed3_eq (c : Dev nD) (t : Fin cfg3.N) :
    (dat3 (F := Ideal) V c).flushed 9 t = ((cfg3.win 9).blk t).view.read (Elt Ideal) (G3 V c) := by
  show (cfg3.win 9).cut (grid3.coords t) ((dat3 (F := Ideal) V c).after 9 t) = _
  rw [after3_9]
  unfold out3_9
  rw [View.canon_unit_zero hz3]
  simp only [View.ld_unit_zero (S := S4000x128) hz3, View.ld_unit_zero (S := S4000x1) hz3,
    View.ld_unit_zero (S := S128x128) hz3, View.ld_unit_zero (S := S1x128) hz3]
  obtain ⟨-, -, -, -, -, -, -, -, -, -, -, -, -, -, -, -, -, -, f9a, f9b⟩ := idx_facts3 t
  have hN : cfg3.N = 25 := N_3
  funext j
  show k3_pay1 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) j = G3 V c (((cfg3.win 9).blk t).view.emb j)
  have hj0 : (j 0).val < 4000 := (j 0).isLt
  obtain ⟨r, hr⟩ : ∃ r : Fin 100000, r.val = t.val * 4000 + (j 0).val :=
    ⟨⟨t.val * 4000 + (j 0).val, by have := t.isLt; omega⟩, rfl⟩
  have hemb : ((cfg3.win 9).blk t).view.emb j = ix2 r (j 1) := funext fun a => Fin.ext (by
    match a with
    | ⟨0, _⟩ => show win3_9.index t (0 : Fin 2) * 4000 + 1 * (j 0).val = r.val; rw [f9a, hr]; omega
    | ⟨1, _⟩ => show win3_9.index t (1 : Fin 2) * 128 + 1 * (j 1).val = (j 1).val; rw [f9b]; omega)
  rw [hemb]
  exact (congrArg (k3_pay1 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t)) (eq_ix2 (n0 := 4000) (n1 := 128) j)).trans (point3 V c t (j 0) (j 1) r hr)

/-- An index of the output table is in point t's block iff each coordinate is in the block's range on its axis. -/
theorem mem_blk3 (t : Fin cfg3.N) (i : S100000x128.Idx) :
    i ∈ ((cfg3.win 9).blk t).view.set ↔ ∀ a : Fin 2, win3_9.index t a * S4000x128.size a ≤ (i a).val ∧ (i a).val < win3_9.index t a * S4000x128.size a + S4000x128.size a := by
  show i ∈ ((View.whole main_v219).slice (win3_9.rect t)).set ↔ _
  rw [View.set_slice_whole, Rect.mem_set_unit]
  exact Iff.rfl

/-- Every entry of the output table is written: row r by point r / 4000, and every point writes back. -/
theorem cover3 (i : S100000x128.Idx) :
    ∃ t : Fin cfg3.N, (cfg3.win 9).flush t = true ∧ i ∈ ((cfg3.win 9).blk t).view.set := by
  have hi0 : (i 0).val < 100000 := (i 0).isLt
  have hi1 : (i 1).val < 128 := (i 1).isLt
  obtain ⟨t, ht⟩ : ∃ t : Fin cfg3.N, t.val = (i 0).val / 4000 :=
    ⟨⟨(i 0).val / 4000, by rw [show cfg3.N = 25 from N_3]; omega⟩, rfl⟩
  obtain ⟨-, -, -, -, -, -, -, -, -, -, -, -, -, -, -, -, -, -, f9a, f9b⟩ := idx_facts3 t
  refine ⟨t, flush3_9 t, ?_⟩
  rw [mem_blk3]
  intro a
  match a with
  | ⟨0, _⟩ => show win3_9.index t (0 : Fin 2) * 4000 ≤ (i 0).val ∧ (i 0).val < win3_9.index t (0 : Fin 2) * 4000 + 4000; rw [f9a, ht]; omega
  | ⟨1, _⟩ => show win3_9.index t (1 : Fin 2) * 128 ≤ (i 1).val ∧ (i 1).val < win3_9.index t (1 : Fin 2) * 128 + 128; rw [f9b]; omega

/-- After the last point the output table is the combine step of the nine arrays as the step found them. -/
theorem final3 (c : Dev nD) :
    (dat3 (F := Ideal) V c).arrAt 9 cfg3.N
      = Cert.Sage.combine false (V c main_v131) (V c main_v145) (V c main_v10) (V c main_v187) (V c main_v43) (V c main_v208) (V c main_v215) (V c main_v217) (V c main_v218) :=
  (dat3 (F := Ideal) V c).arrAt_eq_of_cover 9 (G3 V c) (fun t _ => flushed3_eq V c t) cover3

end Cert.KernelIdeal.RegionValue

end
-- ==== Proof.KernelValue.lean ====
/-
  The fused program's two results as the network's functions of its inputs, and their equality with the reference's
  tables.

  Each launch's output array is the fused layer of the nine arrays its windows stage. The first two launches give the
  first layer's tables for query and product nodes; the last two take those tables (and their neighbour sums) and give
  the results. With real inputs each equals the reference's corresponding table.
-/
import proofs.«155078_j57956288692353_2_alg».proof.Proof.KernelHost
import proofs.«155078_j57956288692353_2_alg».proof.Proof.Region0
import proofs.«155078_j57956288692353_2_alg».proof.Proof.Region1
import proofs.«155078_j57956288692353_2_alg».proof.Proof.Region2
import proofs.«155078_j57956288692353_2_alg».proof.Proof.Region3

set_option maxRecDepth 16384

noncomputable section

namespace Cert.KernelIdeal.NetValue

open Cert.KernelIdeal Cert.KernelIdeal.Gen Cert.KernelIdeal.HostValue Cert.Sage
open Idealize.ShloMosaic Idealize.ShloMosaic.TcCoe Idealize.SL.Sem

variable (m : (ℓ : Loc nD τ sig) → Buf (Elt Ideal) ℓ) (ρ : Dev nD → PrngReg) (c : Dev nD)

/-- The first launch's output: the fused layer for query nodes, first layer. -/
theorem q1 : (W2 m ρ c (Proc.devRef .tc main_v115) : FVec Ideal SNodes .f32) = kerQ1 scatter_S100000x128_S600000x1_S600000x128_1_0_0_1_wf gather_S100000x128_S600000x1_S600000x128_1_0_n_n_0_1_1128_wf scatter_S100000_S600000x1_S600000_n_0_0_1_wf (m ((c.tc : Thread nD τ).loc main_arg2)) (m ((c.tc : Thread nD τ).loc main_arg3)) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  refine (W2_arr m ρ c 9).trans ((Cert.KernelIdeal.RegionValue.final0 (V1 m ρ) c).trans ?_)
  rw [v1_arg0, v1_v71, v1_v21, v1_v85, v1_v32, v1_v104, v1_v111, v1_v113, v1_v114]
  rfl

/-- The second launch's output: the fused layer for product nodes, first layer. -/
theorem p1 : (W4 m ρ c (Proc.devRef .tc main_v131) : FVec Ideal SNodes .f32) = kerP1 scatter_S100000x128_S600000x1_S600000x128_1_0_0_1_wf gather_S100000x128_S600000x1_S600000x128_1_0_n_n_0_1_1128_wf scatter_S100000_S600000x1_S600000_n_0_0_1_wf (m ((c.tc : Thread nD τ).loc main_arg2)) (m ((c.tc : Thread nD τ).loc main_arg3)) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  refine (W4_arr m ρ c 9).trans ((Cert.KernelIdeal.RegionValue.final1 (V3 m ρ) c).trans ?_)
  rw [v3_arg1, v3_v57, v3_v10, v3_v99, v3_v43, v3_v120, v3_v127, v3_v129, v3_v130]
  rfl

/-- The third launch's output, the first result: the fused layer for query nodes, second layer. -/
theorem q2 : (W8 m ρ c (Proc.devRef .tc main_v203) : FVec Ideal SNodes .f32) = kerQ2 scatter_S100000x128_S600000x1_S600000x128_1_0_0_1_wf gather_S100000x128_S600000x1_S600000x128_1_0_n_n_0_1_1128_wf scatter_S100000_S600000x1_S600000_n_0_0_1_wf (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (W2 m ρ c (Proc.devRef .tc main_v115) : FVec Ideal SNodes .f32) (W4 m ρ c (Proc.devRef .tc main_v131) : FVec Ideal SNodes .f32) := by
  refine (w8_v203 m ρ c).trans ((W6_arr m ρ c 9).trans ((Cert.KernelIdeal.RegionValue.final2 (V5 m ρ) c).trans ?_))
  rw [v5_v115, v5_v159, v5_v21, v5_v173, v5_v32, v5_v192, v5_v199, v5_v201, v5_v202]
  rfl

/-- The fourth launch's output, the second result: the fused layer for product nodes, second layer. -/
theorem p2 : (W8 m ρ c (Proc.devRef .tc main_v219) : FVec Ideal SNodes .f32) = kerP2 scatter_S100000x128_S600000x1_S600000x128_1_0_0_1_wf gather_S100000x128_S600000x1_S600000x128_1_0_n_n_0_1_1128_wf scatter_S100000_S600000x1_S600000_n_0_0_1_wf (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (W2 m ρ c (Proc.devRef .tc main_v115) : FVec Ideal SNodes .f32) (W4 m ρ c (Proc.devRef .tc main_v131) : FVec Ideal SNodes .f32) := by
  refine (W8_arr m ρ c 9).trans ((Cert.KernelIdeal.RegionValue.final3 (V7 m ρ) c).trans ?_)
  rw [v7_v131, v7_v145, v7_v10, v7_v187, v7_v43, v7_v208, v7_v215, v7_v217, v7_v218]
  rfl

/-- With real inputs the first result is the reference's query table after the second layer. -/
theorem q2_ref (r0 : ∀ i, IsReal ((m ((c.tc : Thread nD τ).loc main_arg0)) i)) (r1 : ∀ i, IsReal ((m ((c.tc : Thread nD τ).loc main_arg1)) i)) (r4 : ∀ i, IsReal ((m ((c.tc : Thread nD τ).loc main_arg4)) i)) (r5 : ∀ i, IsReal ((m ((c.tc : Thread nD τ).loc main_arg5)) i))
    (r6 : ∀ i, IsReal ((m ((c.tc : Thread nD τ).loc main_arg6)) i)) (r7 : ∀ i, IsReal ((m ((c.tc : Thread nD τ).loc main_arg7)) i)) :
    (W8 m ρ c (Proc.devRef .tc main_v203) : FVec Ideal SNodes .f32) = refQ2 scatter_S100000x128_S600000x1_S600000x128_1_0_0_1_wf gather_S100000x128_S600000x1_S600000x128_1_0_n_n_0_1_1128_wf scatter_S100000_S600000x1_S600000_n_0_0_1_wf (m ((c.tc : Thread nD τ).loc main_arg2)) (m ((c.tc : Thread nD τ).loc main_arg3)) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [q2 m ρ c, q1 m ρ c, p1 m ρ c, kerQ1_eq scatter_S100000x128_S600000x1_S600000x128_1_0_0_1_wf gather_S100000x128_S600000x1_S600000x128_1_0_n_n_0_1_1128_wf scatter_S100000_S600000x1_S600000_n_0_0_1_wf (m ((c.tc : Thread nD τ).loc main_arg2)) (m ((c.tc : Thread nD τ).loc main_arg3)) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) r0 r4, kerP1_eq scatter_S100000x128_S600000x1_S600000x128_1_0_0_1_wf gather_S100000x128_S600000x1_S600000x128_1_0_n_n_0_1_1128_wf scatter_S100000_S600000x1_S600000_n_0_0_1_wf (m ((c.tc : Thread nD τ).loc main_arg2)) (m ((c.tc : Thread nD τ).loc main_arg3)) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) r1 r4]
  exact kerQ2_eq scatter_S100000x128_S600000x1_S600000x128_1_0_0_1_wf gather_S100000x128_S600000x1_S600000x128_1_0_n_n_0_1_1128_wf scatter_S100000_S600000x1_S600000_n_0_0_1_wf (m ((c.tc : Thread nD τ).loc main_arg2)) (m ((c.tc : Thread nD τ).loc main_arg3)) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) r0 r1 r4 r5 r6 r7

/-- With real inputs the second result is the reference's product table after the second layer. -/
theorem p2_ref (r0 : ∀ i, IsReal ((m ((c.tc : Thread nD τ).loc main_arg0)) i)) (r1 : ∀ i, IsReal ((m ((c.tc : Thread nD τ).loc main_arg1)) i)) (r4 : ∀ i, IsReal ((m ((c.tc : Thread nD τ).loc main_arg4)) i)) (r5 : ∀ i, IsReal ((m ((c.tc : Thread nD τ).loc main_arg5)) i))
    (r6 : ∀ i, IsReal ((m ((c.tc : Thread nD τ).loc main_arg6)) i)) (r7 : ∀ i, IsReal ((m ((c.tc : Thread nD τ).loc main_arg7)) i)) :
    (W8 m ρ c (Proc.devRef .tc main_v219) : FVec Ideal SNodes .f32) = refP2 scatter_S100000x128_S600000x1_S600000x128_1_0_0_1_wf gather_S100000x128_S600000x1_S600000x128_1_0_n_n_0_1_1128_wf scatter_S100000_S600000x1_S600000_n_0_0_1_wf (m ((c.tc : Thread nD τ).loc main_arg2)) (m ((c.tc : Thread nD τ).loc main_arg3)) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [p2 m ρ c, q1 m ρ c, p1 m ρ c, kerQ1_eq scatter_S100000x128_S600000x1_S600000x128_1_0_0_1_wf gather_S100000x128_S600000x1_S600000x128_1_0_n_n_0_1_1128_wf scatter_S100000_S600000x1_S600000_n_0_0_1_wf (m ((c.tc : Thread nD τ).loc main_arg2)) (m ((c.tc : Thread nD τ).loc main_arg3)) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) r0 r4, kerP1_eq scatter_S100000x128_S600000x1_S600000x128_1_0_0_1_wf gather_S100000x128_S600000x1_S600000x128_1_0_n_n_0_1_1128_wf scatter_S100000_S600000x1_S600000_n_0_0_1_wf (m ((c.tc : Thread nD τ).loc main_arg2)) (m ((c.tc : Thread nD τ).loc main_arg3)) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) r1 r4]
  exact kerP2_eq scatter_S100000x128_S600000x1_S600000x128_1_0_0_1_wf gather_S100000x128_S600000x1_S600000x128_1_0_n_n_0_1_1128_wf scatter_S100000_S600000x1_S600000_n_0_0_1_wf (m ((c.tc : Thread nD τ).loc main_arg2)) (m ((c.tc : Thread nD τ).loc main_arg3)) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) r0 r1 r4 r5 r6 r7

end Cert.KernelIdeal.NetValue

end
-- ==== Proof.Pre.lean ====
/-
  The precondition read back: every float input holds real numbers.

  The precondition is the conjunction, over the eight float inputs, of "every entry's absolute value is below +∞",
  each an and-reduction of elementwise comparisons. An extended real whose absolute value is below +∞ is a real number.
-/
import proofs.«155078_j57956288692353_2_alg».proof.Pre_finite_inputs
import Idealize.ShloMosaic.PureOps.Ideal
import Idealize.ShloMosaic.Lib.ReduceAll
import Idealize.ShloMosaic.Lib.ValueIdx
import proofs.«155078_j57956288692353_2_alg».proof.Proof.SageLaw

noncomputable section

namespace Cert.Pre_finite_inputs.Real

open Idealize.ShloMosaic Cert.Pre_finite_inputs Cert.Sage

variable [hFacts : Cert.Pre_finite_inputs.Facts]

instance : Subsingleton S_.Idx := ⟨fun a b => funext fun d => d.elim0⟩

/-- The word 0x7F800000 denotes +∞. -/
theorem ofBits_inf : Ideal.ofBits .f32 0x7F800000#32 = ⊤ := by
  simp [Ideal.ofBits, Ideal.ieee]

/-- |x| < +∞ makes x a real number. -/
theorem isReal_of_abs_lt (x : EReal) (h : Ideal.cmp .olt (max x (-x)) ⊤ = 1#1) : IsReal x := by
  induction x using EReal.rec with
  | bot => exact absurd h (by simp [Ideal.cmp])
  | top => exact absurd h (by simp [Ideal.cmp])
  | coe r => exact ⟨r, rfl⟩

/-- One conjunct of the precondition: an all-reduction of |x| < +∞ that came out true makes every entry real. -/
theorem all_real {s : Shape} {axes : List (Fin s.rank)} (x : FVec Ideal s .f32) (hb : S_.BroadcastsInDim s ![])
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1) (i : s.Idx) : IsReal (x i) := by
  have h := Host.reduce_andi_all _ _ hr hu ValueIdx.ix0 e i
  refine isReal_of_abs_lt (x i) ?_
  rw [← ofBits_inf]
  exact h

theorem andi_apply (x y : IVec S_ 1) (i : S_.Idx) : andi x y i = IntOp.andi (x i) (y i) := rfl

/-- The precondition makes every entry of every float input a real number. -/
theorem reals (a0 a1 : FVec Ideal S100000x128 .f32) (a2 a3 : IVec S4x600000 32) (a4 a5 : FVec Ideal S4x128x128 .f32)
    (a6 : FVec Ideal S4x128 .f32) (a7 a8 : FVec Ideal S4x128x128 .f32) (a9 : FVec Ideal S4x128 .f32)
    (h : fn (F := Ideal) a0 a1 a2 a3 a4 a5 a6 a7 a8 a9 = fun _ => 1#1) :
    (∀ i, IsReal (a0 i)) ∧ (∀ i, IsReal (a1 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) := by
  have e := congrFun h ValueIdx.ix0
  dsimp only [fn, fn_part1, fn_part2] at e
  simp only [andi_apply, IntOp.andi_eq_one] at e
  obtain ⟨⟨⟨⟨⟨⟨⟨e0, e1⟩, e4⟩, e5⟩, e6⟩, e7⟩, e8⟩, e9⟩ := e
  exact ⟨all_real a0 _ _ _ e0, all_real a1 _ _ _ e1, all_real a4 _ _ _ e4, all_real a5 _ _ _ e5, all_real a6 _ _ _ e6,
    all_real a7 _ _ _ e7, all_real a8 _ _ _ e8, all_real a9 _ _ _ e9⟩

end Cert.Pre_finite_inputs.Real

end
-- ==== Proof.lean ====
/-
  Two layers of a heterogeneous GraphSAGE network: the fused program against its reference.

  The fused program prepares on the host, per relation, the neighbour sums (rows gathered by source index, added by
  destination index) and the reciprocals 1 / max (deg, 1), and launches one combine step per node type and layer:
  h · (Wself_a + Wself_b) + (S_a · (1 / y_a)) · Wneigh_a + (S_b · (1 / y_b)) · Wneigh_b + (bias_a + bias_b), with
  max (·, 0) between the layers. The reference computes, per relation, (h · Wself + (S / y) · Wneigh) + bias and adds
  the relations of a node type. On the extended reals (changes of float format are the identity, matrix products
  are exact sums) the two agree: dividing by y ≥ 1 is multiplying by its reciprocal; regrouping a sum needs no
  hypothesis; multiplying by a sum of two weights distributes because the features and the weights are real
  numbers — the inputs by the precondition, the first layer's outputs because they are finite sums and products of
  real numbers.

  The three frames are the generated ones (the reference's is its run with the results dropped); the
  idealization rewrote nothing, so its claim is trivial.
-/
import proofs.«155078_j57956288692353_2_alg».proof.Defs
import proofs.«155078_j57956288692353_2_alg».proof.Proof.Gen.Kernel
import proofs.«155078_j57956288692353_2_alg».proof.Proof.Gen.Kernel.Skeleton
import proofs.«155078_j57956288692353_2_alg».proof.Proof.Gen.Kernel.Launch
import proofs.«155078_j57956288692353_2_alg».proof.Proof.Gen.Kernel.Points
import proofs.«155078_j57956288692353_2_alg».proof.Proof.Gen.Kernel.Frame
import proofs.«155078_j57956288692353_2_alg».proof.Proof.Gen.KernelIdeal
import proofs.«155078_j57956288692353_2_alg».proof.Proof.Gen.KernelIdeal.Skeleton
import proofs.«155078_j57956288692353_2_alg».proof.Proof.Gen.KernelIdeal.Launch
import proofs.«155078_j57956288692353_2_alg».proof.Proof.Gen.KernelIdeal.Points
import proofs.«155078_j57956288692353_2_alg».proof.Proof.Gen.KernelIdeal.Frame
import proofs.«155078_j57956288692353_2_alg».proof.Proof.Gen.ReferenceIdeal
import proofs.«155078_j57956288692353_2_alg».proof.Proof.Gen.Pre_finite_inputs
import proofs.«155078_j57956288692353_2_alg».proof.Proof.RefRun
import proofs.«155078_j57956288692353_2_alg».proof.Proof.KernelRun
import proofs.«155078_j57956288692353_2_alg».proof.Proof.KernelValue
import proofs.«155078_j57956288692353_2_alg».proof.Proof.Pre
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.NetRun.run m ρ)

/-- From memories agreeing on the inputs, both programs run and end with equal results: the fused program's two
    result arrays, read off its run, are the reference's two result tables of the same inputs. -/
theorem algebraic : Cert.algebraic_KernelIdeal_ReferenceIdeal := by
  intro m ρ m' ρ' hpre hagree
  refine ⟨fun c => Cert.KernelIdeal.Gen.W8 m ρ c (Proc.devRef .tc Cert.KernelIdeal.main_v203),
    fun c => Cert.KernelIdeal.Gen.W8 m ρ c (Proc.devRef .tc Cert.KernelIdeal.main_v219),
    Cert.KernelIdeal.RunValue.run_named (F := Ideal) m ρ, ?_⟩
  refine (θ_run Cert.ReferenceIdeal.defs _ _).mono (fun r h c => ?_) (Cert.ReferenceIdeal.NetRun.run m' ρ')
  obtain ⟨r0, r1, r4, r5, r6, r7, -, -⟩ := Cert.Pre_finite_inputs.Real.reals _ _ _ _ _ _ _ _ _ _ (hpre c)
  obtain ⟨g0, g1, g2, g3, g4, g5, g6, g7, g8, g9⟩ := hagree c
  refine ⟨(h c).1.trans ?_, (h c).2.1.trans ?_, (h c).2.2⟩
  · rw [g0, g1, g2, g3, g4, g5, g6, g7, g8, g9]
    exact (Cert.KernelIdeal.NetValue.q2_ref m ρ c r0 r1 r4 r5 r6 r7).symm
  · rw [g0, g1, g2, g3, g4, g5, g6, g7, g8, g9]
    exact (Cert.KernelIdeal.NetValue.p2_ref m ρ c r0 r1 r4 r5 r6 r7).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
